-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x16x32x32 : Shape := ⟨5, ![8, 64, 16, 32, 32]⟩
abbrev S64x4 : Shape := ⟨2, ![64, 4]⟩
abbrev S4 : Shape := ⟨1, ![4]⟩
abbrev S4x64 : Shape := ⟨2, ![4, 64]⟩
abbrev S64 : Shape := ⟨1, ![64]⟩
abbrev S_ : Shape := ⟨0, ![]⟩

class Facts : Prop where
  bcast_S_S8x64x16x32x32 : S_.BroadcastsInDim S8x64x16x32x32 (![] : Fin 0 → Fin S8x64x16x32x32.rank)
  reducesTo_S8x64x16x32x32_S_d0_1_2_3_4 : S8x64x16x32x32.ReducesTo [0, 1, 2, 3, 4] S_
  h_S_ : 0 < S_.numel
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_
  bcast_S_S4x64 : S_.BroadcastsInDim S4x64 (![] : Fin 0 → Fin S4x64.rank)
  reducesTo_S4x64_S_d0_1 : S4x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S4x64 1) : IVec S_ 1 :=
  let main_c_5 : IVec S_ 1 := constantI S_ 1 1#1
  let main_v17 : IVec S_ 1 := (fun x v => Host.reduce IntOp.andi x v reducesTo_S4x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S8x64x16x32x32 .f32) (main_arg1 : FVec F S64x4 .f32) (main_arg2 : FVec F S4 .f32) (main_arg3 : FVec F S4x64 .f32) (main_arg4 : FVec F S64 .f32) : IVec S_ 1 :=
  let main_v0 : FVec F S8x64x16x32x32 .f32 := Host.absf main_arg0
  let main_cst : FVec F S_ .f32 := constant S_ .f32 0x7F800000#32
  let main_v1 : FVec F S8x64x16x32x32 .f32 := broadcastInDim S8x64x16x32x32 ![] bcast_S_S8x64x16x32x32 main_cst
  let main_v2 : IVec S8x64x16x32x32 1 := cmpf .olt main_v0 main_v1
  let main_c : IVec S_ 1 := constantI S_ 1 1#1
  let main_v3 : IVec S_ 1 := (fun x v => Host.reduce IntOp.andi x v reducesTo_S8x64x16x32x32_S_d0_1_2_3_4 h_S_) main_v2 main_c
  let main_v4 : FVec F S64x4 .f32 := Host.absf main_arg1
  let main_cst_0 : FVec F S_ .f32 := constant S_ .f32 0x7F800000#32
  let main_v5 : FVec F S64x4 .f32 := broadcastInDim S64x4 ![] bcast_S_S64x4 main_cst_0
  let main_v6 : IVec S64x4 1 := cmpf .olt main_v4 main_v5
  let main_c_1 : IVec S_ 1 := constantI S_ 1 1#1
  let main_v7 : IVec S_ 1 := (fun x v => Host.reduce IntOp.andi x v reducesTo_S64x4_S_d0_1 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S4x64 .f32 := Host.absf main_arg3
  let main_cst_4 : FVec F S_ .f32 := constant S_ .f32 0x7F800000#32
  let main_v15 : FVec F S4x64 .f32 := broadcastInDim S4x64 ![] bcast_S_S4x64 main_cst_4
  let main_v16 : IVec S4x64 1 := cmpf .olt main_v14 main_v15
  fn_part1 (F := F) main_arg4 main_v13 main_v16
-- ==== Kernel.lean ====
abbrev S8x64x16x32x32 : Shape := ⟨5, ![8, 64, 16, 32, 32]⟩
abbrev S64x4 : Shape := ⟨2, ![64, 4]⟩
abbrev S4 : Shape := ⟨1, ![4]⟩
abbrev S4x64 : Shape := ⟨2, ![4, 64]⟩
abbrev S64 : Shape := ⟨1, ![64]⟩
abbrev S8x16x32x32x64 : Shape := ⟨5, ![8, 16, 32, 32, 64]⟩
abbrev S8x16384x64 : Shape := ⟨3, ![8, 16384, 64]⟩
abbrev S1x4 : Shape := ⟨2, ![1, 4]⟩
abbrev S1x64 : Shape := ⟨2, ![1, 64]⟩
abbrev S1x16384x64 : Shape := ⟨3, ![1, 16384, 64]⟩
abbrev S16384x64 : Shape := ⟨2, ![16384, 64]⟩
abbrev S2x64 : Shape := ⟨2, ![2, 64]⟩
abbrev S2x4 : Shape := ⟨2, ![2, 4]⟩

abbrev nBuf : Space → Nat
  | .hbm => 13
  | .vmem => 8
  | .smem => 0
  | _ => 0

abbrev bufTy : (tb : Table) → Fin (tcTables nBuf tb) → BufTy
  | .hbm, ⟨0, _⟩ => ⟨S8x64x16x32x32, .f32⟩
  | .hbm, ⟨1, _⟩ => ⟨S64x4, .f32⟩
  | .hbm, ⟨2, _⟩ => ⟨S4, .f32⟩
  | .hbm, ⟨3, _⟩ => ⟨S4x64, .f32⟩
  | .hbm, ⟨4, _⟩ => ⟨S64, .f32⟩
  | .hbm, ⟨5, _⟩ => ⟨S8x16x32x32x64, .f32⟩
  | .hbm, ⟨6, _⟩ => ⟨S8x16384x64, .f32⟩
  | .hbm, ⟨7, _⟩ => ⟨S4x64, .f32⟩
  | .hbm, ⟨8, _⟩ => ⟨S1x4, .f32⟩
  | .hbm, ⟨9, _⟩ => ⟨S1x64, .f32⟩
  | .hbm, ⟨10, _⟩ => ⟨S8x16384x64, .f32⟩
  | .hbm, ⟨11, _⟩ => ⟨S8x16x32x32x64, .f32⟩
  | .hbm, ⟨12, _⟩ => ⟨S8x64x16x32x32, .f32⟩
  | .local _ .vmem, ⟨0, _⟩ => ⟨S1x16384x64, .f32⟩
  | .local _ .vmem, ⟨1, _⟩ => ⟨S1x16384x64, .f32⟩
  | .local _ .vmem, ⟨2, _⟩ => ⟨S4x64, .f32⟩
  | .local _ .vmem, ⟨3, _⟩ => ⟨S1x4, .f32⟩
  | .local _ .vmem, ⟨4, _⟩ => ⟨S4x64, .f32⟩
  | .local _ .vmem, ⟨5, _⟩ => ⟨S1x64, .f32⟩
  | .local _ .vmem, ⟨6, _⟩ => ⟨S1x16384x64, .f32⟩
  | .local _ .vmem, ⟨7, _⟩ => ⟨S1x16384x64, .f32⟩
  | _, _ => ⟨S8x64x16x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16384x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x16384x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S8x64x16x32x32_S8x16x32x32x64_0_2_3_4_1 : S8x64x16x32x32.Transposes [0, 2, 3, 4, 1] S8x16x32x32x64
  shapeCasts_S8x16x32x32x64_S8x16384x64 : S8x16x32x32x64.ShapeCasts S8x16384x64
  transposes_S64x4_S4x64_1_0 : S64x4.Transposes [1, 0] S4x64
  shapeCasts_S4_S1x4 : S4.ShapeCasts S1x4
  shapeCasts_S64_S1x64 : S64.ShapeCasts S1x64
  inb_S1x16384x64_S1x16384x64_0_0_0 : ∀ a, (![0, 0, 0] : Fin 3 → Nat) a + S1x16384x64.size a ≤ S1x16384x64.size a
  h_S1x16384x64 : 0 < S1x16384x64.numel
  shapeCasts_S1x16384x64_S16384x64 : S1x16384x64.ShapeCasts S16384x64
  reduces_S16384x64_S64 : S16384x64.Reduces [0] S64
  concatenates_S1x64_S1x64_S2x64_d0 : Shape.Concatenates [S1x64, S1x64] S2x64 0
  inb_S4x64_S4x64_0_0 : ∀ a, (![0, 0] : Fin 2 → Nat) a + S4x64.size a ≤ S4x64.size a
  h_S4x64 : 0 < S4x64.numel
  shapeCasts_S4x64_S4x64 : S4x64.ShapeCasts S4x64
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S2x4 : S1x4.Broadcasts S2x4
  slices_S2x64_o0_0_S1x64 : S2x64.Slices ![0, 0] S1x64
  slices_S2x64_o1_0_S1x64 : S2x64.Slices ![1, 0] S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S16384x64 : S1x64.Broadcasts S16384x64
  shapeCasts_S16384x64_S1x16384x64 : S16384x64.ShapeCasts S1x16384x64
  shapeCasts_S8x16384x64_S8x16x32x32x64 : S8x16384x64.ShapeCasts S8x16x32x32x64
  transposes_S8x16x32x32x64_S8x64x16x32x32_0_4_1_2_3 : S8x16x32x32x64.Transposes [0, 4, 1, 2, 3] S8x64x16x32x32
  dot_S2x64_S4x64_S2x4_1_1_0_0_n_n_wf : DotDims.WF S2x64 S4x64 S2x4 [1] [1] [0] [0] [] []
  dot_S2x4_S4x64_S2x64_1_0_0_1_n_n_wf : DotDims.WF S2x4 S4x64 S2x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16384x64.size a ≤ S8x16384x64.size a
  hwx0_0 : ∀ i : grid0.Coords, EltTy.bits .f32 = 32 ∨ (Rect.block (s := S8x16384x64) S1x16384x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x64.size a ≤ S4x64.size a
  hwx0_1 : ∀ i : grid0.Coords, EltTy.bits .f32 = 32 ∨ (Rect.block (s := S4x64) S4x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4.size a ≤ S1x4.size a
  hwx0_2 : ∀ i : grid0.Coords, EltTy.bits .f32 = 32 ∨ (Rect.block (s := S1x4) S1x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x64.size a ≤ S4x64.size a
  hwx0_3 : ∀ i : grid0.Coords, EltTy.bits .f32 = 32 ∨ (Rect.block (s := S4x64) S4x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16384x64.size a ≤ S8x16384x64.size a
  hwx0_5 : ∀ i : grid0.Coords, EltTy.bits .f32 = 32 ∨ (Rect.block (s := S8x16384x64) S1x16384x64.size (cc0_transform_5 i) (hinb0_5 i)).WholeWords (EltTy.packing .f32)

variable [Facts₀]

def dot_S2x64_S4x64_S2x4_1_1_0_0_n_n : DotDims S2x64 S4x64 S2x4 where
  lhsContracting := [1]
  rhsContracting := [1]
  lhsNonContracting := [0]
  rhsNonContracting := [0]
  lhsBatch := []
  rhsBatch := []
  wf := dot_S2x64_S4x64_S2x4_1_1_0_0_n_n_wf
def dot_S2x4_S4x64_S2x64_1_0_0_1_n_n : DotDims S2x4 S4x64 S2x64 where
  lhsContracting := [1]
  rhsContracting := [0]
  lhsNonContracting := [0]
  rhsNonContracting := [1]
  lhsBatch := []
  rhsBatch := []
  wf := dot_S2x4_S4x64_S2x64_1_0_0_1_n_n_wf

abbrev win0_0 : Pipeline.Window sig grid0 :=
  Pipeline.Window.ofSpec (Memref.whole main_v1) S1x16384x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x16384x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x64x16x32x32 : Shape := ⟨5, ![8, 64, 16, 32, 32]⟩
abbrev S64x4 : Shape := ⟨2, ![64, 4]⟩
abbrev S4 : Shape := ⟨1, ![4]⟩
abbrev S4x64 : Shape := ⟨2, ![4, 64]⟩
abbrev S64 : Shape := ⟨1, ![64]⟩
abbrev S8x64x16384 : Shape := ⟨3, ![8, 64, 16384]⟩
abbrev S8x64x1 : Shape := ⟨3, ![8, 64, 1]⟩
abbrev S1x64x2048 : Shape := ⟨3, ![1, 64, 2048]⟩
abbrev S1x64x1 : Shape := ⟨3, ![1, 64, 1]⟩
abbrev S64x2048 : Shape := ⟨2, ![64, 2048]⟩
abbrev S64x1 : Shape := ⟨2, ![64, 1]⟩
abbrev S8x64 : Shape := ⟨2, ![8, 64]⟩
abbrev S_ : Shape := ⟨0, ![]⟩
abbrev S16x64 : Shape := ⟨2, ![16, 64]⟩
abbrev S16x4 : Shape := ⟨2, ![16, 4]⟩
abbrev S1x4 : Shape := ⟨2, ![1, 4]⟩
abbrev S1x64 : Shape := ⟨2, ![1, 64]⟩

abbrev nBuf : Space → Nat
  | .hbm => 39
  | .vmem => 12
  | .smem => 0
  | _ => 0

abbrev bufTy : (tb : Table) → Fin (tcTables nBuf tb) → BufTy
  | .hbm, ⟨0, _⟩ => ⟨S8x64x16x32x32, .f32⟩
  | .hbm, ⟨1, _⟩ => ⟨S64x4, .f32⟩
  | .hbm, ⟨2, _⟩ => ⟨S4, .f32⟩
  | .hbm, ⟨3, _⟩ => ⟨S4x64, .f32⟩
  | .hbm, ⟨4, _⟩ => ⟨S64, .f32⟩
  | .hbm, ⟨5, _⟩ => ⟨S8x64x16384, .f32⟩
  | .hbm, ⟨6, _⟩ => ⟨S8x64x1, .f32⟩
  | .hbm, ⟨7, _⟩ => ⟨S8x64x1, .f32⟩
  | .hbm, ⟨8, _⟩ => ⟨S8x64, .f32⟩
  | .hbm, ⟨9, _⟩ => ⟨S_, .f32⟩
  | .hbm, ⟨10, _⟩ => ⟨S8x64, .f32⟩
  | .hbm, ⟨11, _⟩ => ⟨S8x64, .f32⟩
  | .hbm, ⟨12, _⟩ => ⟨S8x64, .f32⟩
  | .hbm, ⟨13, _⟩ => ⟨S16x64, .f32⟩
  | .hbm, ⟨14, _⟩ => ⟨S16x4, .f32⟩
  | .hbm, ⟨15, _⟩ => ⟨S1x4, .f32⟩
  | .hbm, ⟨16, _⟩ => ⟨S16x4, .f32⟩
  | .hbm, ⟨17, _⟩ => ⟨S16x4, .f32⟩
  | .hbm, ⟨18, _⟩ => ⟨S_, .f32⟩
  | .hbm, ⟨19, _⟩ => ⟨S16x4, .f32⟩
  | .hbm, ⟨20, _⟩ => ⟨S16x4, .f32⟩
  | .hbm, ⟨21, _⟩ => ⟨S16x64, .f32⟩
  | .hbm, ⟨22, _⟩ => ⟨S1x64, .f32⟩
  | .hbm, ⟨23, _⟩ => ⟨S16x64, .f32⟩
  | .hbm, ⟨24, _⟩ => ⟨S16x64, .f32⟩
  | .hbm, ⟨25, _⟩ => ⟨S8x64, .f32⟩
  | .hbm, ⟨26, _⟩ => ⟨S8x64, .f32⟩
  | .hbm, ⟨27, _⟩ => ⟨S8x64, .f32⟩
  | .hbm, ⟨28, _⟩ => ⟨S8x64, .f32⟩
  | .hbm, ⟨29, _⟩ => ⟨S8x64, .f32⟩
  | .hbm, ⟨30, _⟩ => ⟨S_, .f32⟩
  | .hbm, ⟨31, _⟩ => ⟨S8x64, .f32⟩
  | .hbm, ⟨32, _⟩ => ⟨S8x64, .f32⟩
  | .hbm, ⟨33, _⟩ => ⟨S_, .f32⟩
  | .hbm, ⟨34, _⟩ => ⟨S8x64, .f32⟩
  | .hbm, ⟨35, _⟩ => ⟨S8x64, .f32⟩
  | .hbm, ⟨36, _⟩ => ⟨S8x64x1, .f32⟩
  | .hbm, ⟨37, _⟩ => ⟨S8x64x16384, .f32⟩
  | .hbm, ⟨38, _⟩ => ⟨S8x64x16x32x32, .f32⟩
  | .local _ .vmem, ⟨0, _⟩ => ⟨S1x64x2048, .f32⟩
  | .local _ .vmem, ⟨1, _⟩ => ⟨S1x64x2048, .f32⟩
  | .local _ .vmem, ⟨2, _⟩ => ⟨S1x64x1, .f32⟩
  | .local _ .vmem, ⟨3, _⟩ => ⟨S1x64x1, .f32⟩
  | .local _ .vmem, ⟨4, _⟩ => ⟨S1x64x1, .f32⟩
  | .local _ .vmem, ⟨5, _⟩ => ⟨S1x64x1, .f32⟩
  | .local _ .vmem, ⟨6, _⟩ => ⟨S1x64x2048, .f32⟩
  | .local _ .vmem, ⟨7, _⟩ => ⟨S1x64x2048, .f32⟩
  | .local _ .vmem, ⟨8, _⟩ => ⟨S1x64x1, .f32⟩
  | .local _ .vmem, ⟨9, _⟩ => ⟨S1x64x1, .f32⟩
  | .local _ .vmem, ⟨10, _⟩ => ⟨S1x64x2048, .f32⟩
  | .local _ .vmem, ⟨11, _⟩ => ⟨S1x64x2048, .f32⟩
  | _, _ => ⟨S8x64x16x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let v7 : BitVec 32 := Scalar.extui v6
  let c0_i32_3 : BitVec 32 := 0#32
  let v8 : BitVec 1 := Scalar.cmpi .ne v7 c0_i32_3
  v8

def k0_cond2 (i : grid0.Coords) : BitVec 1 :=
  let arg1 : BitVec 32 := BitVec.ofNat 32 (i 1).val
  let c0_i32_4 : BitVec 32 := 0#32
  let v9 : BitVec 1 := Scalar.cmpi .sgt arg1 c0_i32_4
  let v10 : BitVec 32 := Scalar.extui v9
  let c0_i32_5 : BitVec 32 := 0#32
  let v11 : BitVec 1 := Scalar.cmpi .ne v10 c0_i32_5
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x64x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x64x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S8x64x16x32x32_S8x64x16384 : S8x64x16x32x32.ShapeCasts S8x64x16384
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  reduces_S64x2048_S64 : S64x2048.Reduces [1] S64
  shapeCasts_S64_S64x1 : S64.ShapeCasts S64x1
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  shapeCasts_S8x64x1_S8x64 : S8x64x1.ShapeCasts S8x64
  bcast_S_S8x64 : S_.BroadcastsInDim S8x64 (![] : Fin 0 → Fin S8x64.rank)
  concatenates_S8x64_S8x64_S16x64_d0 : Shape.Concatenates [S8x64, S8x64] S16x64 0
  bcast_S4_S1x4_1 : S4.BroadcastsInDim S1x4 (![1] : Fin 1 → Fin S1x4.rank)
  bcast_S1x4_S16x4_0_1 : S1x4.BroadcastsInDim S16x4 (![0, 1] : Fin 2 → Fin S16x4.rank)
  bcast_S_S16x4 : S_.BroadcastsInDim S16x4 (![] : Fin 0 → Fin S16x4.rank)
  bcast_S64_S1x64_1 : S64.BroadcastsInDim S1x64 (![1] : Fin 1 → Fin S1x64.rank)
  bcast_S1x64_S16x64_0_1 : S1x64.BroadcastsInDim S16x64 (![0, 1] : Fin 2 → Fin S16x64.rank)
  slices_S16x64_S8x64_0_0 : S16x64.Slices ![0, 0] S8x64
  slices_S16x64_S8x64_8_0 : S16x64.Slices ![8, 0] S8x64
  shapeCasts_S8x64_S8x64x1 : S8x64.ShapeCasts S8x64x1
  broadcasts_S64x1_S64x2048 : S64x1.Broadcasts S64x2048
  shapeCasts_S64x2048_S1x64x2048 : S64x2048.ShapeCasts S1x64x2048
  shapeCasts_S8x64x16384_S8x64x16x32x32 : S8x64x16384.ShapeCasts S8x64x16x32x32
  dot_S16x64_S64x4_S16x4_1_0_0_1_n_n_wf : DotDims.WF S16x64 S64x4 S16x4 [1] [0] [0] [1] [] []
  dot_S16x4_S4x64_S16x64_1_0_0_1_n_n_wf : DotDims.WF S16x4 S4x64 S16x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x2048.size a ≤ S8x64x16384.size a
  hwx0_0 : ∀ i : grid0.Coords, EltTy.bits .f32 = 32 ∨ (Rect.block (s := S8x64x16384) S1x64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x1.size a ≤ S8x64x1.size a
  hwx0_1 : ∀ i : grid0.Coords, EltTy.bits .f32 = 32 ∨ (Rect.block (s := S8x64x1) S1x64x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x1.size a ≤ S8x64x1.size a
  hwx0_2 : ∀ i : grid0.Coords, EltTy.bits .f32 = 32 ∨ (Rect.block (s := S8x64x1) S1x64x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x2048.size a ≤ S8x64x16384.size a
  hwx1_0 : ∀ i : grid1.Coords, EltTy.bits .f32 = 32 ∨ (Rect.block (s := S8x64x16384) S1x64x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x1.size a ≤ S8x64x1.size a
  hwx1_1 : ∀ i : grid1.Coords, EltTy.bits .f32 = 32 ∨ (Rect.block (s := S8x64x1) S1x64x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x64x2048.size a ≤ S8x64x16384.size a
  hwx1_2 : ∀ i : grid1.Coords, EltTy.bits .f32 = 32 ∨ (Rect.block (s := S8x64x16384) S1x64x2048.size (cc1_transform_2 i) (hinb1_2 i)).WholeWords (EltTy.packing .f32)

variable [Facts₀]

def dot_S16x64_S64x4_S16x4_1_0_0_1_n_n : DotDims S16x64 S64x4 S16x4 where
  lhsContracting := [1]
  rhsContracting := [0]
  lhsNonContracting := [0]
  rhsNonContracting := [1]
  lhsBatch := []
  rhsBatch := []
  wf := dot_S16x64_S64x4_S16x4_1_0_0_1_n_n_wf
def dot_S16x4_S4x64_S16x64_1_0_0_1_n_n : DotDims S16x4 S4x64 S16x64 where
  lhsContracting := [1]
  rhsContracting := [0]
  lhsNonContracting := [0]
  rhsNonContracting := [1]
  lhsBatch := []
  rhsBatch := []
  wf := dot_S16x4_S4x64_S16x64_1_0_0_1_n_n_wf

abbrev win0_0 : Pipeline.Window sig grid0 :=
  Pipeline.Window.ofSpec (Memref.whole main_v0) S1x64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S1x64x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1x64x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond1 i == 1#1) && !(k0_cond2 i == 1#1) | 2 => fun i => !(k0_cond1 i == 1#1) && !(k0_cond2 i == 1#1) | ⟨_ + 3, h⟩ => absurd h (Nat.not_lt.2 (Nat.le_add_left _ _))

abbrev win1_0 : Pipeline.Window sig grid1 :=
  Pipeline.Window.ofSpec (Memref.whole main_v0) S1x64x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S1x64x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x64x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== Proof.GateSpec.lean ====
/-
  The channel gate as ONE function of the five argument arrays, index by index, on the extended reals.

  x is an [8, 64, 16, 32, 32] array (batch b, channel c, then three spatial axes). Write s = 1024·d + 32·h + w for the
  flattened spatial position, 0 ≤ s < 16384. Per (b, c) the gate pools x over s twice — the sum times the constant
  2⁻¹⁴ (the mean), and the maximum —, sends each pooled 64-vector through the same two-layer perceptron
  (64 → 4, clamp below at 0, 4 → 64, each layer with its bias), adds the two results, applies the logistic function,
  and scales x[b, c, ·] by that number.

  Nothing here mentions a program; both programs' results are shown equal to `gate`.
-/
import Idealize.ShloMosaic.PureOps.Ideal
import Idealize.ShloMosaic.Lib.ValueIdx

noncomputable section

open scoped BigOperators

namespace Cert.GateSpec

open Idealize.ShloMosaic Idealize.ShloMosaic.ValueIdx

/-- The input's shape, and the shapes of the four parameter arrays. -/
abbrev X5 : Shape := ⟨5, ![8, 64, 16, 32, 32]⟩
abbrev W1 : Shape := ⟨2, ![64, 4]⟩
abbrev B1 : Shape := ⟨1, ![4]⟩
abbrev W2 : Shape := ⟨2, ![4, 64]⟩
abbrev B2 : Shape := ⟨1, ![64]⟩

/-- The flattened spatial position of (d, h, w). -/
def flatPos (d : Fin 16) (h : Fin 32) (w : Fin 32) : Fin 16384 := ⟨d.val * 1024 + h.val * 32 + w.val, by omega⟩

/-- The three spatial coordinates of a flattened position. -/
def posD (s : Fin 16384) : Fin 16 := ⟨s.val / 1024, by omega⟩
def posH (s : Fin 16384) : Fin 32 := ⟨s.val / 32 % 32, by omega⟩
def posW (s : Fin 16384) : Fin 32 := ⟨s.val % 32, by omega⟩

/-- x at batch b, channel c, flattened position s. -/
def xAt (x : X5.Idx → EReal) (b : Fin 8) (c : Fin 64) (s : Fin 16384) : EReal :=
  x (ix5 b c (posD s) (posH s) (posW s))

/-- The constant 2⁻¹⁴ = 1/16384 as both programs write it (one f32 word, never evaluated). -/
def invCount : EReal := Ideal.ofBits .f32 0x38800000#32

/-- The sum of x[b, c, ·] over all 16384 positions. -/
def poolSum (x : X5.Idx → EReal) (b : Fin 8) (c : Fin 64) : EReal := ∑ s : Fin 16384, xAt x b c s

/-- The maximum of x[b, c, ·] over all 16384 positions (the supremum; −∞ is the bottom). -/
def poolMax (x : X5.Idx → EReal) (b : Fin 8) (c : Fin 64) : EReal := Finset.univ.sup fun s : Fin 16384 => xAt x b c s

/-- The hidden layer: p · w1[·, j] + b1[j], clamped below at 0 (the f32 zero word). -/
def hidden (w1 : W1.Idx → EReal) (b1 : B1.Idx → EReal) (p : Fin 64 → EReal) (j : Fin 4) : EReal :=
  max ((∑ c : Fin 64, p c * w1 (ix2 c j)) + b1 (ix1 j)) (Ideal.ofBits .f32 0x00000000#32)

/-- The perceptron's output at channel c, WITHOUT the second bias: hidden · w2[·, c]. -/
def project (w1 : W1.Idx → EReal) (b1 : B1.Idx → EReal) (w2 : W2.Idx → EReal) (p : Fin 64 → EReal) (c : Fin 64) : EReal :=
  ∑ j : Fin 4, hidden w1 b1 p j * w2 (ix2 j c)

/-- The attention logit at (b, c): the perceptron of the mean plus the perceptron of the maximum, each with its bias. -/
def logit (x : X5.Idx → EReal) (w1 : W1.Idx → EReal) (b1 : B1.Idx → EReal) (w2 : W2.Idx → EReal) (b2 : B2.Idx → EReal)
    (b : Fin 8) (c : Fin 64) : EReal :=
  (project w1 b1 w2 (fun c' => poolSum x b c' * invCount) c + b2 (ix1 c))
    + (project w1 b1 w2 (fun c' => poolMax x b c') c + b2 (ix1 c))

/-- The gate: x scaled, per (b, c), by the logistic of the logit. -/
def gate (x : X5.Idx → EReal) (w1 : W1.Idx → EReal) (b1 : B1.Idx → EReal) (w2 : W2.Idx → EReal) (b2 : B2.Idx → EReal) :
    X5.Idx → EReal :=
  fun i => x i * Ideal.logistic (logit x w1 b1 w2 b2 (i 0) (i 1))

/-- The two flattenings are inverse to each other. -/
theorem flatPos_pos (s : Fin 16384) : flatPos (posD s) (posH s) (posW s) = s := by
  apply Fin.ext; simp only [flatPos, posD, posH, posW]; omega

theorem posD_flatPos (d : Fin 16) (h : Fin 32) (w : Fin 32) : posD (flatPos d h w) = d := by
  apply Fin.ext; simp only [flatPos, posD]; omega
theorem posH_flatPos (d : Fin 16) (h : Fin 32) (w : Fin 32) : posH (flatPos d h w) = h := by
  apply Fin.ext; simp only [flatPos, posH]; omega
theorem posW_flatPos (d : Fin 16) (h : Fin 32) (w : Fin 32) : posW (flatPos d h w) = w := by
  apply Fin.ext; simp only [flatPos, posW]; omega

/-- x at a rank-5 index is x at its batch, channel and flattened position. -/
theorem xAt_flatPos (x : X5.Idx → EReal) (b : Fin 8) (c : Fin 64) (d : Fin 16) (h : Fin 32) (w : Fin 32) :
    xAt x b c (flatPos d h w) = x (ix5 b c d h w) := by
  unfold xAt; rw [posD_flatPos, posH_flatPos, posW_flatPos]

end Cert.GateSpec

end
-- ==== Proof.KernelHost.lean ====
/-
  The layout operations around the fused gate, read at an index.

  Before the grid runs, the input x of shape [8, 64, 16, 32, 32] is transposed to channels-last, [8, 16, 32, 32, 64],
  and reshaped to [8, 16384, 64]: entry (b, s, c) of the result is x at batch b, channel c and the spatial position
  whose row-major number is s. After the grid, its [8, 16384, 64] result Y is reshaped to [8, 16, 32, 32, 64] and
  transposed back to channels-second: entry (b, c, d, h, w) of the final array is Y at (b, 1024·d + 32·h + w, c).
-/
import proofs.«161511_g2000005911454314_pallasbulk_286_16_alg».proof.Proof.GateSpec
import Idealize.ShloMosaic.Lib.ValueLayout
import Idealize.ShloMosaic.Lib.Pipeline.Value

noncomputable section

namespace Cert.KernelIdeal.GateValue

open Idealize.ShloMosaic Idealize.ShloMosaic.ValueIdx Cert.GateSpec

variable {α : Type}

/-- The channels-last view of x at (b, s, c) is x at batch b, channel c, flattened position s. -/
theorem channelsLast_apply (x : X5.Idx → α)
    (hT : X5.Transposes [0, 2, 3, 4, 1] ⟨5, ![8, 16, 32, 32, 64]⟩)
    (hC : (⟨5, ![8, 16, 32, 32, 64]⟩ : Shape).ShapeCasts ⟨3, ![8, 16384, 64]⟩)
    (b : Fin 8) (s : Fin 16384) (c : Fin 64) :
    shapeCast ⟨3, ![8, 16384, 64]⟩ (transpose ⟨5, ![8, 16, 32, 32, 64]⟩ [0, 2, 3, 4, 1] x hT) hC (ix3 b s c)
      = x (ix5 b c (posD s) (posH s) (posW s)) := by
  refine (shapeCast_apply _ hC (ix3 b s c) (ix5 b (posD s) (posH s) (posW s) c) ?_).trans ?_
  · rw [Shape.rowMajor_val_five, Shape.rowMajor_val_three]
    show (((b.val * 16 + s.val / 1024) * 32 + s.val / 32 % 32) * 32 + s.val % 32) * 64 + c.val = (b.val * 16384 + s.val) * 64 + c.val
    omega
  · exact transpose_apply _ x hT _ (ix5 b c (posD s) (posH s) (posW s)) fun a => match a with
      | ⟨0, _⟩ => rfl | ⟨1, _⟩ => rfl | ⟨2, _⟩ => rfl | ⟨3, _⟩ => rfl | ⟨4, _⟩ => rfl

/-- The final array at (b, c, d, h, w) is the grid's result at (b, flattened position of (d, h, w), c). -/
theorem channelsSecond_apply (y : (⟨3, ![8, 16384, 64]⟩ : Shape).Idx → α)
    (hC : (⟨3, ![8, 16384, 64]⟩ : Shape).ShapeCasts ⟨5, ![8, 16, 32, 32, 64]⟩)
    (hT : (⟨5, ![8, 16, 32, 32, 64]⟩ : Shape).Transposes [0, 4, 1, 2, 3] X5)
    (b : Fin 8) (c : Fin 64) (d : Fin 16) (h : Fin 32) (w : Fin 32) :
    transpose X5 [0, 4, 1, 2, 3] (shapeCast ⟨5, ![8, 16, 32, 32, 64]⟩ y hC) hT (ix5 b c d h w)
      = y (ix3 b (flatPos d h w) c) := by
  refine (transpose_apply _ _ hT (ix5 b c d h w) (ix5 b d h w c) fun a => match a with
      | ⟨0, _⟩ => rfl | ⟨1, _⟩ => rfl | ⟨2, _⟩ => rfl | ⟨3, _⟩ => rfl | ⟨4, _⟩ => rfl).trans ?_
  refine shapeCast_apply y hC (ix5 b d h w c) (ix3 b (flatPos d h w) c) ?_
  rw [Shape.rowMajor_val_five, Shape.rowMajor_val_three]
  show (b.val * 16384 + (d.val * 1024 + h.val * 32 + w.val)) * 64 + c.val = (((b.val * 16 + d.val) * 32 + h.val) * 32 + w.val) * 64 + c.val
  omega

/-! ## The gate in the layout the grid works in -/

/-- The gate as an [8, 16384, 64] array: entry (b, s, c) is x at batch b, channel c, position s, times the logistic of
    the logit at (b, c). -/
def slabGate (x : X5.Idx → EReal) (w1 : W1.Idx → EReal) (b1 : B1.Idx → EReal) (w2 : W2.Idx → EReal) (b2 : B2.Idx → EReal) :
    (⟨3, ![8, 16384, 64]⟩ : Shape).Idx → EReal :=
  fun i => xAt x (i 0) (i 2) (i 1) * Ideal.logistic (logit x w1 b1 w2 b2 (i 0) (i 2))

theorem slabGate_apply (x : X5.Idx → EReal) (w1 : W1.Idx → EReal) (b1 : B1.Idx → EReal) (w2 : W2.Idx → EReal) (b2 : B2.Idx → EReal)
    (b : Fin 8) (s : Fin 16384) (c : Fin 64) :
    slabGate x w1 b1 w2 b2 (ix3 b s c) = xAt x b c s * Ideal.logistic (logit x w1 b1 w2 b2 b c) := rfl

/-- Reshaped and transposed back to channels-second, it is the gate. -/
theorem channelsSecond_slabGate (x : X5.Idx → EReal) (w1 : W1.Idx → EReal) (b1 : B1.Idx → EReal) (w2 : W2.Idx → EReal) (b2 : B2.Idx → EReal)
    (hC : (⟨3, ![8, 16384, 64]⟩ : Shape).ShapeCasts ⟨5, ![8, 16, 32, 32, 64]⟩)
    (hT : (⟨5, ![8, 16, 32, 32, 64]⟩ : Shape).Transposes [0, 4, 1, 2, 3] X5) :
    transpose X5 [0, 4, 1, 2, 3] (shapeCast ⟨5, ![8, 16, 32, 32, 64]⟩ (slabGate x w1 b1 w2 b2) hC) hT = gate x w1 b1 w2 b2 := by
  funext i
  obtain ⟨b, c, d, h, w, rfl⟩ : ∃ (b : Fin 8) (c : Fin 64) (d : Fin 16) (h : Fin 32) (w : Fin 32), i = ix5 b c d h w :=
    ⟨i 0, i 1, i 2, i 3, i 4, eq_ix5 i⟩
  rw [channelsSecond_apply, slabGate_apply, xAt_flatPos]
  rfl

end Cert.KernelIdeal.GateValue

end
-- ==== Proof.LibPayOps.lean ====
/-
  General facts used when a stored value is read at an index, at the ideal (extended real) values.

  * The fold of the binary maximum over a finite set, started from the bottom element, is the supremum over that set.
  * The 32-bit word 0xFF800000 denotes minus infinity (the bottom extended real); the word 0xC0000000 denotes the real -2.
  * A reduction by maximum over the FIRST axis of an [a, b] array started from minus infinity is, at column c,
    the supremum over the rows k of entry (k, c).
  * The "ordered greater than" comparison as a one-bit word, and a selection driven by it as an if-then-else.
-/
import Idealize.ShloMosaic.PureOps.Ideal.Laws
import Idealize.ShloMosaic.Lib.Pipeline.Value
import Idealize.ShloMosaic.Lib.ValueIdx

noncomputable section

open scoped BigOperators

namespace Cert.LibPayOps

open Idealize.ShloMosaic Idealize.ShloMosaic.ValueIdx

/-- Folding the binary maximum from the bottom element over a finite set gives the supremum over the set. -/
theorem fold_max_bot_eq_sup {ι : Type} (s : Finset ι) (f : ι → EReal) : s.fold max ⊥ f = s.sup f := by
  classical
  induction s using Finset.induction_on with
  | empty => simp
  | insert a s ha ih => rw [Finset.fold_insert ha, Finset.sup_insert, ih]

/-- The word 0xFF800000 (sign set, exponent all ones, fraction zero) is minus infinity. -/
theorem ofBits_f32_neg_inf : Ideal.ofBits .f32 0xFF800000#32 = (⊥ : EReal) := by
  simp [Ideal.ofBits, Ideal.ieee]

/-- The word 0xC0000000 (sign set, exponent 128, fraction zero) is the real number -2. -/
theorem ofBits_f32_neg_two : Ideal.ofBits .f32 0xC0000000#32 = ((-2 : ℝ) : EReal) := by
  simp [Ideal.ofBits, Ideal.ieee]
  rw [← EReal.coe_mul]
  norm_num

/-- A selection driven by "x is greater than y" is the if-then-else on y < x. -/
theorem select_ogt (x y a b : EReal) :
    Scalar.select (Ideal.cmp .ogt x y) a b = if y < x then a else b := by
  unfold Ideal.cmp
  by_cases h : y < x
  · rw [if_pos h]; simp [h, Scalar.select]
  · rw [if_neg h]; simp [h, Scalar.select]

/-- The maximum down the columns of an [a, b] array (a reduction over its first axis from minus infinity), at column c. -/
theorem columnMax_apply {a b : ℕ} (src : FVec Ideal ⟨2, ![a, b]⟩ .f32)
    (h : Shape.Reduces ⟨2, ![a, b]⟩ [0] ⟨1, ![b]⟩) (hφ : FKind.Formats .f32)
    (hacc : (0xFF800000#32 : BitVec 32) = FKind.maximumf.neutral .f32 hφ) (c : Fin b) :
    multiReduction .maximumf [0] ⟨1, ![b]⟩ src 0xFF800000#32 h hφ hacc (ix1 c)
      = Finset.univ.sup fun k : Fin a => src (ix2 k c) := by
  refine (Ideal.multiReduction_maximumf_single src 0xFF800000#32 h hφ hacc (ix1 c)).trans ?_
  refine (congrArg (fun z => (Finset.univ : Finset (Fin ((⟨2, ![a, b]⟩ : Shape).size 0))).fold max z
    (src ∘ h.lift (ix1 c))) ofBits_f32_neg_inf).trans ?_
  refine (fold_max_bot_eq_sup _ _).trans ?_
  exact congrArg (Finset.univ.sup) (funext fun k => congrArg src (funext fun d => Fin.ext (by
    match d with
    | ⟨0, _⟩ => rfl
    | ⟨1, _⟩ => rfl)))

end Cert.LibPayOps

end
-- ==== Proof.LibRowReduceProducts.lean ====
/-
  Reductions along the rows of a matrix, sums down its columns, and two orientations of the matrix product, each read
  at an index at the ideal (extended real) values and generic in the extents.

  * rowMax_apply   — a reduction by maximum over the SECOND axis of an [a, b] array started from minus infinity is, at
                     row r, the supremum over the columns k of entry (r, k);
  * rowSum_apply   — a reduction by addition over the second axis from zero is, at row r, the sum over k of entry (r, k);
  * colSum_apply   — a reduction by addition over the first axis from zero is, at column c, the sum over k of entry (k, c);
  * matmulNT       — an [M, K] array against an [N, K] array contracted over their second axes into a zero accumulator:
                     entry (e, o) is the sum over r of x (e, r) * y (o, r) (left operand times the transpose of the right);
  * matmulNN       — an [M, K] array against a [K, N] array, the plain product: entry (e, o) is the sum over r of
                     x (e, r) * y (r, o).
-/
import Idealize.ShloMosaic.PureOps.Ideal.Laws
import Idealize.ShloMosaic.Lib.Pipeline.Value
import Idealize.ShloMosaic.Lib.ValueIdx
import proofs.«161511_g2000005911454314_pallasbulk_286_16_alg».proof.Proof.LibPayOps

noncomputable section

open scoped BigOperators

namespace Cert.LibRowReduceProducts

open Idealize.ShloMosaic Idealize.ShloMosaic.ValueIdx

/-! ## Reductions -/

/-- The maximum along the rows of an [a, b] array (a reduction over its second axis from minus infinity), at row r. -/
theorem rowMax_apply {a b : ℕ} (src : FVec Ideal ⟨2, ![a, b]⟩ .f32)
    (h : Shape.Reduces ⟨2, ![a, b]⟩ [1] ⟨1, ![a]⟩) (hφ : FKind.Formats .f32)
    (hacc : (0xFF800000#32 : BitVec 32) = FKind.maximumf.neutral .f32 hφ) (r : Fin a) :
    multiReduction .maximumf [1] ⟨1, ![a]⟩ src 0xFF800000#32 h hφ hacc (ix1 r)
      = Finset.univ.sup fun k : Fin b => src (ix2 r k) := by
  refine (Ideal.multiReduction_maximumf_single src 0xFF800000#32 h hφ hacc (ix1 r)).trans ?_
  refine (congrArg (fun z => (Finset.univ : Finset (Fin ((⟨2, ![a, b]⟩ : Shape).size 1))).fold max z
    (src ∘ h.lift (ix1 r))) Cert.LibPayOps.ofBits_f32_neg_inf).trans ?_
  refine (Cert.LibPayOps.fold_max_bot_eq_sup _ _).trans ?_
  exact congrArg (Finset.univ.sup) (funext fun k => congrArg src (funext fun d => Fin.ext (by
    match d with
    | ⟨0, _⟩ => rfl
    | ⟨1, _⟩ => rfl)))

/-- The sum along the rows of an [a, b] array (a reduction by addition over its second axis from zero), at row r. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (funext fun d => Fin.ext (by
    match d with
    | ⟨0, _⟩ => rfl
    | ⟨1, _⟩ => rfl))

/-- The sum down the columns of an [a, b] array (a reduction by addition over its first axis from zero), at column c. -/
theorem colSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = FKind.add.neutral .f32 hφ) (c : Fin b) :
    multiReduction .add [0] ⟨1, ![b]⟩ src 0x00000000#32 h hφ hacc (ix1 c) = ∑ k : Fin a, src (ix2 k c) := by
  refine (Ideal.multiReduction_add_single src 0x00000000#32 h hφ hacc (ix1 c)).trans ?_
  exact Finset.sum_congr rfl fun k _ => congrArg src (funext fun d => Fin.ext (by
    match d with
    | ⟨0, _⟩ => rfl
    | ⟨1, _⟩ => rfl))

/-! ## The product with the transpose of the right operand -/

section NT

variable {K M N : ℕ}

/-- The dimension numbers contracting the second axis of both operands, over any evidence of well-formedness. -/
abbrev dimsNT (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], wf⟩

variable (wf : DotDims.WF ⟨2, ![M, K]⟩ ⟨2, ![N, K]⟩ ⟨2, ![M, N]⟩ [1] [1] [0] [0] [] [])

/-- The left operand's first coordinate is the output's row coordinate, -/
theorem nt_lhs_free (j : (⟨2, ![M, N]⟩ : Shape).Idx) (q : (dimsNT wf).contr.Idx) :
    ((dimsNT wf).lhsIdx j q 0).val = (j 0).val := by
  unfold DotDims.lhsIdx
  rw [dif_neg (show ¬(0 : Fin 2) ∈ (dimsNT wf).lhsBatch from List.not_mem_nil),
    dif_pos (show (0 : Fin 2) ∈ (dimsNT wf).lhsNonContracting from List.mem_singleton.mpr rfl)]
  rfl

/-- and the right operand's first coordinate is the output's column coordinate. -/
theorem nt_rhs_free (j : (⟨2, ![M, N]⟩ : Shape).Idx) (q : (dimsNT wf).contr.Idx) :
    ((dimsNT wf).rhsIdx j q 0).val = (j 1).val := by
  unfold DotDims.rhsIdx
  rw [dif_neg (show ¬(0 : Fin 2) ∈ (dimsNT wf).rhsBatch from List.not_mem_nil),
    dif_pos (show (0 : Fin 2) ∈ (dimsNT wf).rhsNonContracting from List.mem_singleton.mpr rfl)]
  rfl

/-- Entry (e, o) of the product into a zero accumulator: row e of the left operand against row o of the right one. -/
theorem dimsNT_matmul_zero_apply {φ₁ φ₂ : FTy} (prec : Option ContractPrecision)
    (x : FVec Ideal ⟨2, ![M, K]⟩ φ₁) (y : FVec Ideal ⟨2, ![N, K]⟩ φ₂) (e : Fin M) (o : Fin N) :
    FloatOps.matmul (dimsNT wf) prec x y (constant ⟨2, ![M, N]⟩ .f32 0x00000000#32) (ix2 e o)
      = ∑ r : Fin K, x (ix2 e r) * y (ix2 o r) := by
  rw [Ideal.matmul_constant_zero_apply,
    ← Equiv.sum_comp (contrEquiv1 (dimsNT wf) K rfl rfl).symm]
  refine Finset.sum_congr rfl fun k _ => ?_
  have hk := contrEquiv1_symm_val (dimsNT wf) K rfl rfl k
  have el : (dimsNT wf).lhsIdx (ix2 e o)
      ((contrEquiv1 (dimsNT wf) K rfl rfl).symm k) = ix2 e k := funext fun a => Fin.ext (by
    match a with
    | ⟨0, _⟩ => exact nt_lhs_free wf _ _
    | ⟨1, _⟩ => exact ((dimsNT wf).lhsIdx_val_of_single rfl _ _).trans hk)
  have er : (dimsNT wf).rhsIdx (ix2 e o)
      ((contrEquiv1 (dimsNT wf) K rfl rfl).symm k) = ix2 o k := funext fun a => Fin.ext (by
    match a with
    | ⟨0, _⟩ => exact nt_rhs_free wf _ _
    | ⟨1, _⟩ => exact ((dimsNT wf).rhsIdx_val_of_single rfl _ _).trans hk)
  rw [el, er]

/-- The same for any dimension numbers whose six lists are those. -/
theorem matmulNT {φ₁ φ₂ : FTy} (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (x : FVec Ideal ⟨2, ![M, K]⟩ φ₁) (y : FVec Ideal ⟨2, ![N, K]⟩ φ₂)
    (e : Fin M) (o : Fin N) :
    FloatOps.matmul D prec x y (constant ⟨2, ![M, N]⟩ .f32 0x00000000#32) (ix2 e o)
      = ∑ r : Fin K, x (ix2 e r) * y (ix2 o r) := by
  obtain ⟨lc, rc, ln, rn, lb, rb, wf⟩ := D
  simp only at hlc hrc hln hrn hlb hrb
  subst hlc hrc hln hrn hlb hrb
  exact dimsNT_matmul_zero_apply wf prec x y e o

end NT

/-! ## The plain product -/

section NN

variable {K M N : ℕ}

/-- The dimension numbers contracting the left operand's second axis with the right operand's first. -/
abbrev dimsNN (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

/-- The left operand's first coordinate is the output's row coordinate, -/
theorem nn_lhs_free (j : (⟨2, ![M, N]⟩ : Shape).Idx) (q : (dimsNN wf).contr.Idx) :
    ((dimsNN wf).lhsIdx j q 0).val = (j 0).val := by
  unfold DotDims.lhsIdx
  rw [dif_neg (show ¬(0 : Fin 2) ∈ (dimsNN wf).lhsBatch from List.not_mem_nil),
    dif_pos (show (0 : Fin 2) ∈ (dimsNN wf).lhsNonContracting from List.mem_singleton.mpr rfl)]
  rfl

/-- and the right operand's second coordinate is the output's column coordinate. -/
theorem nn_rhs_free (j : (⟨2, ![M, N]⟩ : Shape).Idx) (q : (dimsNN wf).contr.Idx) :
    ((dimsNN wf).rhsIdx j q 1).val = (j 1).val := by
  unfold DotDims.rhsIdx
  rw [dif_neg (show ¬(1 : Fin 2) ∈ (dimsNN wf).rhsBatch from List.not_mem_nil),
    dif_pos (show (1 : Fin 2) ∈ (dimsNN wf).rhsNonContracting from List.mem_singleton.mpr rfl)]
  rfl

/-- Entry (e, o) of the product into a zero accumulator: row e of the left operand against column o of the right one. -/
theorem dimsNN_matmul_zero_apply {φ₁ φ₂ : FTy} (prec : Option ContractPrecision)
    (x : FVec Ideal ⟨2, ![M, K]⟩ φ₁) (y : FVec Ideal ⟨2, ![K, N]⟩ φ₂) (e : Fin M) (o : Fin N) :
    FloatOps.matmul (dimsNN wf) prec x y (constant ⟨2, ![M, N]⟩ .f32 0x00000000#32) (ix2 e o)
      = ∑ r : Fin K, x (ix2 e r) * y (ix2 r o) := by
  rw [Ideal.matmul_constant_zero_apply,
    ← Equiv.sum_comp (contrEquiv1 (dimsNN wf) K rfl rfl).symm]
  refine Finset.sum_congr rfl fun k _ => ?_
  have hk := contrEquiv1_symm_val (dimsNN wf) K rfl rfl k
  have el : (dimsNN wf).lhsIdx (ix2 e o)
      ((contrEquiv1 (dimsNN wf) K rfl rfl).symm k) = ix2 e k := funext fun a => Fin.ext (by
    match a with
    | ⟨0, _⟩ => exact nn_lhs_free wf _ _
    | ⟨1, _⟩ => exact ((dimsNN wf).lhsIdx_val_of_single rfl _ _).trans hk)
  have er : (dimsNN wf).rhsIdx (ix2 e o)
      ((contrEquiv1 (dimsNN wf) K rfl rfl).symm k) = ix2 k o := funext fun a => Fin.ext (by
    match a with
    | ⟨0, _⟩ => exact ((dimsNN wf).rhsIdx_val_of_single rfl _ _).trans hk
    | ⟨1, _⟩ => exact nn_rhs_free wf _ _)
  rw [el, er]

/-- The same for any dimension numbers whose six lists are those. -/
theorem matmulNN {φ₁ φ₂ : FTy} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![M, K]⟩ φ₁) (y : FVec Ideal ⟨2, ![K, N]⟩ φ₂)
    (e : Fin M) (o : Fin N) :
    FloatOps.matmul D prec x y (constant ⟨2, ![M, N]⟩ .f32 0x00000000#32) (ix2 e o)
      = ∑ r : Fin K, x (ix2 e r) * y (ix2 r o) := by
  obtain ⟨lc, rc, ln, rn, lb, rb, wf⟩ := D
  simp only at hlc hrc hln hrn hlb hrb
  subst hlc hrc hln hrn hlb hrb
  exact dimsNN_matmul_zero_apply wf prec x y e o

end NN

end Cert.LibRowReduceProducts

end
-- ==== Proof.KernelPayload.lean ====
/-
  What one grid point of the fused gate stores, read at an index.

  A grid point holds one batch element as a [1, 16384, 64] block x (positions down, channels across). It pools the
  block down its columns twice — the column sums times the constant 2⁻¹⁴, and the column maxima —, stacks the two
  pooled rows into a [2, 64] matrix, multiplies it by the transposed first weight matrix ([4, 64], contracted over the
  channels), adds the first bias row and clamps below at zero, multiplies by the second weight matrix ([4, 64]), adds
  the two resulting rows and twice the second bias row, applies the logistic function and scales every row of the block
  by the resulting [1, 64] row. This module reads each of those stages at an index and ends with the stored value at
  (u, s, c) as x(0, s, c) times the logistic of a finite expression in sums, suprema, maxima and products.
-/
import proofs.«161511_g2000005911454314_pallasbulk_286_16_alg».proof.Proof.Gen.KernelIdeal.Skeleton
import proofs.«161511_g2000005911454314_pallasbulk_286_16_alg».proof.Proof.LibRowReduceProducts
import Idealize.ShloMosaic.Lib.ValueLayout
import Idealize.ShloMosaic.Lib.Pipeline.Value

noncomputable section

open scoped BigOperators

namespace Cert.KernelIdeal.GateValue

open Idealize.ShloMosaic Idealize.ShloMosaic.ValueIdx Cert.KernelIdeal Cert.KernelIdeal.Gen

/-! ## The stages -/

/-- The block with its leading unit axis dropped. -/
def slab (v0 : FVec Ideal S1x16384x64 .f32) : FVec Ideal S16384x64 .f32 :=
  shapeCast S16384x64 v0 shapeCasts_S1x16384x64_S16384x64

/-- The two pooled rows stacked: row 0 the column sums times 2⁻¹⁴, row 1 the column maxima. -/
def pools (v1 : FVec Ideal S16384x64 .f32) : FVec Ideal S2x64 .f32 :=
  concatenate S2x64 0
    [⟨S1x64, mulf (shapeCast S1x64 (multiReduction .add [0] S64 v1 0x00000000#32 reduces_S16384x64_S64 (.inl rfl) rfl) shapeCasts_S64_S1x64)
        (broadcast S1x64 (Scalar.ofBits .f32 0x38800000#32))⟩,
     ⟨S1x64, shapeCast S1x64 (multiReduction .maximumf [0] S64 v1 0xFF800000#32 reduces_S16384x64_S64 (.inl rfl) rfl) shapeCasts_S64_S1x64⟩]
    concatenates_S1x64_S1x64_S2x64_d0

/-- The hidden layer of both pooled rows: product with the transposed first weights, plus the bias row, clamped at 0. -/
def hiddenRows (v8 : FVec Ideal S2x64 .f32) (v9 : FVec Ideal S4x64 .f32) (v12 : FVec Ideal S1x4 .f32) : FVec Ideal S2x4 .f32 :=
  maximumf
    (addf (matmul dot_S2x64_S4x64_S2x4_1_1_0_0_n_n none v8 (shapeCast S4x64 v9 shapeCasts_S4x64_S4x64) (constant S2x4 .f32 0x00000000#32))
      (broadcastTo S2x4 (shapeCast S1x4 v12 shapeCasts_S1x4_S1x4) broadcasts_S1x4_S2x4))
    (broadcast S2x4 (Scalar.ofBits .f32 0x00000000#32))

/-- The logit row: both hidden rows through the second weights, added, plus twice the second bias row. -/
def logitRow (v17 : FVec Ideal S2x4 .f32) (v18 : FVec Ideal S4x64 .f32) (v23 : FVec Ideal S1x64 .f32) : FVec Ideal S1x64 .f32 :=
  addf
    (addf
      (extractStridedSlice S1x64 ![0, 0] (matmul dot_S2x4_S4x64_S2x64_1_0_0_1_n_n none v17 v18 (constant S2x64 .f32 0x00000000#32)) slices_S2x64_o0_0_S1x64)
      (extractStridedSlice S1x64 ![1, 0] (matmul dot_S2x4_S4x64_S2x64_1_0_0_1_n_n none v17 v18 (constant S2x64 .f32 0x00000000#32)) slices_S2x64_o1_0_S1x64))
    (mulf (broadcast S1x64 (Scalar.ofBits .f32 0x40000000#32)) (shapeCast S1x64 v23 shapeCasts_S1x64_S1x64))

/-- The stored value is the stages composed. -/
theorem pay_eq (v0 : Vec Ideal S1x16384x64 .f32) (v9 : Vec Ideal S4x64 .f32) (v12 : Vec Ideal S1x4 .f32)
    (v18 : Vec Ideal S4x64 .f32) (v23 : Vec Ideal S1x64 .f32) :
    k0_pay1 (F := Ideal) v0 v9 v12 v18 v23
      = shapeCast S1x16384x64
          (mulf (slab v0) (broadcastTo S16384x64 (logistic (logitRow (hiddenRows (pools (slab v0)) v9 v12) v18 v23)) broadcasts_S1x64_S16384x64))
          shapeCasts_S16384x64_S1x16384x64 := rfl

/-! ## Each stage read at an index -/

/-- The slab at (s, c) is the block at (0, s, c). -/
theorem slab_apply (v0 : FVec Ideal S1x16384x64 .f32) (s : Fin 16384) (c : Fin 64) :
    slab v0 (ix2 s c) = v0 (ix3 (0 : Fin 1) s c) :=
  shapeCast_1ab_ab_apply v0 shapeCasts_S1x16384x64_S16384x64 s c

/-- Row 0 of the pooled pair: the column sum times the constant. -/
theorem pools_row0 (v1 : FVec Ideal S16384x64 .f32) (r : Fin 64) :
    pools v1 (ix2 (0 : Fin 2) r) = (∑ k : Fin 16384, v1 (ix2 k r)) * Ideal.ofBits .f32 0x38800000#32 := by
  unfold pools
  refine (concatenate_pair_apply_left (t := S2x64) (s₁ := S1x64) (s₂ := S1x64) 0 _ _ concatenates_S1x64_S1x64_S2x64_d0
    (ix2 (0 : Fin 2) r) rfl (ix2 (0 : Fin 1) r) (fun b => match b with | ⟨0, _⟩ => rfl | ⟨1, _⟩ => rfl)).trans ?_
  refine (mulf_apply _ _ _).trans ?_
  refine congrArg₂ (· * ·) ?_ rfl
  refine (shapeCast_a_1a_apply _ shapeCasts_S64_S1x64 (0 : Fin 1) r).trans ?_
  exact Cert.LibRowReduceProducts.colSum_apply v1 reduces_S16384x64_S64 (.inl rfl) rfl r

/-- Row 1 of the pooled pair: the column maximum. -/
theorem pools_row1 (v1 : FVec Ideal S16384x64 .f32) (r : Fin 64) :
    pools v1 (ix2 (1 : Fin 2) r) = Finset.univ.sup fun k : Fin 16384 => v1 (ix2 k r) := by
  unfold pools
  refine (concatenate_pair_apply_right (t := S2x64) (s₁ := S1x64) (s₂ := S1x64) 0 _ _ concatenates_S1x64_S1x64_S2x64_d0
    (ix2 (1 : Fin 2) r) rfl rfl (ix2 (0 : Fin 1) r)
    (fun b => match b with | ⟨0, _⟩ => fun h => absurd rfl h | ⟨1, _⟩ => fun _ => rfl) rfl).trans ?_
  refine (shapeCast_a_1a_apply _ shapeCasts_S64_S1x64 (0 : Fin 1) r).trans ?_
  exact Cert.LibPayOps.columnMax_apply v1 reduces_S16384x64_S64 (.inl rfl) rfl r

/-- The hidden layer at (e, j): row e of the pooled pair against row j of the transposed weights, plus the bias, clamped. -/
theorem hiddenRows_apply (v8 : FVec Ideal S2x64 .f32) (v9 : FVec Ideal S4x64 .f32) (v12 : FVec Ideal S1x4 .f32)
    (e : Fin 2) (j : Fin 4) :
    hiddenRows v8 v9 v12 (ix2 e j)
      = max ((∑ r : Fin 64, v8 (ix2 e r) * v9 (ix2 j r)) + v12 (ix2 (0 : Fin 1) j)) (Ideal.ofBits .f32 0x00000000#32) := by
  unfold hiddenRows
  refine (maximumf_apply _ _ _).trans ?_
  refine congrArg₂ max ?_ rfl
  refine (addf_apply _ _ _).trans ?_
  refine congrArg₂ (· + ·) ?_ ?_
  · rw [shapeCast_self]
    exact Cert.LibRowReduceProducts.matmulNT dot_S2x64_S4x64_S2x4_1_1_0_0_n_n rfl rfl rfl rfl rfl rfl none v8 v9 e j
  · rw [shapeCast_self]
    exact broadcastTo_1b_ab_apply v12 broadcasts_S1x4_S2x4 e j

/-- The logit row at c: both hidden rows against column c of the second weights, added, plus twice the bias. -/
theorem logitRow_apply (v17 : FVec Ideal S2x4 .f32) (v18 : FVec Ideal S4x64 .f32) (v23 : FVec Ideal S1x64 .f32) (c : Fin 64) :
    logitRow v17 v18 v23 (ix2 (0 : Fin 1) c)
      = ((∑ j : Fin 4, v17 (ix2 (0 : Fin 2) j) * v18 (ix2 j c)) + (∑ j : Fin 4, v17 (ix2 (1 : Fin 2) j) * v18 (ix2 j c)))
        + Ideal.ofBits .f32 0x40000000#32 * v23 (ix2 (0 : Fin 1) c) := by
  unfold logitRow
  refine (addf_apply _ _ _).trans ?_
  refine congrArg₂ (· + ·) ((addf_apply _ _ _).trans (congrArg₂ (· + ·) ?_ ?_)) ?_
  · refine (slice2_axis0_apply 0 _ slices_S2x64_o0_0_S1x64 (0 : Fin 1) c (0 : Fin 2) rfl).trans ?_
    exact Cert.LibRowReduceProducts.matmulNN dot_S2x4_S4x64_S2x64_1_0_0_1_n_n rfl rfl rfl rfl rfl rfl none v17 v18 0 c
  · refine (slice2_axis0_apply 1 _ slices_S2x64_o1_0_S1x64 (0 : Fin 1) c (1 : Fin 2) rfl).trans ?_
    exact Cert.LibRowReduceProducts.matmulNN dot_S2x4_S4x64_S2x64_1_0_0_1_n_n rfl rfl rfl rfl rfl rfl none v17 v18 1 c
  · rw [shapeCast_self]; rfl

/-! ## The stored value at an index -/

/-- The logistic function of a vector, read at an index. -/
theorem logistic_at {s : Shape} (v : FVec Ideal s .f32) (i : s.Idx) : logistic v i = Ideal.logistic (v i) := rfl

/-- The hidden layer of a pooled vector p, as the body computes it from the block of transposed first weights and the bias row. -/
def bodyHidden (v9 : S4x64.Idx → EReal) (v12 : S1x4.Idx → EReal) (p : Fin 64 → EReal) (j : Fin 4) : EReal :=
  max ((∑ r : Fin 64, p r * v9 (ix2 j r)) + v12 (ix2 (0 : Fin 1) j)) (Ideal.ofBits .f32 0x00000000#32)

/-- The hidden layer through the second weights, at channel c. -/
def bodyProject (v9 : S4x64.Idx → EReal) (v12 : S1x4.Idx → EReal) (v18 : S4x64.Idx → EReal) (p : Fin 64 → EReal) (c : Fin 64) : EReal :=
  ∑ j : Fin 4, bodyHidden v9 v12 p j * v18 (ix2 j c)

/-- The logit the body computes at channel c from its five blocks. -/
def bodyLogit (v0 : S1x16384x64.Idx → EReal) (v9 : S4x64.Idx → EReal) (v12 : S1x4.Idx → EReal) (v18 : S4x64.Idx → EReal)
    (v23 : S1x64.Idx → EReal) (c : Fin 64) : EReal :=
  (bodyProject v9 v12 v18 (fun r => (∑ k : Fin 16384, v0 (ix3 (0 : Fin 1) k r)) * Ideal.ofBits .f32 0x38800000#32) c
    + bodyProject v9 v12 v18 (fun r => Finset.univ.sup fun k : Fin 16384 => v0 (ix3 (0 : Fin 1) k r)) c)
    + Ideal.ofBits .f32 0x40000000#32 * v23 (ix2 (0 : Fin 1) c)

/-- What a grid point stores at (u, s, c): the block's entry times the logistic of the body's logit at channel c. -/
theorem pay_apply (v0 : Vec Ideal S1x16384x64 .f32) (v9 : Vec Ideal S4x64 .f32) (v12 : Vec Ideal S1x4 .f32)
    (v18 : Vec Ideal S4x64 .f32) (v23 : Vec Ideal S1x64 .f32) (u : Fin 1) (s : Fin 16384) (c : Fin 64) :
    k0_pay1 (F := Ideal) v0 v9 v12 v18 v23 (ix3 u s c)
      = v0 (ix3 (0 : Fin 1) s c) * Ideal.logistic (bodyLogit v0 v9 v12 v18 v23 c) := by
  rw [pay_eq]
  refine (shapeCast_ab_1ab_apply _ shapeCasts_S16384x64_S1x16384x64 u s c).trans ?_
  refine (mulf_apply _ _ _).trans ?_
  refine congrArg₂ (· * ·) (slab_apply v0 s c) ?_
  refine (broadcastTo_1b_ab_apply _ broadcasts_S1x64_S16384x64 s c).trans ?_
  refine (logistic_at _ _).trans ?_
  refine congrArg Ideal.logistic ?_
  rw [logitRow_apply]
  unfold bodyLogit bodyProject bodyHidden
  simp only [hiddenRows_apply, pools_row0, pools_row1, slab_apply]

end Cert.KernelIdeal.GateValue

end
-- ==== Proof.LibTilePool.lean ====
/-
  Pooling a long axis tile by tile, on the extended reals (and, where cheaper, on any commutative monoid / any
  join-semilattice with a bottom).

  A sum (a supremum) over a*b positions is the sum (supremum) over the a tiles of the sum (supremum) over the b
  positions of each tile; an accumulator that starts at the first tile's value and adds (takes the maximum with) one
  further tile per step ends at the sum (supremum) over all tiles; twice an extended real is that number added to
  itself, so adding the same bias to two summands adds twice the bias to their sum; three float words.
-/
import Mathlib
import Idealize.ShloMosaic.PureOps.Ideal
import Idealize.ShloMosaic.PureOps.Ideal.Laws
import Idealize.ShloMosaic.Lib.IdealHost

noncomputable section

open scoped BigOperators

namespace Cert.TilePool

open Idealize.ShloMosaic

/-- Position l of tile k, of a tiles of b positions each, is a position below a*b. -/
theorem tile_lt {a b : ℕ} (k : Fin a) (l : Fin b) : k.val * b + l.val < a * b := by
  have hk : k.val + 1 ≤ a := k.isLt
  calc k.val * b + l.val < k.val * b + b := by have := l.isLt; omega
    _ = (k.val + 1) * b := by ring
    _ ≤ a * b := Nat.mul_le_mul_right b hk

/-- Position l of tile k, as an element of Fin (a*b). -/
def tilePos {a b : ℕ} (k : Fin a) (l : Fin b) : Fin (a * b) := ⟨k.val * b + l.val, tile_lt k l⟩

@[simp] theorem tilePos_val {a b : ℕ} (k : Fin a) (l : Fin b) : (tilePos k l).val = k.val * b + l.val := rfl

/-- Every position below a*b is position (s mod b) of tile (s div b). -/
theorem exists_tilePos {a b : ℕ} (s : Fin (a * b)) : ∃ (k : Fin a) (l : Fin b), tilePos k l = s := by
  have hb : 0 < b := by
    rcases Nat.eq_zero_or_pos b with h | h
    · exfalso
      have h1 : s.val < a * b := s.isLt
      have h2 : a * b = 0 := by rw [h, Nat.mul_zero]
      omega
    · exact h
  refine ⟨⟨s.val / b, ?_⟩, ⟨s.val % b, Nat.mod_lt _ hb⟩, ?_⟩
  · rw [Nat.div_lt_iff_lt_mul hb]; exact s.isLt
  · apply Fin.ext; simp only [tilePos_val]; exact Nat.div_add_mod' s.val b

/-- (1) A sum over a*b positions is the sum over the a tiles of the sum over each tile's b positions. -/
theorem sum_tiles {α : Type*} [AddCommMonoid α] (a b : ℕ) (f : Fin (a * b) → α) :
    ∑ s : Fin (a * b), f s = ∑ k : Fin a, ∑ l : Fin b, f (tilePos k l) := by
  rw [← Fintype.sum_prod_type', ← (finProdFinEquiv (m := a) (n := b)).sum_comp]
  apply Fintype.sum_congr
  rintro ⟨k, l⟩
  congr 1
  apply Fin.ext
  simp only [finProdFinEquiv_apply_val, tilePos_val]
  ring

/-- (2) A supremum over a*b positions is the supremum over the a tiles of the supremum over each tile's b positions. -/
theorem sup_tiles {α : Type*} [SemilatticeSup α] [OrderBot α] (a b : ℕ) (f : Fin (a * b) → α) :
    Finset.univ.sup f = Finset.univ.sup fun k : Fin a => Finset.univ.sup fun l : Fin b => f (tilePos k l) := by
  apply le_antisymm
  · apply Finset.sup_le
    intro s _
    obtain ⟨k, l, rfl⟩ := exists_tilePos s
    exact le_trans (Finset.le_sup (f := fun l : Fin b => f (tilePos k l)) (Finset.mem_univ l))
      (Finset.le_sup (f := fun k : Fin a => Finset.univ.sup fun l : Fin b => f (tilePos k l)) (Finset.mem_univ k))
  · apply Finset.sup_le
    intro k _
    apply Finset.sup_le
    intro l _
    exact Finset.le_sup (Finset.mem_univ _)

/-- (3, sums) An accumulator that starts at the first summand and adds one further summand per step ends at the sum
of all of them. -/
theorem acc_add_last {α : Type*} [AddCommMonoid α] : ∀ (n : ℕ) (g acc : Fin (n + 1) → α),
    acc 0 = g 0 → (∀ k : Fin n, acc k.succ = acc k.castSucc + g k.succ) → acc (Fin.last n) = ∑ k, g k
  | 0, g, acc, h0, _ => by
      rw [Fin.sum_univ_succ, Fin.sum_univ_zero, add_zero]
      exact h0
  | n + 1, g, acc, h0, hs => by
      have ih := acc_add_last n (fun k => g k.castSucc) (fun k => acc k.castSucc)
        (by show acc (Fin.castSucc 0) = g (Fin.castSucc 0); rw [Fin.castSucc_zero]; exact h0)
        (fun k => by
          show acc k.succ.castSucc = acc k.castSucc.castSucc + g k.succ.castSucc
          rw [← Fin.succ_castSucc]; exact hs k.castSucc)
      rw [Fin.sum_univ_castSucc, ← ih, ← Fin.succ_last, hs (Fin.last n)]

/-- (3, sums, from a starting value) An accumulator that starts at a0 and adds summand k at step k holds, after n
steps, a0 plus the first n summands. -/
theorem acc_add_range {α : Type*} [AddCommMonoid α] (a0 : α) (g acc : ℕ → α)
    (h0 : acc 0 = a0) (hs : ∀ k, acc (k + 1) = acc k + g k) (n : ℕ) :
    acc n = a0 + ∑ k ∈ Finset.range n, g k := by
  induction n with
  | zero => simpa using h0
  | succ n ih => rw [hs, ih, Finset.sum_range_succ, add_assoc]

/-- (3, maxima) An accumulator that starts at the first entry and takes the maximum with one further entry per step
ends at the supremum of all of them. -/
theorem acc_max_last {α : Type*} [SemilatticeSup α] [OrderBot α] (n : ℕ) (g acc : Fin (n + 1) → α)
    (h0 : acc 0 = g 0) (hs : ∀ k : Fin n, acc k.succ = acc k.castSucc ⊔ g k.succ) :
    acc (Fin.last n) = Finset.univ.sup g := by
  have hle : ∀ j : Fin (n + 1), acc j ≤ Finset.univ.sup g := by
    intro j
    induction j using Fin.induction with
    | zero => rw [h0]; exact Finset.le_sup (Finset.mem_univ _)
    | succ k ih => rw [hs]; exact sup_le ih (Finset.le_sup (Finset.mem_univ _))
  have hge : ∀ j k : Fin (n + 1), k ≤ j → g k ≤ acc j := by
    intro j
    induction j using Fin.induction with
    | zero =>
        intro k hk
        have : k = 0 := Fin.le_zero_iff.mp hk
        rw [this, h0]
    | succ i ih =>
        intro k hk
        rw [hs]
        rcases eq_or_lt_of_le hk with h | h
        · rw [h]; exact le_sup_right
        · exact le_trans (ih k (Fin.le_castSucc_iff.mpr h)) le_sup_left
  apply le_antisymm (hle _)
  apply Finset.sup_le
  intro k _
  exact hge _ k (Fin.le_last k)

/-- (3, eight summands) The left-nested sum of eight terms is their sum. -/
theorem add8_eq_sum {α : Type*} [AddCommMonoid α] (g : Fin 8 → α) :
    ((((((g 0 + g 1) + g 2) + g 3) + g 4) + g 5) + g 6) + g 7 = ∑ k, g k := by
  rw [Fin.sum_univ_eight]

/-- (3, eight entries) The left-nested maximum of eight entries is their supremum. -/
theorem max8_eq_sup {α : Type*} [LinearOrder α] [OrderBot α] (g : Fin 8 → α) :
    max (max (max (max (max (max (max (g 0) (g 1)) (g 2)) (g 3)) (g 4)) (g 5)) (g 6)) (g 7) = Finset.univ.sup g := by
  apply le_antisymm
  · refine max_le (max_le (max_le (max_le (max_le (max_le (max_le ?_ ?_) ?_) ?_) ?_) ?_) ?_) ?_ <;>
      exact Finset.le_sup (Finset.mem_univ _)
  · apply Finset.sup_le
    intro k _
    fin_cases k <;> simp [le_max_iff]

/-- (4) Twice an extended real is that number added to itself (also at the two infinities). -/
theorem two_mul_ereal (x : EReal) : (2 : EReal) * x = x + x := by
  induction x using EReal.rec with
  | bot => rw [EReal.mul_bot_of_pos (by norm_num)]; rfl
  | top => rw [EReal.mul_top_of_pos (by norm_num)]; rfl
  | coe r =>
      have h2 : (2 : EReal) = ((2 : ℝ) : EReal) := rfl
      rw [h2, ← EReal.coe_mul, ← EReal.coe_add, two_mul]

/-- (4) Adding the same number to two summands adds twice that number to their sum. -/
theorem add_bias_twice (A B x : EReal) : (A + x) + (B + x) = (A + B) + 2 * x := by
  rw [two_mul_ereal, add_add_add_comm]

/-- The f32 word 0x40000000 is 2. -/
theorem ofBits_two_f32 : Ideal.ofBits .f32 0x40000000#32 = (2 : EReal) := by
  rw [show (2 : EReal) = ((2 : ℝ) : EReal) from rfl]
  simp [Ideal.ofBits, Ideal.ieee, -EReal.coe_mul]; norm_num

/-- The f32 word 0x3F800000 is 1. -/
theorem ofBits_one_f32' : Ideal.ofBits .f32 0x3F800000#32 = (1 : EReal) := Ideal.ofBits_one_f32

/-- The f32 word 0x00000000 is 0. -/
theorem ofBits_zero_f32' : Ideal.ofBits .f32 0x00000000#32 = (0 : EReal) := Ideal.ofBits_zero_f32

end Cert.TilePool

end
-- ==== Proof.KernelLaw.lean ====
/-
  The logit the fused body computes is the specification's logit.

  The body contracts the pooled rows with the TRANSPOSED first weight matrix and adds the two perceptron outputs before
  adding twice the second bias; the specification adds the bias to each output first. On the extended reals
  (A + b) + (B + b) = (A + B) + 2·b holds for every b (the word 0x40000000 is the number 2), so the two agree
  whenever the body's five blocks hold: the batch element's slab of x, the transpose of w1, and b1, w2, b2 as rows.
-/
import proofs.«161511_g2000005911454314_pallasbulk_286_16_alg».proof.Proof.GateSpec
import proofs.«161511_g2000005911454314_pallasbulk_286_16_alg».proof.Proof.KernelPayload
import proofs.«161511_g2000005911454314_pallasbulk_286_16_alg».proof.Proof.LibTilePool

noncomputable section

open scoped BigOperators

namespace Cert.KernelIdeal.GateValue

open Idealize.ShloMosaic Idealize.ShloMosaic.ValueIdx Cert.KernelIdeal Cert.GateSpec

/-- The body's projection of a pooled vector is the specification's, given what the weight blocks hold. -/
theorem bodyProject_eq (w1 : W1.Idx → EReal) (b1 : B1.Idx → EReal) (w2 : W2.Idx → EReal)
    (v9 : S4x64.Idx → EReal) (v12 : S1x4.Idx → EReal) (v18 : S4x64.Idx → EReal)
    (h9 : ∀ (j : Fin 4) (r : Fin 64), v9 (ix2 j r) = w1 (ix2 r j))
    (h12 : ∀ j : Fin 4, v12 (ix2 (0 : Fin 1) j) = b1 (ix1 j))
    (h18 : ∀ (j : Fin 4) (c : Fin 64), v18 (ix2 j c) = w2 (ix2 j c))
    (p : Fin 64 → EReal) (c : Fin 64) :
    bodyProject v9 v12 v18 p c = project w1 b1 w2 p c := by
  unfold bodyProject bodyHidden Cert.GateSpec.project Cert.GateSpec.hidden
  simp only [h9, h12, h18]

/-- The body's logit at channel c, for the block of batch element b, is the specification's logit at (b, c). -/
theorem bodyLogit_eq (x : X5.Idx → EReal) (w1 : W1.Idx → EReal) (b1 : B1.Idx → EReal) (w2 : W2.Idx → EReal) (b2 : B2.Idx → EReal)
    (b : Fin 8) (v0 : S1x16384x64.Idx → EReal) (v9 : S4x64.Idx → EReal) (v12 : S1x4.Idx → EReal) (v18 : S4x64.Idx → EReal)
    (v23 : S1x64.Idx → EReal)
    (h0 : ∀ (s : Fin 16384) (r : Fin 64), v0 (ix3 (0 : Fin 1) s r) = xAt x b r s)
    (h9 : ∀ (j : Fin 4) (r : Fin 64), v9 (ix2 j r) = w1 (ix2 r j))
    (h12 : ∀ j : Fin 4, v12 (ix2 (0 : Fin 1) j) = b1 (ix1 j))
    (h18 : ∀ (j : Fin 4) (c : Fin 64), v18 (ix2 j c) = w2 (ix2 j c))
    (h23 : ∀ c : Fin 64, v23 (ix2 (0 : Fin 1) c) = b2 (ix1 c))
    (c : Fin 64) :
    bodyLogit v0 v9 v12 v18 v23 c = logit x w1 b1 w2 b2 b c := by
  unfold bodyLogit Cert.GateSpec.logit
  rw [bodyProject_eq w1 b1 w2 v9 v12 v18 h9 h12 h18, bodyProject_eq w1 b1 w2 v9 v12 v18 h9 h12 h18, h23,
    Cert.TilePool.ofBits_two_f32, Cert.TilePool.add_bias_twice]
  simp only [h0]
  rfl

end Cert.KernelIdeal.GateValue

end
-- ==== Proof.KernelBlocks.lean ====
/-
  From the grid points' blocks to the whole result array.

  The grid has eight points; point t works on batch element t. Its first input block is rows t of the channels-last
  view of x (an [8, 16384, 64] array the host lines before the grid build from x by a transpose and a reshape); its other
  four input blocks are whole arrays — the transpose of w1, b1 and b2 as one-row matrices, and w2 itself —, the same
  at every point. What point t writes back is therefore block t of ONE array, the gate in the channels-last flattened
  layout, and the eight blocks tile the result array: it ends holding that array.
-/
import proofs.«161511_g2000005911454314_pallasbulk_286_16_alg».proof.Proof.Gen.KernelIdeal.Frame
import proofs.«161511_g2000005911454314_pallasbulk_286_16_alg».proof.Proof.GateSpec
import proofs.«161511_g2000005911454314_pallasbulk_286_16_alg».proof.Proof.KernelPayload
import proofs.«161511_g2000005911454314_pallasbulk_286_16_alg».proof.Proof.KernelLaw
import proofs.«161511_g2000005911454314_pallasbulk_286_16_alg».proof.Proof.KernelHost
import Idealize.ShloMosaic.Lib.Pipeline.Value
import Idealize.ShloMosaic.Lib.ValueLayout
import Idealize.ShloMosaic.Lib.Tactic

noncomputable section

open scoped BigOperators
open Idealize.ShloMosaic Idealize.ShloMosaic.TcCoe Idealize.ShloMosaic.Tactic Idealize.SL.Sem Idealize.ShloMosaic.ValueIdx
open Idealize.ShloMosaic.Pipeline (Dat)

namespace Cert.KernelIdeal.GateValue

open Cert.KernelIdeal Cert.KernelIdeal.Gen Cert.GateSpec

variable (m : (ℓ : Loc nD τ sig) → Buf (Elt Ideal) ℓ) (ρ : Dev nD → PrngReg)

/-! ## The arrays the grid finds: the host lines before it, applied to the arguments -/

/-- The first window's array is x transposed to channels-last and flattened over the three spatial axes. -/
theorem V_v1 (c : Dev nD) : (V m c main_v1 : S8x16384x64.Idx → EReal)
    = shapeCast S8x16384x64 (transpose S8x16x32x32x64 [0, 2, 3, 4, 1] (m ((c.tc : Thread nD τ).loc main_arg0)) transposes_S8x64x16x32x32_S8x16x32x32x64_0_2_3_4_1) shapeCasts_S8x16x32x32x64_S8x16384x64 := by
  show StableHlo.after hostOps0 (fun b => m (c, b)) (Proc.devRef .tc main_v1) = _
  after_results
  all_goals rfl

/-- The second window's array is w1 transposed. -/
theorem V_v2 (c : Dev nD) : (V m c main_v2 : S4x64.Idx → EReal)
    = transpose S4x64 [1, 0] (m ((c.tc : Thread nD τ).loc main_arg1)) transposes_S64x4_S4x64_1_0 := by
  show StableHlo.after hostOps0 (fun b => m (c, b)) (Proc.devRef .tc main_v2) = _
  after_results
  all_goals rfl

/-- The third window's array is b1 as a one-row matrix. -/
theorem V_v3 (c : Dev nD) : (V m c main_v3 : S1x4.Idx → EReal)
    = shapeCast S1x4 (m ((c.tc : Thread nD τ).loc main_arg2)) shapeCasts_S4_S1x4 := by
  show StableHlo.after hostOps0 (fun b => m (c, b)) (Proc.devRef .tc main_v3) = _
  after_results
  all_goals rfl

/-- The fifth window's array is b2 as a one-row matrix (the fourth window's is w2 itself). -/
theorem V_v4 (c : Dev nD) : (V m c main_v4 : S1x64.Idx → EReal)
    = shapeCast S1x64 (m ((c.tc : Thread nD τ).loc main_arg4)) shapeCasts_S64_S1x64 := by
  show StableHlo.after hostOps0 (fun b => m (c, b)) (Proc.devRef .tc main_v4) = _
  after_results
  all_goals rfl

/-! ## The blocks -/

/-- The index maps over the grid: the first input window and the output window move with the point along the batch
    axis; every other window stays at block (0, 0). -/
theorem idx_facts : ∀ t : Fin cfg0.N, win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Point t's first input block at (u, s, r) is the channels-last view at (t, s, r). -/
theorem iblk0_apply (c : Dev nD) (t : Fin cfg0.N) (u : Fin 1) (s : Fin 16384) (r : Fin 64) (b : Fin 8) (hb : b.val = t.val) :
    (iblk m c 0 t : Vec Ideal S1x16384x64 .f32) (ix3 u s r) = (V m c main_v1 : S8x16384x64.Idx → EReal) (ix3 b s r) := by
  obtain ⟨e0, e1, e2, -⟩ := idx_facts t
  unfold iblk
  rw [View.read_apply]
  show (V m c main_v1 : S8x16384x64.Idx → EReal) _ = (V m c main_v1 : S8x16384x64.Idx → EReal) _
  refine congrArg (V m c main_v1 : S8x16384x64.Idx → EReal) (funext fun a => Fin.ext ?_)
  have hu : u.val = 0 := by omega
  match a with
  | ⟨0, _⟩ => show win0_0.index t (0 : Fin 3) * 1 + 1 * u.val = b.val; omega
  | ⟨1, _⟩ => show win0_0.index t (1 : Fin 3) * 16384 + 1 * s.val = s.val; omega
  | ⟨2, _⟩ => show win0_0.index t (2 : Fin 3) * 64 + 1 * r.val = r.val; omega

/-- A window whose one block is its whole array: the block read is the array. -/
theorem iblk1_apply (c : Dev nD) (t : Fin cfg0.N) (j : Fin 4) (r : Fin 64) :
    (iblk m c 1 t : Vec Ideal S4x64 .f32) (ix2 j r) = (V m c main_v2 : S4x64.Idx → EReal) (ix2 j r) := by
  obtain ⟨-, -, -, -, -, -, e0, e1, -⟩ := idx_facts t
  unfold iblk
  rw [View.read_apply]
  show (V m c main_v2 : S4x64.Idx → EReal) _ = (V m c main_v2 : S4x64.Idx → EReal) _
  refine congrArg (V m c main_v2 : S4x64.Idx → EReal) (funext fun a => Fin.ext ?_)
  match a with
  | ⟨0, _⟩ => show win0_1.index t (0 : Fin 2) * 4 + 1 * j.val = j.val; omega
  | ⟨1, _⟩ => show win0_1.index t (1 : Fin 2) * 64 + 1 * r.val = r.val; omega

/-- The same for the first bias row, -/
theorem iblk2_apply (c : Dev nD) (t : Fin cfg0.N) (u : Fin 1) (j : Fin 4) :
    (iblk m c 2 t : Vec Ideal S1x4 .f32) (ix2 u j) = (V m c main_v3 : S1x4.Idx → EReal) (ix2 u j) := by
  obtain ⟨-, -, -, -, -, -, -, -, e0, e1, -⟩ := idx_facts t
  unfold iblk
  rw [View.read_apply]
  show (V m c main_v3 : S1x4.Idx → EReal) _ = (V m c main_v3 : S1x4.Idx → EReal) _
  refine congrArg (V m c main_v3 : S1x4.Idx → EReal) (funext fun a => Fin.ext ?_)
  match a with
  | ⟨0, _⟩ => show win0_2.index t (0 : Fin 2) * 1 + 1 * u.val = u.val; omega
  | ⟨1, _⟩ => show win0_2.index t (1 : Fin 2) * 4 + 1 * j.val = j.val; omega

/-- the second weight matrix, -/
theorem iblk3_apply (c : Dev nD) (t : Fin cfg0.N) (j : Fin 4) (r : Fin 64) :
    (iblk m c 3 t : Vec Ideal S4x64 .f32) (ix2 j r) = (V m c main_arg3 : S4x64.Idx → EReal) (ix2 j r) := by
  obtain ⟨-, -, -, -, -, -, -, -, -, -, e0, e1, -⟩ := idx_facts t
  unfold iblk
  rw [View.read_apply]
  show (V m c main_arg3 : S4x64.Idx → EReal) _ = (V m c main_arg3 : S4x64.Idx → EReal) _
  refine congrArg (V m c main_arg3 : S4x64.Idx → EReal) (funext fun a => Fin.ext ?_)
  match a with
  | ⟨0, _⟩ => show win0_3.index t (0 : Fin 2) * 4 + 1 * j.val = j.val; omega
  | ⟨1, _⟩ => show win0_3.index t (1 : Fin 2) * 64 + 1 * r.val = r.val; omega

/-- and the second bias row. -/
theorem iblk4_apply (c : Dev nD) (t : Fin cfg0.N) (u : Fin 1) (r : Fin 64) :
    (iblk m c 4 t : Vec Ideal S1x64 .f32) (ix2 u r) = (V m c main_v4 : S1x64.Idx → EReal) (ix2 u r) := by
  obtain ⟨-, -, -, -, -, -, -, -, -, -, -, -, e0, e1⟩ := idx_facts t
  unfold iblk
  rw [View.read_apply]
  show (V m c main_v4 : S1x64.Idx → EReal) _ = (V m c main_v4 : S1x64.Idx → EReal) _
  refine congrArg (V m c main_v4 : S1x64.Idx → EReal) (funext fun a => Fin.ext ?_)
  match a with
  | ⟨0, _⟩ => show win0_4.index t (0 : Fin 2) * 1 + 1 * u.val = u.val; omega
  | ⟨1, _⟩ => show win0_4.index t (1 : Fin 2) * 64 + 1 * r.val = r.val; omega

/-- What the grid point of batch element b stores at (u, s, r) is the gate's slab entry (b, s, r). -/
theorem point_value (c : Dev nD) (t : Fin cfg0.N) (u : Fin 1) (s : Fin 16384) (r : Fin 64) (b : Fin 8) (hb : b.val = t.val) :
    k0_pay1 (F := Ideal) (iblk m c 0 t) (iblk m c 1 t) (iblk m c 2 t) (iblk m c 3 t) (iblk m c 4 t) (ix3 u s r)
      = slabGate (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (ix3 b s r) := by
  have h0 : ∀ (s' : Fin 16384) (r' : Fin 64), (iblk m c 0 t : Vec Ideal S1x16384x64 .f32) (ix3 (0 : Fin 1) s' r')
      = xAt (m ((c.tc : Thread nD τ).loc main_arg0)) b r' s' := fun s' r' => by
    rw [iblk0_apply m c t 0 s' r' b hb, V_v1, channelsLast_apply]; rfl
  have h9 : ∀ (j : Fin 4) (r' : Fin 64), (iblk m c 1 t : Vec Ideal S4x64 .f32) (ix2 j r')
      = (m ((c.tc : Thread nD τ).loc main_arg1) : W1.Idx → EReal) (ix2 r' j) := fun j r' => by
    rw [iblk1_apply, V_v2, transpose_ix2_apply]
  have h12 : ∀ j : Fin 4, (iblk m c 2 t : Vec Ideal S1x4 .f32) (ix2 (0 : Fin 1) j)
      = (m ((c.tc : Thread nD τ).loc main_arg2) : B1.Idx → EReal) (ix1 j) := fun j => by
    rw [iblk2_apply, V_v3, shapeCast_a_1a_apply]
  have h18 : ∀ (j : Fin 4) (c' : Fin 64), (iblk m c 3 t : Vec Ideal S4x64 .f32) (ix2 j c')
      = (m ((c.tc : Thread nD τ).loc main_arg3) : W2.Idx → EReal) (ix2 j c') := fun j c' => by
    rw [iblk3_apply, V_main_arg3]
  have h23 : ∀ c' : Fin 64, (iblk m c 4 t : Vec Ideal S1x64 .f32) (ix2 (0 : Fin 1) c')
      = (m ((c.tc : Thread nD τ).loc main_arg4) : B2.Idx → EReal) (ix1 c') := fun c' => by
    rw [iblk4_apply, V_v4, shapeCast_a_1a_apply]
  refine (pay_apply (iblk m c 0 t) (iblk m c 1 t) (iblk m c 2 t) (iblk m c 3 t) (iblk m c 4 t) u s r).trans ?_
  rw [slabGate_apply, h0 s r]
  refine congrArg (fun z => _ * Ideal.logistic z) ?_
  exact bodyLogit_eq _ _ _ _ _ b _ _ _ _ _ h0 h9 h12 h18 h23 r

/-! ## What a point writes back, and the whole array -/

theorem hz3 : (![0, 0, 0] : Fin 3 → Nat) = fun _ => 0 := funext fun a => by fin_cases a <;> rfl
theorem hz2 : (![0, 0] : Fin 2 → Nat) = fun _ => 0 := funext fun a => by fin_cases a <;> rfl

/-- WHAT POINT t WRITES BACK is block t of the gate's slab array. -/
theorem flushed_eq (c : Dev nD) (t : Fin cfg0.N) :
    (dats m 0 c).flushed 5 t = ((cfg0.win 5).blk t).view.read (Elt Ideal)
      (slabGate (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))) := by
  show (cfg0.win 5).cut (grid0.coords t) ((dats m 0 c).after 5 t) = _
  rw [after0_5]
  unfold out0_5
  rw [View.canon_unit_zero hz3]
  simp only [View.ld_unit_zero (S := S1x16384x64) hz3, View.ld_unit_zero (S := S4x64) hz2, View.ld_unit_zero (S := S1x4) hz2,
    View.ld_unit_zero (S := S1x64) hz2]
  funext y
  rw [View.read_apply]
  obtain ⟨u, s, r, rfl⟩ : ∃ (u : Fin 1) (s : Fin 16384) (r : Fin 64), y = ix3 u s r := ⟨y 0, y 1, y 2, eq_ix3 y⟩
  obtain ⟨-, -, -, e0, e1, e2, -⟩ := idx_facts t
  have hemb : ((View.whole main_v5).slice ((win0 5).rect t)).emb (ix3 u s r)
      = (ix3 (⟨t.val, lt_of_lt_of_eq t.isLt N_0⟩ : Fin 8) s r : S8x16384x64.Idx) := by
    funext a; apply Fin.ext
    have hu : u.val = 0 := by omega
    match a with
    | ⟨0, _⟩ => show win0_5.index t (0 : Fin 3) * 1 + 1 * u.val = t.val; omega
    | ⟨1, _⟩ => show win0_5.index t (1 : Fin 3) * 16384 + 1 * s.val = s.val; omega
    | ⟨2, _⟩ => show win0_5.index t (2 : Fin 3) * 64 + 1 * r.val = r.val; omega
  show k0_pay1 (F := Ideal) (iblk m c 0 t) (iblk m c 1 t) (iblk m c 2 t) (iblk m c 3 t) (iblk m c 4 t) (ix3 u s r)
    = slabGate (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (((View.whole main_v5).slice ((win0 5).rect t)).emb (ix3 u s r))
  rw [hemb]
  exact point_value m c t u s r _ rfl

/-- An index of the result array is in point t's block iff each coordinate is in the block's range on its axis. -/
theorem mem_blk5 (t : Fin cfg0.N) (i : S8x16384x64.Idx) :
    i ∈ ((cfg0.win 5).blk t).view.set ↔ ∀ a : Fin 3, win0_5.index t a * S1x16384x64.size a ≤ (i a).val
      ∧ (i a).val < win0_5.index t a * S1x16384x64.size a + S1x16384x64.size a := by
  show i ∈ ((View.whole main_v5).slice (win0_5.rect t)).set ↔ _
  rw [View.set_slice_whole, Rect.mem_set_unit]
  exact Iff.rfl

/-- THE RESULT ARRAY after the grid: the eight blocks tile it (batch row b is point b's), so it holds the gate's slab array. -/
theorem final5 (c : Dev nD) : (dats m 0 c).arrAt 5 cfg0.N
    = slabGate (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) :=
  (dats m 0 c).arrAt_eq_of_cover 5 _ (fun t _ => flushed_eq m c t) fun i => by
    have hi0 : ((i : S8x16384x64.Idx) 0).val < 8 := (i 0).isLt
    have hi1 : ((i : S8x16384x64.Idx) 1).val < 16384 := (i 1).isLt
    have hi2 : ((i : S8x16384x64.Idx) 2).val < 64 := (i 2).isLt
    refine ⟨⟨((i : S8x16384x64.Idx) 0).val, lt_of_lt_of_eq hi0 N_0.symm⟩, flush0_5 _, ?_⟩
    obtain ⟨-, -, -, e0', e1, e2, -⟩ := idx_facts ⟨((i : S8x16384x64.Idx) 0).val, lt_of_lt_of_eq hi0 N_0.symm⟩
    have e0 : win0_5.index ⟨((i : S8x16384x64.Idx) 0).val, lt_of_lt_of_eq hi0 N_0.symm⟩ (0 : Fin 3) = ((i : S8x16384x64.Idx) 0).val := e0'
    rw [mem_blk5]
    intro a
    match a with
    | ⟨0, _⟩ =>
      show win0_5.index _ (0 : Fin 3) * 1 ≤ ((i : S8x16384x64.Idx) 0).val ∧ ((i : S8x16384x64.Idx) 0).val < win0_5.index _ (0 : Fin 3) * 1 + 1
      rw [e0]; constructor <;> omega
    | ⟨1, _⟩ =>
      show win0_5.index _ (1 : Fin 3) * 16384 ≤ ((i : S8x16384x64.Idx) 1).val ∧ ((i : S8x16384x64.Idx) 1).val < win0_5.index _ (1 : Fin 3) * 16384 + 16384
      rw [e1]; constructor <;> omega
    | ⟨2, _⟩ =>
      show win0_5.index _ (2 : Fin 3) * 64 ≤ ((i : S8x16384x64.Idx) 2).val ∧ ((i : S8x16384x64.Idx) 2).val < win0_5.index _ (2 : Fin 3) * 64 + 64
      rw [e2]; constructor <;> omega

end Cert.KernelIdeal.GateValue

end
-- ==== Proof.KernelGate.lean ====
/-
  The run of the fused program, at the ideal values.

  The result array of the grid holds the gate in the channels-last flattened layout; the two host lines after the
  grid reshape it to [8, 16, 32, 32, 64] and transpose it back to [8, 64, 16, 32, 32], which is the gate of the five
  argument arrays index by index. No line of the program writes an argument array.
-/
import proofs.«161511_g2000005911454314_pallasbulk_286_16_alg».proof.Proof.Gen.KernelIdeal.Frame
import proofs.«161511_g2000005911454314_pallasbulk_286_16_alg».proof.Proof.GateSpec
import proofs.«161511_g2000005911454314_pallasbulk_286_16_alg».proof.Proof.KernelHost
import proofs.«161511_g2000005911454314_pallasbulk_286_16_alg».proof.Proof.KernelBlocks
import Idealize.ShloMosaic.Lib.Pipeline.Value
import Idealize.ShloMosaic.Lib.ValueLayout
import Idealize.ShloMosaic.Lib.Tactic

noncomputable section

open scoped BigOperators
open Idealize.ShloMosaic Idealize.ShloMosaic.TcCoe Idealize.ShloMosaic.Tactic Idealize.SL.Sem Idealize.ShloMosaic.ValueIdx
open Idealize.ShloMosaic.Pipeline (Dat)

namespace Cert.KernelIdeal.GateValue

open Cert.KernelIdeal Cert.KernelIdeal.Gen Cert.GateSpec

variable (m : (ℓ : Loc nD τ sig) → Buf (Elt Ideal) ℓ)

/-- What the host lines after the grid leave in the result buffer: the gate. -/
theorem tail_v7 (c : Dev nD) :
    Pipeline.afterTail₀ cfgs (dats m) 0 (V0 m) [hostOps1] c main_v7
      = gate (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  unfold Pipeline.afterTail₀
  show StableHlo.after hostOps1 _ (Proc.devRef .tc main_v7) = _
  after_results
  have hw : Pipeline.withArrays (cfgs 0).spec c (V0 m c) (fun w => (dats m 0 c).arrAt w (cfgs 0).N) (Proc.devRef .tc main_v5)
      = slabGate (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) :=
    (Pipeline.withArrays_arr spec0 launch0.win.arr_inj c _ _ 5).trans (final5 m c)
  rw [hw]
  exact channelsSecond_slabGate _ _ _ _ _ shapeCasts_S8x16384x64_S8x16x32x32x64 transposes_S8x16x32x32x64_S8x64x16x32x32_0_4_1_2_3

/-- THE RUN of the fused program at the ideal values: the result buffer ends holding the gate of the five argument
    arrays, and the arguments end as they were launched. -/
theorem run (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v7)
          = Cert.GateSpec.gate (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run defs _ _).mono (fun r h c =>
    ⟨((h c).2 main_v7 (Pipeline.mem_restRefs_of main_v7 (by decide) (by decide))).trans (tail_v7 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.GateValue
end
-- ==== Proof.RefPoolFirst.lean ====
/-
  The pooling region of the reference (its first pallas region), part 1: what its two control cases are, and
  where they occur.

  The grid is 8 × 8: point t = 8·b + s handles batch b and the s-th tile of 2048 spatial positions. The body
  computes, for each of the 64 channels, the tile's sum and the tile's maximum. At s = 0 it STORES them into the two
  output blocks; at s > 0 it ADDS the tile's sum to, and takes the MAXIMUM of the tile's maximum with, what the
  output blocks already hold. The two branch conditions are functions of s alone; exactly one holds at every point
  (s = 0 at the points t ≡ 0 mod 8, s > 0 at all others), so neither output block is ever left untouched.
-/
import proofs.«161511_g2000005911454314_pallasbulk_286_16_alg».proof.Proof.Gen.ReferenceIdeal.Launch
import proofs.«161511_g2000005911454314_pallasbulk_286_16_alg».proof.Proof.Gen.ReferenceIdeal.Skeleton
import proofs.«161511_g2000005911454314_pallasbulk_286_16_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (Pipeline.UD sig nD τ) ℕ

/-! ## The two branch conditions over the grid -/

/-- The "first tile" branch (s = 0) is taken exactly at the points t ≡ 0 (mod 8). -/
theorem first_tile_iff : ∀ t : Fin cfg0.N, k0_cond1 (grid0.coords t) = 1#1 ↔ t.val % 8 = 0 :=
  (by decide +kernel : ∀ t : Fin grid0.N, k0_cond1 (grid0.coords t) = 1#1 ↔ t.val % 8 = 0)

/-- The "later tile" branch (s > 0) is taken exactly at the other points. -/
theorem later_tile_iff : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)

/-- As functions of the tile number s alone: one of the two branches is taken, whatever s is. -/
theorem some_branch : ∀ s : Fin 8,
    (!(Scalar.cmpi .ne (Scalar.extui (Scalar.cmpi .eq (BitVec.ofNat 32 s.val) 0#32) : BitVec 32) 0#32 == 1#1)
      && !(Scalar.cmpi .ne (Scalar.extui (Scalar.cmpi .sgt (BitVec.ofNat 32 s.val) 0#32) : BitVec 32) 0#32 == 1#1)) = false := by
  decide +kernel

/-- So neither accumulator block is idle at any grid coordinates. -/
theorem sum_live (i : grid0.Coords) : cfg0.idle 1 i = false := some_branch (i 1)
theorem max_live (i : grid0.Coords) : cfg0.idle 2 i = false := some_branch (i 1)

/-! ## The staging memrefs the body is called with at a point -/

abbrev ms0_0 (t : Fin cfg0.N) : Memref sig .tc .vmem S1x64x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x64x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x1 .f32 := win0_2.stage (cfg0.slots t 2)
abbrev hs0_2 (t : Fin cfg0.N) : (ms0_2 t).IsWhole := hstage0_2 ((cfg0.slots t 2).cast nbuf0_2)

/-- One staging buffer of each accumulator window, through which its contents are stated (the choice does not matter). -/
abbrev VO0_1 : View sig .tc .vmem S1x64x1 .f32 := (Memref.whole cc0_stg1_0 : Memref sig .tc .vmem S1x64x1 .f32).view
abbrev VO0_2 : View sig .tc .vmem S1x64x1 .f32 := (Memref.whole cc0_stg2_0 : Memref sig .tc .vmem S1x64x1 .f32).view

/-! ## The body at a point of the FIRST tile (s = 0): both accumulators are overwritten -/

set_option maxHeartbeats 1000000 in
/-- On whole staging memrefs — the input tile at `x0`, the two accumulators at anything — the body, at coordinates where
    the first-tile branch is taken and the later-tile branch is not, runs to the continuation with the input as it was and
    each accumulator's buffer with the stores' pieces written (the pieces are what the run finds). -/
noncomputable def firstTileRun (c : Dev nD) (i : grid0.Coords) (arg2 : Memref sig .tc .vmem S1x64x2048 .f32) (harg2 : arg2.IsWhole)
    (arg3 : Memref sig .tc .vmem S1x64x1 .f32) (harg3 : arg3.IsWhole) (arg4 : Memref sig .tc .vmem S1x64x1 .f32) (harg4 : arg4.IsWhole)
    (hc1 : k0_cond1 i = 1#1) (hc2 : ¬ k0_cond2 i = 1#1) (x0 : Vec F S1x64x2048 .f32) :
    { L : List (View.Piece (Elt F) S1x64x1 .f32) × List (View.Piece (Elt F) S1x64x1 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ (iprop(owns (c : Thread nD τ) arg2 fullShare x0
                ∗ (∃ f, arg3.view.loc (c : Thread nD τ) ↦[arg3.view.set]{fullShare} arg3.view.writes (Elt F) f L.1)
                ∗ (∃ f, arg4.view.loc (c : Thread nD τ) ↦[arg4.view.set]{fullShare} arg4.view.writes (Elt F) f L.2)) -∗ K ⟨⟩))
          ⊢ wp frame (wpE (defs₀ (F := F)) Variants.none c none) E (cc0_pool_kernel i arg2 harg2 arg3 harg3 arg4 harg4) K } := by
  refine ⟨(?_, ?_), fun E K => ?run⟩
  case run =>
    simp only [cc0_pool_kernel_eq_skeleton]; unfold cc0_pool_kernel_skel
    unfold owns
    iintro ⟨⟨%f0, %hf0, H0⟩, ⟨%d1, %f1, -, H1⟩, ⟨%d2, %f2, -, H2⟩, Hk⟩
    obtain rfl := harg2.eq_unread hf0
    sl_exec (disch := first | exact hc1 | exact hc2)
    sl_step
    iapply Hk
    isplitl [H0]
    · iexists _; isplitr; · ipureintro; exact harg2.read_unread _
      iexact H0
    isplitl [H1]
    · iexists _; iexact H1
    iexists _; iexact H2

end Cert.ReferenceIdeal.Run

end
-- ==== Proof.RefPoolLater.lean ====
/-
  The pooling region of the reference, part 2: the body at a point of a LATER tile (s > 0). There the first-tile branch
  is skipped and the later-tile branch is taken: the sum block is loaded, the tile's channel sums are added, and the
  result stored back; the maximum block likewise with the pointwise maximum. So what each accumulator block holds
  afterwards depends on what it held before.
-/
import proofs.«161511_g2000005911454314_pallasbulk_286_16_alg».proof.Proof.RefPoolFirst

set_option maxRecDepth 16384

noncomputable section

namespace Cert.ReferenceIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (Pipeline.UD sig nD τ) ℕ

set_option maxHeartbeats 1000000 in
/-- On whole staging memrefs — the input tile at `x0`, the two accumulators at their running contents `xo1`, `xo2` —
    the body, at coordinates where the first-tile branch is not taken and the later-tile branch is, runs to the
    continuation with the input as it was and each accumulator's buffer with the stores' pieces written. -/
noncomputable def laterTileRun (c : Dev nD) (i : grid0.Coords) (arg2 : Memref sig .tc .vmem S1x64x2048 .f32) (harg2 : arg2.IsWhole)
    (arg3 : Memref sig .tc .vmem S1x64x1 .f32) (harg3 : arg3.IsWhole) (arg4 : Memref sig .tc .vmem S1x64x1 .f32) (harg4 : arg4.IsWhole)
    (hc1 : ¬ k0_cond1 i = 1#1) (hc2 : k0_cond2 i = 1#1) (x0 : Vec F S1x64x2048 .f32) (xo1 xo2 : Vec F S1x64x1 .f32) :
    { L : List (View.Piece (Elt F) S1x64x1 .f32) × List (View.Piece (Elt F) S1x64x1 .f32) //
      ∀ (E : Set ℕ) (K : PUnit → sProp 𝕄),
        iprop(owns (c : Thread nD τ) arg2 fullShare x0 ∗ owns (c : Thread nD τ) arg3 fullShare xo1 ∗ owns (c : Thread nD τ) arg4 fullShare xo2
            ∗ (iprop(owns (c : Thread nD τ) arg2 fullShare x0
                ∗ (∃ f, arg3.view.loc (c : Thread nD τ) ↦[arg3.view.set]{fullShare} arg3.view.writes (Elt F) f L.1)
                ∗ (∃ f, arg4.view.loc (c : Thread nD τ) ↦[arg4.view.set]{fullShare} arg4.view.writes (Elt F) f L.2)) -∗ K ⟨⟩))
          ⊢ wp frame (wpE (defs₀ (F := F)) Variants.none c none) E (cc0_pool_kernel i arg2 harg2 arg3 harg3 arg4 harg4) K } := by
  refine ⟨(?_, ?_), fun E K => ?run⟩
  case run =>
    simp only [cc0_pool_kernel_eq_skeleton]; unfold cc0_pool_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc1 | exact hc2)
    sl_step
    iapply Hk
    isplitl [H0]
    · iexists _; isplitr; · ipureintro; exact harg2.read_unread _
      iexact H0
    isplitl [H1]
    · iexists _; iexact H1
    iexists _; iexact H2

end Cert.ReferenceIdeal.Run

end
-- ==== Proof.RefPoolData.lean ====
/-
  The pooling region of the reference, part 3: what the two accumulator blocks hold after every grid point, the
  region's proof data, and its body obligation — at any contents `V` of the core's buffers when the region is entered.

  Point t = 8·b + s. At s = 0 both blocks are overwritten (with the first tile's channel sums and channel maxima); at
  s > 0 they are updated from what the point before left — the blocks of batch b are not written back to their arrays
  until s = 7, so between two points of one batch the staging buffers keep their contents. That recursion is `poolAt`.
-/
import proofs.«161511_g2000005911454314_pallasbulk_286_16_alg».proof.Proof.RefPoolLater

set_option maxRecDepth 16384

noncomputable section

namespace Cert.ReferenceIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (Pipeline.UD sig nD τ) ℕ

section Pool

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input tile's staging buffer holds its block at every point, for any proof data whose array is `V`'s and
    whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## What one point leaves in the two accumulator blocks -/

/-- At a point of the first tile: the pair (sum block, maximum block) the body leaves, from the input tile. -/
def firstAt (c : Dev nD) (t : Fin cfg0.N) (h0 : t.val % 8 = 0) (x0 : Vec F S1x64x2048 .f32) : Vec F S1x64x1 .f32 × Vec F S1x64x1 .f32 :=
  (VO0_1.read (Elt F) (VO0_1.writes (Elt F) VO0_1.junk
      (firstTileRun (F := F) c (grid0.coords t) (ms0_0 t) (hs0_0 t) (ms0_1 t) (hs0_1 t) (ms0_2 t) (hs0_2 t) ((first_tile_iff t).mpr h0) (fun h => (later_tile_iff t).mp h h0) x0).1.1),
   VO0_2.read (Elt F) (VO0_2.writes (Elt F) VO0_2.junk
      (firstTileRun (F := F) c (grid0.coords t) (ms0_0 t) (hs0_0 t) (ms0_1 t) (hs0_1 t) (ms0_2 t) (hs0_2 t) ((first_tile_iff t).mpr h0) (fun h => (later_tile_iff t).mp h h0) x0).1.2))

/-- At a point of a later tile: the pair the body leaves, from the input tile and the pair it found. -/
def laterAt (c : Dev nD) (t : Fin cfg0.N) (h0 : ¬ t.val % 8 = 0) (x0 : Vec F S1x64x2048 .f32) (xo : Vec F S1x64x1 .f32 × Vec F S1x64x1 .f32) :
    Vec F S1x64x1 .f32 × Vec F S1x64x1 .f32 :=
  (VO0_1.read (Elt F) (VO0_1.writes (Elt F) VO0_1.junk
      (laterTileRun (F := F) c (grid0.coords t) (ms0_0 t) (hs0_0 t) (ms0_1 t) (hs0_1 t) (ms0_2 t) (hs0_2 t) (fun h => h0 ((first_tile_iff t).mp h)) ((later_tile_iff t).mpr h0) x0 xo.1 xo.2).1.1),
   VO0_2.read (Elt F) (VO0_2.writes (Elt F) VO0_2.junk
      (laterTileRun (F := F) c (grid0.coords t) (ms0_0 t) (hs0_0 t) (ms0_1 t) (hs0_1 t) (ms0_2 t) (hs0_2 t) (fun h => h0 ((first_tile_iff t).mp h)) ((later_tile_iff t).mpr h0) x0 xo.1 xo.2).1.2))

/-- The stores of each case tile each accumulator block, so they cover it. -/
theorem first_cover1 (c : Dev nD) (i : grid0.Coords) (arg2 : Memref sig .tc .vmem S1x64x2048 .f32) (harg2 : arg2.IsWhole)
    (arg3 : Memref sig .tc .vmem S1x64x1 .f32) (harg3 : arg3.IsWhole) (arg4 : Memref sig .tc .vmem S1x64x1 .f32) (harg4 : arg4.IsWhole)
    (hc1 : k0_cond1 i = 1#1) (hc2 : ¬ k0_cond2 i = 1#1) (x0 : Vec F S1x64x2048 .f32) (y : S1x64x1.Idx) :
    ∃ pc ∈ (firstTileRun (F := F) c i arg2 harg2 arg3 harg3 arg4 harg4 hc1 hc2 x0).1.1, y ∈ pc.1.set :=
  View.cover_of_tiledL (firstTileRun (F := F) c i arg2 harg2 arg3 harg3 arg4 harg4 hc1 hc2 x0).1.1 S1x64x1.size (by sl_kernel_rfl) y
theorem first_cover2 (c : Dev nD) (i : grid0.Coords) (arg2 : Memref sig .tc .vmem S1x64x2048 .f32) (harg2 : arg2.IsWhole)
    (arg3 : Memref sig .tc .vmem S1x64x1 .f32) (harg3 : arg3.IsWhole) (arg4 : Memref sig .tc .vmem S1x64x1 .f32) (harg4 : arg4.IsWhole)
    (hc1 : k0_cond1 i = 1#1) (hc2 : ¬ k0_cond2 i = 1#1) (x0 : Vec F S1x64x2048 .f32) (y : S1x64x1.Idx) :
    ∃ pc ∈ (firstTileRun (F := F) c i arg2 harg2 arg3 harg3 arg4 harg4 hc1 hc2 x0).1.2, y ∈ pc.1.set :=
  View.cover_of_tiledL (firstTileRun (F := F) c i arg2 harg2 arg3 harg3 arg4 harg4 hc1 hc2 x0).1.2 S1x64x1.size (by sl_kernel_rfl) y
theorem later_cover1 (c : Dev nD) (i : grid0.Coords) (arg2 : Memref sig .tc .vmem S1x64x2048 .f32) (harg2 : arg2.IsWhole)
    (arg3 : Memref sig .tc .vmem S1x64x1 .f32) (harg3 : arg3.IsWhole) (arg4 : Memref sig .tc .vmem S1x64x1 .f32) (harg4 : arg4.IsWhole)
    (hc1 : ¬ k0_cond1 i = 1#1) (hc2 : k0_cond2 i = 1#1) (x0 : Vec F S1x64x2048 .f32) (xo1 xo2 : Vec F S1x64x1 .f32) (y : S1x64x1.Idx) :
    ∃ pc ∈ (laterTileRun (F := F) c i arg2 harg2 arg3 harg3 arg4 harg4 hc1 hc2 x0 xo1 xo2).1.1, y ∈ pc.1.set :=
  View.cover_of_tiledL (laterTileRun (F := F) c i arg2 harg2 arg3 harg3 arg4 harg4 hc1 hc2 x0 xo1 xo2).1.1 S1x64x1.size (by sl_kernel_rfl) y
theorem later_cover2 (c : Dev nD) (i : grid0.Coords) (arg2 : Memref sig .tc .vmem S1x64x2048 .f32) (harg2 : arg2.IsWhole)
    (arg3 : Memref sig .tc .vmem S1x64x1 .f32) (harg3 : arg3.IsWhole) (arg4 : Memref sig .tc .vmem S1x64x1 .f32) (harg4 : arg4.IsWhole)
    (hc1 : ¬ k0_cond1 i = 1#1) (hc2 : k0_cond2 i = 1#1) (x0 : Vec F S1x64x2048 .f32) (xo1 xo2 : Vec F S1x64x1 .f32) (y : S1x64x1.Idx) :
    ∃ pc ∈ (laterTileRun (F := F) c i arg2 harg2 arg3 harg3 arg4 harg4 hc1 hc2 x0 xo1 xo2).1.2, y ∈ pc.1.set :=
  View.cover_of_tiledL (laterTileRun (F := F) c i arg2 harg2 arg3 harg3 arg4 harg4 hc1 hc2 x0 xo1 xo2).1.2 S1x64x1.size (by sl_kernel_rfl) y

/-! ## The accumulation over the points -/

/-- What the two accumulator blocks hold after the body at position `n`: the first-tile pair where n ≡ 0 (mod 8), else
    the later-tile pair over what position n − 1 left. -/
def poolAt (c : Dev nD) : (n : ℕ) → n < cfg0.N → Vec F S1x64x1 .f32 × Vec F S1x64x1 .f32
  | 0, hn => firstAt c ⟨0, hn⟩ (Nat.zero_mod _) (iblk0 V c 0 ⟨0, hn⟩)
  | n + 1, hn =>
    if h0 : (n + 1) % 8 = 0 then firstAt c ⟨n + 1, hn⟩ h0 (iblk0 V c 0 ⟨n + 1, hn⟩)
    else laterAt c ⟨n + 1, hn⟩ h0 (iblk0 V c 0 ⟨n + 1, hn⟩) (poolAt c n (Nat.lt_of_succ_lt hn))

theorem poolAt_first (c : Dev nD) (t : Fin cfg0.N) (h0 : t.val % 8 = 0) :
    poolAt V c t.val t.isLt = firstAt c t h0 (iblk0 V c 0 t) := by
  obtain ⟨n, hn⟩ := t
  cases n with
  | zero => exact rfl
  | succ n => exact (dif_pos h0).trans rfl

theorem poolAt_later (c : Dev nD) (t : Fin cfg0.N) (h0 : ¬ t.val % 8 = 0) :
    poolAt V c t.val t.isLt = laterAt c t h0 (iblk0 V c 0 t) (poolAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The region's proof data -/

/-- The proof data of the pooling region on core `c`: the arrays as the region finds them; after the body at point `t`
    the input's buffer at its block and the two accumulators' at `poolAt`; the invariant is the scoped rest and the
    generator register; nothing owed; full shares. -/
def poolDat (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => (poolAt V c t.val t.isLt).1
    | ⟨2, _⟩ => (poolAt V c t.val t.isLt).2
  Φ _ := Pipeline.ΦA spec0 c
  q _ := fullShare
  owed _ := 0

theorem poolDat_A (c : Dev nD) (w : Fin cfg0.W) : (poolDat V c).A w = V c (Pipeline.arrRef spec0 w) := by
  dsimp only [poolDat]
theorem poolDat_after0 (c : Dev nD) (t : Fin cfg0.N) : (poolDat V c).after 0 t = iblk0 V c 0 t := by dsimp only [poolDat]
theorem poolDat_after1 (c : Dev nD) (t : Fin cfg0.N) : (poolDat V c).after 1 t = (poolAt V c t.val t.isLt).1 := by dsimp only [poolDat]
theorem poolDat_after2 (c : Dev nD) (t : Fin cfg0.N) : (poolDat V c).after 2 t = (poolAt V c t.val t.isLt).2 := by dsimp only [poolDat]

theorem poolDat_before0 (c : Dev nD) (t : Fin cfg0.N) (d) : (poolDat V c).before 0 t d = iblk0 V c 0 t :=
  before0_0_of V (poolDat V c) (poolDat_A V c 0) (poolDat_after0 V c) t d

/-- At a point of a later tile each accumulator's staging buffer holds what the body left at the point before: the
    point is not the first, the block was not written back in between (that happens after the eighth tile only), the
    window is live and uncut. -/
theorem poolDat_before1 (c : Dev nD) (t : Fin cfg0.N) (h0 : ¬ t.val % 8 = 0) (d) :
    (poolDat V c).before 1 t d = (poolAt V c (t.val - 1) (Nat.lt_of_le_of_lt (Nat.sub_le _ _) t.isLt)).1 := by
  have hN : t.val < 64 := lt_of_lt_of_eq t.isLt (show cfg0.N = 64 from N_0)
  rw [Dat.before_out_kept _ 1 rfl t (by omega) (Bool.eq_false_iff.mpr fun h => by have := (flush0_1 _).mp h; dsimp only at this; omega)
    sum_live (fun _ _ => rfl)]
  dsimp only [poolDat]
theorem poolDat_before2 (c : Dev nD) (t : Fin cfg0.N) (h0 : ¬ t.val % 8 = 0) (d) :
    (poolDat V c).before 2 t d = (poolAt V c (t.val - 1) (Nat.lt_of_le_of_lt (Nat.sub_le _ _) t.isLt)).2 := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    max_live (fun _ _ => rfl)]
  dsimp only [poolDat]

/-! ## The body obligation, at a generic point -/

def poolPre (c : Dev nD) (t : Fin cfg0.N) : sProp 𝕄 :=
  iprop((poolDat V c).Φ t.castSucc ∗ (poolDat V c).owesAt () t.castSucc
    ∗ (∃ d, owns (c : Thread nD τ) (ms0_0 t) fullShare ((poolDat V c).before 0 t d))
    ∗ (∃ d, owns (c : Thread nD τ) (ms0_1 t) fullShare ((poolDat V c).before 1 t d))
    ∗ (∃ d, owns (c : Thread nD τ) (ms0_2 t) fullShare ((poolDat V c).before 2 t d)))

def poolPost (c : Dev nD) (t : Fin cfg0.N) : sProp 𝕄 :=
  iprop((poolDat V c).Φ t.succ ∗ (poolDat V c).owesAt () t.succ
    ∗ owns (c : Thread nD τ) (ms0_0 t) fullShare ((poolDat V c).after 0 t)
    ∗ owns (c : Thread nD τ) (ms0_1 t) fullShare ((poolDat V c).after 1 t)
    ∗ owns (c : Thread nD τ) (ms0_2 t) fullShare ((poolDat V c).after 2 t))

set_option maxHeartbeats 800000 in
/-- The body at any point: the input's memref holds its block; the closed forms say which case the point is in; at a
    later tile the accumulators hold what the point before left; so that case's run applies. The invariant passes
    through unread; the core owes nothing throughout. -/
theorem pool_at (c : Dev nD) (t : Fin cfg0.N) :
    poolPre V c t ⊢ wp frame (wpE (defs₀ (F := F)) Variants.none c none) Set.univ (bodyAt0 t) (fun _ => poolPost V c t) := by
  unfold poolPre poolPost bodyAt0
  simp only [poolDat_before0]
  rw [show (poolDat V c).Φ t.succ = (poolDat V c).Φ t.castSucc from rfl,
    show (poolDat V c).owesAt () t.succ = (poolDat V c).owesAt () t.castSucc from rfl,
    poolDat_after0, poolDat_after1, poolDat_after2]
  by_cases h0 : t.val % 8 = 0
  · rw [poolAt_first V c t h0]
    unfold firstAt
    dsimp only
    iintro ⟨HΦ, Ho, ⟨%d0, H0⟩, ⟨%d1, H1⟩, ⟨%d2, H2⟩⟩
    iapply ((firstTileRun c (grid0.coords t) _ _ _ _ _ _ ((first_tile_iff t).mpr h0) (fun h => (later_tile_iff t).mp h h0) (iblk0 V c 0 t)).2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (first_cover1 c _ _ _ _ _ _ _ _ _ _)
    · unfold owns; iexists _; isplitr
      swap; · iexact H2
      ipureintro; exact View.read_writes_of_cover _ _ _ _ _ (first_cover2 c _ _ _ _ _ _ _ _ _ _)
  · rw [poolAt_later V c t h0]
    simp only [poolDat_before1 V c t h0, poolDat_before2 V c t h0]
    unfold laterAt
    dsimp only
    iintro ⟨HΦ, Ho, ⟨%d0, H0⟩, ⟨%d1, H1⟩, ⟨%d2, H2⟩⟩
    iapply ((laterTileRun c (grid0.coords t) _ _ _ _ _ _ (fun h => h0 ((first_tile_iff t).mp h)) ((later_tile_iff t).mpr h0) (iblk0 V c 0 t) _ _).2 Set.univ _)
    isplitl [H0]; · iexact H0
    isplitl [H1]; · iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (later_cover1 c _ _ _ _ _ _ _ _ _ _ _ _)
    · unfold owns; iexists _; isplitr
      swap; · iexact H2
      ipureintro; exact View.read_writes_of_cover _ _ _ _ _ (later_cover2 c _ _ _ _ _ _ _ _ _ _ _ _)

/-- The library's body obligation, at every point (neither accumulator block is idle anywhere). -/
theorem pool_obligation (c : Dev nD) : BodyObligation (poolDat (F := F) V c) (defs₀ (F := F)) Variants.none () Set.univ := fun t => by
  rw [bigSep_W0, bigSep_W0]
  rw [sum_live (cfg0.grid.coords t)]
  exact pool_at V c t

end Pool

end Cert.ReferenceIdeal.Run

end
-- ==== Proof.RefScale.lean ====
/-
  The scaling region of the reference (its second pallas region), at any contents `V` of the core's buffers when the
  region is entered.

  The grid is 8 × 8: point t = 8·b + s handles batch b and the s-th tile of 2048 spatial positions. Its body loads the
  tile x[b, ·, tile s] (64 × 2048) and the 64 scale factors of batch b (a [1, 64, 1] block, the same for all eight
  tiles of a batch), multiplies each row of the tile by its channel's factor, and stores the product tile: one store
  through the whole block. So what the output block holds after a point is one pure function of the two input blocks.
-/
import proofs.«161511_g2000005911454314_pallasbulk_286_16_alg».proof.Proof.Gen.ReferenceIdeal.Launch
import proofs.«161511_g2000005911454314_pallasbulk_286_16_alg».proof.Proof.Gen.ReferenceIdeal.Skeleton
import proofs.«161511_g2000005911454314_pallasbulk_286_16_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (Pipeline.UD sig nD τ) ℕ

section Scale

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The tile window's staging buffer holds its block at every point, for any proof data whose array is `V`'s and
    whose body leaves the block in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The scale window's staging buffer holds its block at every point, fetched there (the first tile of a batch) or
    not (the later tiles: the block index has not moved). -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses, and what it leaves in the output block -/

abbrev tileRect : Rect S1x64x2048 := Rect.unit (s := S1x64x2048) ![0, 0, 0] S1x64x2048.size inb_S1x64x2048_S1x64x2048_0_0_0
abbrev scaleRect : Rect S1x64x1 := Rect.unit (s := S1x64x1) ![0, 0, 0] S1x64x1.size inb_S1x64x1_S1x64x1_0_0_0

/-- The output block after the body, from the two input blocks: its one store, through the whole block. -/
def scaledTile (x0 : Vec F S1x64x2048 .f32) (x1 : Vec F S1x64x1 .f32) : Vec F S1x64x2048 .f32 :=
  View.canon [⟨tileRect, k1_pay1 (View.ld x0 tileRect) (View.ld x1 scaleRect)⟩]

/-- That store covers the block. -/
theorem scaledTile_cover (p0 : Vec F S1x64x2048 .f32) (y : S1x64x2048.Idx) :
    ∃ pc ∈ ([⟨tileRect, p0⟩] : List (View.Piece (Elt F) S1x64x2048 .f32)), y ∈ pc.1.set :=
  View.cover_of_tiled [⟨tileRect, p0⟩] S1x64x2048.size (by rfl) y

/-! ## The body's triple -/

set_option maxHeartbeats 1000000 in
/-- The body on whole staging memrefs, the inputs' at read contents and the output's at anything, runs to the
    continuation holding the inputs' as they were and the output's at `scaledTile` of the inputs'. -/
theorem scale_body (c : Dev nD) (E : Set ℕ) (i : grid1.Coords) (arg2 : Memref sig .tc .vmem S1x64x2048 .f32) (harg2 : arg2.IsWhole)
    (arg3 : Memref sig .tc .vmem S1x64x1 .f32) (harg3 : arg3.IsWhole) (arg4 : Memref sig .tc .vmem S1x64x2048 .f32) (harg4 : arg4.IsWhole)
    (x0 : Vec F S1x64x2048 .f32) (x1 : Vec F S1x64x1 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (scaledTile x0 x1)) -∗ K ⟨⟩))
      ⊢ wp frame (wpE (defs₀ (F := F)) Variants.none c none) E (cc1_apply_kernel i arg2 harg2 arg3 harg3 arg4 harg4) K := by
  simp only [cc1_apply_kernel_eq_skeleton]; unfold cc1_apply_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (scaledTile_cover _)

/-! ## The region's proof data -/

/-- The proof data of the scaling region on core `c`: the arrays as the region finds them; after the body at point `t`
    each input's buffer at its block and the output's at `scaledTile` of the input blocks; the invariant is the scoped
    rest and the generator register, untouched; nothing owed; full shares. -/
def scaleDat (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => scaledTile (iblk1 V c 0 t) (iblk1 V c 1 t)
  Φ _ := Pipeline.ΦA spec1 c
  q _ := fullShare
  owed _ := 0

theorem scaleDat_A (c : Dev nD) (w : Fin cfg1.W) : (scaleDat V c).A w = V c (Pipeline.arrRef spec1 w) := by
  dsimp only [scaleDat]

theorem scaleDat_after0 (c : Dev nD) (t : Fin cfg1.N) : (scaleDat V c).after 0 t = iblk1 V c 0 t := by dsimp only [scaleDat]
theorem scaleDat_after1 (c : Dev nD) (t : Fin cfg1.N) : (scaleDat V c).after 1 t = iblk1 V c 1 t := by dsimp only [scaleDat]
theorem scaleDat_after2 (c : Dev nD) (t : Fin cfg1.N) : (scaleDat V c).after 2 t = scaledTile (iblk1 V c 0 t) (iblk1 V c 1 t) := by
  dsimp only [scaleDat]

theorem scaleDat_before0 (c : Dev nD) (t : Fin cfg1.N) (d) : (scaleDat V c).before 0 t d = iblk1 V c 0 t :=
  before1_0_of V (scaleDat V c) (scaleDat_A V c 0) (scaleDat_after0 V c) t d
theorem scaleDat_before1 (c : Dev nD) (t : Fin cfg1.N) (d) : (scaleDat V c).before 1 t d = iblk1 V c 1 t :=
  before1_1_of V (scaleDat V c) (scaleDat_A V c 1) (scaleDat_after1 V c) t d

/-! ## The body obligation, at a generic point -/

def scalePre (c : Dev nD) (t : Fin cfg1.N) : sProp 𝕄 :=
  iprop((scaleDat V c).Φ t.castSucc ∗ (scaleDat V c).owesAt () t.castSucc
    ∗ (∃ d, owns (c : Thread nD τ) (st1_0 t) fullShare ((scaleDat V c).before 0 t d))
    ∗ (∃ d, owns (c : Thread nD τ) (st1_1 t) fullShare ((scaleDat V c).before 1 t d))
    ∗ (∃ d, owns (c : Thread nD τ) (st1_2 t) fullShare ((scaleDat V c).before 2 t d)))

def scalePost (c : Dev nD) (t : Fin cfg1.N) : sProp 𝕄 :=
  iprop((scaleDat V c).Φ t.succ ∗ (scaleDat V c).owesAt () t.succ
    ∗ owns (c : Thread nD τ) (st1_0 t) fullShare ((scaleDat V c).after 0 t)
    ∗ owns (c : Thread nD τ) (st1_1 t) fullShare ((scaleDat V c).after 1 t)
    ∗ owns (c : Thread nD τ) (st1_2 t) fullShare ((scaleDat V c).after 2 t))

/-- The body at any point: the inputs' memrefs hold their blocks, so `scale_body` applies; the invariant and the core's
    dues pass through unread. -/
theorem scale_at (c : Dev nD) (t : Fin cfg1.N) :
    scalePre V c t ⊢ wp frame (wpE (defs₀ (F := F)) Variants.none c none) Set.univ (bodyAt1 t) (fun _ => scalePost V c t) := by
  unfold scalePre scalePost bodyAt1
  simp only [scaleDat_before0, scaleDat_before1]
  rw [show (scaleDat V c).Φ t.succ = (scaleDat V c).Φ t.castSucc from rfl,
    show (scaleDat V c).owesAt () t.succ = (scaleDat V c).owesAt () t.castSucc from rfl,
    scaleDat_after0, scaleDat_after1, scaleDat_after2]
  iintro ⟨HΦ, Ho, ⟨%d0, H0⟩, ⟨%d1, H1⟩, ⟨%d2, H2⟩⟩
  iapply (scale_body c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem scale_obligation (c : Dev nD) : BodyObligation (scaleDat (F := F) V c) (defs₀ (F := F)) Variants.none () Set.univ := fun t => by
  rw [bigSep_W1, bigSep_W1]
  exact scale_at V c t

end Scale

end Cert.ReferenceIdeal.Run

end
-- ==== Proof.RefRun.lean ====
/-
  The reference's whole run: @main is a reshape, the pooling region, the host stretch that turns the pooled sums
  and maxima into the 512 scale factors, the scaling region, and a reshape. The buffers' contents are followed from
  the launch memory through these five segments: a host stretch replaces them by the operations' results; a region
  replaces its windows' arrays by what its write-backs leave (every other buffer stays). The run terminates with every
  unscoped buffer at the last of these contents.
-/
import proofs.«161511_g2000005911454314_pallasbulk_286_16_alg».proof.Proof.RefPoolData
import proofs.«161511_g2000005911454314_pallasbulk_286_16_alg».proof.Proof.RefScale
import proofs.«161511_g2000005911454314_pallasbulk_286_16_alg».proof.Proof.Gen.ReferenceIdeal.Regions

set_option maxRecDepth 16384

noncomputable section

namespace Cert.ReferenceIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each segment boundary -/

/-- At launch. -/
abbrev Mem0 : Dev nD → Valuation τ sig (Elt F) := fun c b => (s₀ m ρ).mem ((c : Dev nD), b)
/-- After the first reshape (the pooling region's entry). -/
abbrev Mem1 (c : Dev nD) : Valuation τ sig (Elt F) := StableHlo.after hostOps0 (Mem0 m ρ c)
abbrev At1 : (c : Dev nD) → (b : Ref sig .tc) → Buf (Elt F) ((c : Thread nD τ).loc b) := fun c b => Mem1 m ρ c b
/-- After the pooling region: its arrays at what its write-backs leave, every other buffer as entered. -/
def Mem2 (c : Dev nD) : Valuation τ sig (Elt F) :=
  Pipeline.withArrays spec0 c (Mem1 m ρ c) fun w => (poolDat (At1 m ρ) c).arrAt w cfg0.N
theorem Mem2_arr (c : Dev nD) (w : Fin cfg0.W) :
    Mem2 m ρ c (Proc.devRef .tc (Pipeline.arrRef spec0 w)) = (poolDat (At1 m ρ) c).arrAt w cfg0.N := by
  unfold Mem2; exact Pipeline.withArrays_arr spec0 launch0.win.arr_inj c _ _ w
theorem Mem2_of_ne (c : Dev nD) (b : Ref sig .tc) (hb : ∀ w, Pipeline.arrRef spec0 w ≠ b) :
    Mem2 m ρ c (Proc.devRef .tc b) = Mem1 m ρ c (Proc.devRef .tc b) := by
  unfold Mem2; exact Pipeline.withArrays_of_ne spec0 c _ _ b hb
abbrev At2 : (c : Dev nD) → (b : Ref sig .tc) → Buf (Elt F) ((c : Thread nD τ).loc b) := fun c b => Mem2 m ρ c b
theorem pool_exit (c : Dev nD) (w : Fin cfg0.W) : (poolDat (At1 m ρ) c).arrAt w cfg0.N = At2 m ρ c (Pipeline.arrRef spec0 w) :=
  (Mem2_arr m ρ c w).symm
theorem pool_rest (c : Dev nD) : ∀ b, b ∉ Finset.univ.image (Pipeline.arrRef spec0) → At2 m ρ c b = At1 m ρ c b :=
  fun b hb => Mem2_of_ne m ρ c b fun w e => hb (Finset.mem_image.mpr ⟨w, Finset.mem_univ _, e⟩)
/-- After the middle host stretch (the scaling region's entry). -/
abbrev Mem3 (c : Dev nD) : Valuation τ sig (Elt F) := StableHlo.after hostOps1 (Mem2 m ρ c)
abbrev At3 : (c : Dev nD) → (b : Ref sig .tc) → Buf (Elt F) ((c : Thread nD τ).loc b) := fun c b => Mem3 m ρ c b
/-- After the scaling region. -/
def Mem4 (c : Dev nD) : Valuation τ sig (Elt F) :=
  Pipeline.withArrays spec1 c (Mem3 m ρ c) fun w => (scaleDat (At3 m ρ) c).arrAt w cfg1.N
theorem Mem4_arr (c : Dev nD) (w : Fin cfg1.W) :
    Mem4 m ρ c (Proc.devRef .tc (Pipeline.arrRef spec1 w)) = (scaleDat (At3 m ρ) c).arrAt w cfg1.N := by
  unfold Mem4; exact Pipeline.withArrays_arr spec1 launch1.win.arr_inj c _ _ w
theorem Mem4_of_ne (c : Dev nD) (b : Ref sig .tc) (hb : ∀ w, Pipeline.arrRef spec1 w ≠ b) :
    Mem4 m ρ c (Proc.devRef .tc b) = Mem3 m ρ c (Proc.devRef .tc b) := by
  unfold Mem4; exact Pipeline.withArrays_of_ne spec1 c _ _ b hb
abbrev At4 : (c : Dev nD) → (b : Ref sig .tc) → Buf (Elt F) ((c : Thread nD τ).loc b) := fun c b => Mem4 m ρ c b
theorem scale_exit (c : Dev nD) (w : Fin cfg1.W) : (scaleDat (At3 m ρ) c).arrAt w cfg1.N = At4 m ρ c (Pipeline.arrRef spec1 w) :=
  (Mem4_arr m ρ c w).symm
theorem scale_rest (c : Dev nD) : ∀ b, b ∉ Finset.univ.image (Pipeline.arrRef spec1) → At4 m ρ c b = At3 m ρ c b :=
  fun b hb => Mem4_of_ne m ρ c b fun w e => hb (Finset.mem_image.mpr ⟨w, Finset.mem_univ _, e⟩)
/-- After the last reshape: the end. -/
abbrev Mem5 (c : Dev nD) : Valuation τ sig (Elt F) := StableHlo.after hostOps2 (Mem4 m ρ c)

/-! ## The proof data family and the thread state -/

/-- Both regions' proof data, each at its region's entry contents. -/
def pdats : (p : Fin 2) → (c : Dev nD) → Dat τ (Elt F) Unit ℕ (Pipeline.UD sig nD τ) ℕ (Pipeline.pin (pcfgs (F := F)) adm p) c
  | ⟨0, _⟩ => fun c => poolDat (At1 m ρ) c
  | ⟨1, _⟩ => fun c => scaleDat (At3 m ρ) c
abbrev 𝒱n : Variants := Variants.none
/-- No core owes another anything: no level is assigned. -/
abbrev Ln : GSem nD τ sig → Finset Unit := fun _ => ∅
abbrev lvn : GSem nD τ sig → Unit → ℕ := fun _ _ => 0
/-- What rides beside the buffers through every segment: the generator register at some state and the core's dues, none. -/
abbrev Rest (c : Dev nD) : sProp 𝕄 := iprop((∃ r, prngReg c r) ∗ ∃ W, owes (c : Thread nD τ) (0 : CellTallies nD τ sig Unit) W)
/-- A host stretch as a segment over the unscoped buffers from the contents `W`, `Rest` riding along. -/
abbrev hostStretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

/-- The last thread state without the dues: every unscoped buffer at the final contents, the register at some state. -/
abbrev Final (c : Dev nD) : sProp 𝕄 := iprop(StableHlo.held (c : Thread nD τ) (Pipeline.ucRefs τ sig) (Mem5 m ρ c) ∗ ∃ r, prngReg c r)

/-! ## The two regions as segments: each region's arrays are split out of the unscoped buffers at its entry and put
    back, at what its write-backs leave, at its exit; the generator register goes into the region's invariant and
    comes back; nothing is owed; neither kernel has a semaphore of its own. -/

set_option backward.isDefEq.respectTransparency.types false in
def region0 : Pipeline.RegionSeg (pcfgs (F := F)) adm (pdats m ρ) () defs₀ 𝒱n Ln lvn 0 where
  win := launch0.win.to₀
  block_pos := launch0.block_pos
  stage_whole := launch0.stage_whole
  K := PEmpty
  osem k := k.elim
  ho := Pipeline.OwnSemFacts.none _
  hbody c := (pool_obligation (At1 m ρ) c).loose
  hwaits := Pipeline.hwaits_of_owed_zero _ _ _ _ Ln lvn 0 fun _ _ => rfl
  pre c := iprop(StableHlo.held (c : Thread nD τ) (Pipeline.ucRefs τ sig) (Mem1 m ρ c) ∗ Rest c)
  post c := iprop(StableHlo.held (c : Thread nD τ) (Pipeline.ucRefs τ sig) (Mem2 m ρ c) ∗ Rest c)
  X c := iprop(∃ r, prngReg c r)
  Y c := iprop(∃ r, prngReg c r)
  Z c := Pipeline.unscopedRest (Ix := Unit) (Name := ℕ) (U := Pipeline.UD sig nD τ) (Lvl := ℕ) spec0 c (At1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (At1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (At1 m ρ c) (At2 m ρ c) ((pdats m ρ 0 c).arrAt · cfg0.N) (pool_exit m ρ c) (pool_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def region1 : Pipeline.RegionSeg (pcfgs (F := F)) adm (pdats m ρ) () defs₀ 𝒱n Ln lvn 1 where
  win := launch1.win.to₀
  block_pos := launch1.block_pos
  stage_whole := launch1.stage_whole
  K := PEmpty
  osem k := k.elim
  ho := Pipeline.OwnSemFacts.none _
  hbody c := (scale_obligation (At3 m ρ) c).loose
  hwaits := Pipeline.hwaits_of_owed_zero _ _ _ _ Ln lvn 1 fun _ _ => rfl
  pre c := iprop(StableHlo.held (c : Thread nD τ) (Pipeline.ucRefs τ sig) (Mem3 m ρ c) ∗ Rest c)
  post c := iprop(StableHlo.held (c : Thread nD τ) (Pipeline.ucRefs τ sig) (Mem4 m ρ c) ∗ Rest c)
  X c := iprop(∃ r, prngReg c r)
  Y c := iprop(∃ r, prngReg c r)
  Z c := Pipeline.unscopedRest (Ix := Unit) (Name := ℕ) (U := Pipeline.UD sig nD τ) (Lvl := ℕ) spec1 c (At3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (At3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (At3 m ρ c) (At4 m ρ c) ((pdats m ρ 1 c).arrAt · cfg1.N) (scale_exit m ρ c) (scale_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev stretch0 := hostStretch (F := F) hostOps0 hostOps0_sub hostOps0_fresh (Mem0 m ρ)
abbrev stretch1 := hostStretch (F := F) hostOps1 hostOps1_sub hostOps1_fresh (Mem2 m ρ)
abbrev stretch2 := hostStretch (F := F) hostOps2 hostOps2_sub hostOps2_fresh (Mem4 m ρ)

abbrev segments : List (Pipeline.Seg (pcfgs (F := F)) adm (pdats m ρ) () defs₀ 𝒱n Ln lvn) :=
  [ .host (stretch0 m ρ), .region (region0 m ρ), .host (stretch1 m ρ), .region (region1 m ρ), .host (stretch2 m ρ) ]

theorem main_is_segments (c : Dev nD) : main (F := F) c = Pipeline.Seg.run (segments m ρ) :=
  main_segs adm (pdats m ρ) () 𝒱n Ln lvn (stretch0 m ρ) (stretch1 m ρ) (stretch2 m ρ) (region0 m ρ) (region1 m ρ) rfl rfl rfl c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of the reference's @main terminates,
    nothing faulting, and in the final memory every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Mem5 m ρ c b) :=
  Pipeline.θ_run_regions_kit (pcfgs (F := F)) adm (pdats m ρ) () cellOf_inj embL defs₀ 𝒱n Ln lvn m ρ main (segments m ρ)
    (fun c Q => by rw [main_is_segments m ρ c])
    (by simp only [segments, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Mem0 m ρ c) ∗ Rest c)) (Tₙ := Final m ρ)
    (hch := ⟨fun _ => .rfl, fun _ => .rfl, fun _ => .rfl, fun _ => .rfl, fun _ => .rfl, fun c => by
      show iprop(StableHlo.held (c : Thread nD τ) (Pipeline.ucRefs τ sig) (Mem5 m ρ c) ∗ Rest c) ⊢ _
      iintro ⟨Hh, Hp, HO⟩
      isplitl [Hh Hp]
      · isplitl [Hh]; · iexact Hh
        iexact Hp
      iexact HO⟩)
    (hinit := by
      refine Pipeline.initEach Ln lvn fun c => ?_
      rw [show unscopedBufs c (fun b => m ((c : Thread nD τ).loc b)) = StableHlo.held (c : Thread nD τ) (Pipeline.ucRefs τ sig) (Mem0 m ρ c)
        from Pipeline.unscopedBufs_held c (Mem0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Mem5 m ρ c b)
    (hfin := fun c s' => by
      iintro ⟨⟨Hh, -⟩, HSI⟩
      unfold StableHlo.held
      imodintro
      iapply (pointsTo_read_all (Pipeline.ucRefs τ sig) (fun b => (((c : Thread nD τ)).1, b)) (Mem5 m ρ c) s')
      isplitl [Hh] <;> iassumption)
    (hQ := fun s h => h)

end Cert.ReferenceIdeal.Run

end
-- ==== Proof.RefPoolPayload.lean ====
/-
  The pooling region's value, part 1: what a batch's eight points leave in the two accumulator blocks.

  At the first tile of batch b the sum block holds, per channel, the sum of the tile's 2048 entries and the maximum
  block their maximum. At each later tile the tile's sum is added to the sum block and the tile's maximum joined into
  the maximum block. So after the tile s the sum block holds the sum over the tiles 0..s of the tile sums and the
  maximum block the supremum over those tiles of the tile maxima; after the eighth tile, over all eight.
-/
import proofs.«161511_g2000005911454314_pallasbulk_286_16_alg».proof.Proof.RefPoolData
import proofs.«161511_g2000005911454314_pallasbulk_286_16_alg».proof.Proof.LibRowReduceProducts
import proofs.«161511_g2000005911454314_pallasbulk_286_16_alg».proof.Proof.LibTilePool
import Idealize.ShloMosaic.Lib.ValueLayout
import Idealize.ShloMosaic.Lib.Pipeline.Value

set_option maxRecDepth 16384

noncomputable section

namespace Cert.ReferenceIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (Pipeline.UD sig nD τ) ℕ

open Idealize.ShloMosaic.ValueIdx
open scoped BigOperators

theorem zeroOffsets3 : (![0, 0, 0] : Fin 3 → Nat) = fun _ => 0 := funext fun a => by fin_cases a <;> rfl

/-! ## What each case's stores leave, as the body's payloads (any float instance) -/

/-- At a first tile: the two blocks are the tile-sum and tile-maximum payloads of the input tile. -/
theorem firstAt_eq (c : Dev nD) (t : Fin cfg0.N) (h0 : t.val % 8 = 0) (x0 : Vec F S1x64x2048 .f32) :
    firstAt (F := F) c t h0 x0 = (k0_pay4 x0, k0_pay5 x0) := by
  unfold firstAt
  refine Prod.ext ?_ ?_
  · dsimp only
    rw [View.read_writes_eq_canon _ _ _ (first_cover1 c _ _ _ _ _ _ _ _ _ _)]
    unfold firstTileRun
    dsimp only
    try sl_unfold_words
    rw [View.canon_unit_zero zeroOffsets3]
    simp only [View.readAt_eq_ld, (hs0_0 t).read_unread, View.ld_unit_zero (S := S1x64x2048) zeroOffsets3]
  · dsimp only
    rw [View.read_writes_eq_canon _ _ _ (first_cover2 c _ _ _ _ _ _ _ _ _ _)]
    unfold firstTileRun
    dsimp only
    try sl_unfold_words
    rw [View.canon_unit_zero zeroOffsets3]
    simp only [View.readAt_eq_ld, (hs0_0 t).read_unread, View.ld_unit_zero (S := S1x64x2048) zeroOffsets3]

/-- At a later tile: the two blocks are the add and the join payloads of the input tile and of what the blocks held. -/
theorem laterAt_eq (c : Dev nD) (t : Fin cfg0.N) (h0 : ¬ t.val % 8 = 0) (x0 : Vec F S1x64x2048 .f32)
    (xo : Vec F S1x64x1 .f32 × Vec F S1x64x1 .f32) :
    laterAt (F := F) c t h0 x0 xo = (k0_pay6 x0 xo.1, k0_pay7 x0 xo.2) := by
  unfold laterAt
  refine Prod.ext ?_ ?_
  · dsimp only
    rw [View.read_writes_eq_canon _ _ _ (later_cover1 c _ _ _ _ _ _ _ _ _ _ _ _)]
    unfold laterTileRun
    dsimp only
    try sl_unfold_words
    rw [View.canon_unit_zero zeroOffsets3]
    simp only [View.readAt_eq_ld, (hs0_0 t).read_unread, (hs0_1 t).read_unread, View.ld_unit_zero (S := S1x64x2048) zeroOffsets3, View.ld_unit_zero (S := S1x64x1) zeroOffsets3]
  · dsimp only
    rw [View.read_writes_eq_canon _ _ _ (later_cover2 c _ _ _ _ _ _ _ _ _ _ _ _)]
    unfold laterTileRun
    dsimp only
    try sl_unfold_words
    rw [View.canon_unit_zero zeroOffsets3]
    simp only [View.readAt_eq_ld, (hs0_0 t).read_unread, (hs0_2 t).read_unread, View.ld_unit_zero (S := S1x64x2048) zeroOffsets3, View.ld_unit_zero (S := S1x64x1) zeroOffsets3]

/-! ## The payloads at an index, on the extended reals -/

/-- A vector of length a laid as an [a, 1] column reads, at (i, u), its entry i. -/
theorem asColumn_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The tile's sum for channel ch: the sum of the tile's 2048 entries of that channel. -/
def tileSum (x0 : Vec Ideal S1x64x2048 .f32) (ch : Fin 64) : EReal := ∑ l : Fin 2048, x0 (ix3 (0 : Fin 1) ch l)
/-- The tile's maximum for channel ch. -/
def tileMax (x0 : Vec Ideal S1x64x2048 .f32) (ch : Fin 64) : EReal := Finset.univ.sup fun l : Fin 2048 => x0 (ix3 (0 : Fin 1) ch l)

theorem rowSums_apply (x0 : Vec Ideal S1x64x2048 .f32) (ch : Fin 64) (v : Fin 1) :
    k0_pay2 (F := Ideal) x0 (ix2 ch v) = tileSum x0 ch := by
  unfold k0_pay2
  refine (asColumn_apply _ _ ch v).trans ?_
  refine (Cert.LibRowReduceProducts.rowSum_apply _ _ _ _ ch).trans ?_
  unfold tileSum
  refine Finset.sum_congr rfl fun l _ => ?_
  unfold k0_pay1
  exact shapeCast_1ab_ab_apply _ _ ch l

theorem rowMaxes_apply (x0 : Vec Ideal S1x64x2048 .f32) (ch : Fin 64) (v : Fin 1) :
    k0_pay3 (F := Ideal) x0 (ix2 ch v) = tileMax x0 ch := by
  unfold k0_pay3
  refine (asColumn_apply _ _ ch v).trans ?_
  refine (Cert.LibRowReduceProducts.rowMax_apply _ _ _ _ ch).trans ?_
  unfold tileMax
  refine congrArg (Finset.univ.sup) (funext fun l => ?_)
  unfold k0_pay1
  exact shapeCast_1ab_ab_apply _ _ ch l

theorem storeSum_apply (x0 : Vec Ideal S1x64x2048 .f32) (u v : Fin 1) (ch : Fin 64) :
    k0_pay4 (F := Ideal) x0 (ix3 u ch v) = tileSum x0 ch := by
  unfold k0_pay4
  exact (shapeCast_ab_1ab_apply _ _ u ch v).trans (rowSums_apply x0 ch v)

theorem storeMax_apply (x0 : Vec Ideal S1x64x2048 .f32) (u v : Fin 1) (ch : Fin 64) :
    k0_pay5 (F := Ideal) x0 (ix3 u ch v) = tileMax x0 ch := by
  unfold k0_pay5
  exact (shapeCast_ab_1ab_apply _ _ u ch v).trans (rowMaxes_apply x0 ch v)

theorem addSum_apply (x0 : Vec Ideal S1x64x2048 .f32) (acc : Vec Ideal S1x64x1 .f32) (u v : Fin 1) (ch : Fin 64) :
    k0_pay6 (F := Ideal) x0 acc (ix3 u ch v) = acc (ix3 (0 : Fin 1) ch v) + tileSum x0 ch := by
  unfold k0_pay6
  refine (shapeCast_ab_1ab_apply _ _ u ch v).trans ?_
  show (shapeCast S64x1 acc _ (ix2 ch v) : EReal) + k0_pay2 (F := Ideal) x0 (ix2 ch v) = _
  rw [rowSums_apply x0 ch v]
  exact congrArg (· + tileSum x0 ch) (shapeCast_1ab_ab_apply _ _ ch v)

theorem joinMax_apply (x0 : Vec Ideal S1x64x2048 .f32) (acc : Vec Ideal S1x64x1 .f32) (u v : Fin 1) (ch : Fin 64) :
    k0_pay7 (F := Ideal) x0 acc (ix3 u ch v) = max (acc (ix3 (0 : Fin 1) ch v)) (tileMax x0 ch) := by
  unfold k0_pay7
  refine (shapeCast_ab_1ab_apply _ _ u ch v).trans ?_
  show max (shapeCast S64x1 acc _ (ix2 ch v) : EReal) (k0_pay3 (F := Ideal) x0 (ix2 ch v)) = _
  rw [rowMaxes_apply x0 ch v]
  exact congrArg (fun z => max z (tileMax x0 ch)) (shapeCast_1ab_ab_apply _ _ ch v)

/-! ## The accumulation over a batch's eight tiles -/

section Acc

variable (V : (c : Dev nD) → (b : Ref sig .tc) → Buf (Elt Ideal) ((c : Thread nD τ).loc b))

theorem lt_N {n : ℕ} (h : n < 64) : n < cfg0.N := lt_of_lt_of_eq h N_0.symm

/-- The point of batch b, tile k. -/
def pointOf (b k : Fin 8) : Fin cfg0.N := ⟨8 * b.val + k.val, lt_N (by omega)⟩

theorem poolAt_congr (c : Dev nD) {n n' : ℕ} (e : n = n') (h : n < cfg0.N) (h' : n' < cfg0.N) :
    poolAt V c n h = poolAt V c n' h' := by subst e; rfl

/-- The sum block after tile k of batch b, at channel ch: the first k + 1 tile sums added in the grid's order;
    after the eighth tile, all eight. -/
theorem sumBlock_last (c : Dev nD) (b : Fin 8) (ch : Fin 64) (u v : Fin 1) :
    (poolAt V c (pointOf b 7).val (pointOf b 7).isLt).1 (ix3 u ch v)
      = ∑ k : Fin 8, tileSum (iblk0 V c 0 (pointOf b k)) ch := by
  have hu : u = 0 := Subsingleton.elim _ _
  subst hu
  refine Cert.TilePool.acc_add_last 7 (fun k => tileSum (iblk0 V c 0 (pointOf b k)) ch)
    (fun k => (poolAt V c (pointOf b k).val (pointOf b k).isLt).1 (ix3 (0 : Fin 1) ch v)) ?_ ?_
  · show (poolAt V c (pointOf b 0).val (pointOf b 0).isLt).1 (ix3 (0 : Fin 1) ch v) = tileSum (iblk0 V c 0 (pointOf b 0)) ch
    rw [poolAt_first V c (pointOf b 0) (by show (8 * b.val + (0 : Fin 8).val) % 8 = 0; simp), firstAt_eq]
    dsimp only
    exact storeSum_apply (iblk0 V c 0 (pointOf b 0)) 0 v ch
  · intro k
    have hk : ¬ (pointOf b k.succ).val % 8 = 0 := by
      show ¬ (8 * b.val + k.succ.val) % 8 = 0
      have := k.isLt; simp only [Fin.val_succ]; omega
    show (poolAt V c (pointOf b k.succ).val (pointOf b k.succ).isLt).1 (ix3 (0 : Fin 1) ch v)
      = (poolAt V c (pointOf b k.castSucc).val (pointOf b k.castSucc).isLt).1 (ix3 (0 : Fin 1) ch v) + tileSum (iblk0 V c 0 (pointOf b k.succ)) ch
    rw [poolAt_later V c (pointOf b k.succ) hk, laterAt_eq]
    dsimp only
    refine (addSum_apply (iblk0 V c 0 (pointOf b k.succ)) (poolAt V c ((pointOf b k.succ).val - 1) (Nat.lt_of_le_of_lt (Nat.sub_le _ _) (pointOf b k.succ).isLt)).1 0 v ch).trans ?_
    refine congrArg (· + tileSum (iblk0 V c 0 (pointOf b k.succ)) ch) ?_
    exact congrArg (fun p : Vec Ideal S1x64x1 .f32 × Vec Ideal S1x64x1 .f32 => p.1 (ix3 (0 : Fin 1) ch v))
      (poolAt_congr V c (by show 8 * b.val + k.succ.val - 1 = 8 * b.val + k.castSucc.val; simp only [Fin.val_succ, Fin.coe_castSucc]; omega) _ _)

/-- The maximum block after the eighth tile of batch b, at channel ch: the supremum of the eight tile maxima. -/
theorem maxBlock_last (c : Dev nD) (b : Fin 8) (ch : Fin 64) (u v : Fin 1) :
    (poolAt V c (pointOf b 7).val (pointOf b 7).isLt).2 (ix3 u ch v)
      = Finset.univ.sup fun k : Fin 8 => tileMax (iblk0 V c 0 (pointOf b k)) ch := by
  have hu : u = 0 := Subsingleton.elim _ _
  subst hu
  refine Cert.TilePool.acc_max_last 7 (fun k => tileMax (iblk0 V c 0 (pointOf b k)) ch)
    (fun k => (poolAt V c (pointOf b k).val (pointOf b k).isLt).2 (ix3 (0 : Fin 1) ch v)) ?_ ?_
  · show (poolAt V c (pointOf b 0).val (pointOf b 0).isLt).2 (ix3 (0 : Fin 1) ch v) = tileMax (iblk0 V c 0 (pointOf b 0)) ch
    rw [poolAt_first V c (pointOf b 0) (by show (8 * b.val + (0 : Fin 8).val) % 8 = 0; simp), firstAt_eq]
    dsimp only
    exact storeMax_apply (iblk0 V c 0 (pointOf b 0)) 0 v ch
  · intro k
    have hk : ¬ (pointOf b k.succ).val % 8 = 0 := by
      show ¬ (8 * b.val + k.succ.val) % 8 = 0
      have := k.isLt; simp only [Fin.val_succ]; omega
    show (poolAt V c (pointOf b k.succ).val (pointOf b k.succ).isLt).2 (ix3 (0 : Fin 1) ch v)
      = max ((poolAt V c (pointOf b k.castSucc).val (pointOf b k.castSucc).isLt).2 (ix3 (0 : Fin 1) ch v)) (tileMax (iblk0 V c 0 (pointOf b k.succ)) ch)
    rw [poolAt_later V c (pointOf b k.succ) hk, laterAt_eq]
    dsimp only
    refine (joinMax_apply (iblk0 V c 0 (pointOf b k.succ)) (poolAt V c ((pointOf b k.succ).val - 1) (Nat.lt_of_le_of_lt (Nat.sub_le _ _) (pointOf b k.succ).isLt)).2 0 v ch).trans ?_
    refine congrArg (fun z => max z (tileMax (iblk0 V c 0 (pointOf b k.succ)) ch)) ?_
    exact congrArg (fun p : Vec Ideal S1x64x1 .f32 × Vec Ideal S1x64x1 .f32 => p.2 (ix3 (0 : Fin 1) ch v))
      (poolAt_congr V c (by show 8 * b.val + k.succ.val - 1 = 8 * b.val + k.castSucc.val; simp only [Fin.val_succ, Fin.coe_castSucc]; omega) _ _)

end Acc

end Cert.ReferenceIdeal.Run

end
-- ==== Proof.RefPoolArray.lean ====
/-
  The pooling region's value, part 2: the two pooled arrays after the region.

  The input tile of point (b, k) is x[b, ·, 2048·k .. 2048·k + 2047] of the [8, 64, 16384] array the region reads. The
  accumulator blocks of batch b are written back once, after the eighth tile, into rows b of the two [8, 64, 1] result
  arrays; the eight batches' blocks tile those arrays. So the sum array ends holding, at (b, ch, 0), the sum over the
  eight tiles k of the sums over the tile's 2048 positions l of x[b, ch, 2048·k + l], and the maximum array the
  supremum of the suprema.
-/
import proofs.«161511_g2000005911454314_pallasbulk_286_16_alg».proof.Proof.RefPoolPayload

set_option maxRecDepth 16384

noncomputable section

namespace Cert.ReferenceIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (Pipeline.UD sig nD τ) ℕ

open Idealize.ShloMosaic.ValueIdx
open scoped BigOperators

section Arrays

variable (V : (c : Dev nD) → (b : Ref sig .tc) → Buf (Elt Ideal) ((c : Thread nD τ).loc b))

/-- The array the region reads, as a function of (batch, channel, position). -/
abbrev pooledInput (c : Dev nD) : S8x64x16384.Idx → EReal := V c main_v0

/-- Where the three windows' blocks sit, decided over the 64 grid points: point t is batch t / 8, tile t % 8. -/
theorem block_places : ∀ t : Fin cfg0.N,
    win0_0.index t (0 : Fin 3) = t.val / 8 ∧ win0_0.index t (1 : Fin 3) = 0 ∧ win0_0.index t (2 : Fin 3) = t.val % 8
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = 0 :=
  (by decide +kernel : ∀ t : Fin grid0.N, _)

/-- The input tile of (batch b, tile k) at (channel ch, lane l) is the array at (b, ch, 2048·k + l). -/
theorem tile_apply (c : Dev nD) (b k : Fin 8) (ch : Fin 64) (l : Fin 2048) :
    (iblk0 V c 0 (pointOf b k) : Vec Ideal S1x64x2048 .f32) (ix3 (0 : Fin 1) ch l)
      = pooledInput V c (ix3 b ch (Cert.TilePool.tilePos k l)) := by
  obtain ⟨e0, e1, e2, -⟩ := block_places (pointOf b k)
  have hb := b.isLt; have hk := k.isLt
  unfold iblk0
  rw [View.read_apply]
  show V c main_v0 _ = V c main_v0 _
  congr 1
  funext a; apply Fin.ext
  match a with
  | ⟨0, _⟩ =>
    show win0_0.index (pointOf b k) (0 : Fin 3) * 1 + 1 * (0 : Fin 1).val = b.val
    rw [e0]; show (8 * b.val + k.val) / 8 * 1 + 1 * 0 = b.val; omega
  | ⟨1, _⟩ =>
    show win0_0.index (pointOf b k) (1 : Fin 3) * 64 + 1 * ch.val = ch.val
    rw [e1]; omega
  | ⟨2, _⟩ =>
    show win0_0.index (pointOf b k) (2 : Fin 3) * 2048 + 1 * l.val = k.val * 2048 + l.val
    rw [e2]; show (8 * b.val + k.val) % 8 * 2048 + 1 * l.val = k.val * 2048 + l.val; omega

/-- The pooled sums and maxima as whole [8, 64, 1] arrays. -/
def sumArray (c : Dev nD) : S8x64x1.Idx → EReal :=
  fun i => ∑ k : Fin 8, ∑ l : Fin 2048, pooledInput V c (ix3 (i 0) (i 1) (Cert.TilePool.tilePos k l))
def maxArray (c : Dev nD) : S8x64x1.Idx → EReal :=
  fun i => Finset.univ.sup fun k : Fin 8 => Finset.univ.sup fun l : Fin 2048 => pooledInput V c (ix3 (i 0) (i 1) (Cert.TilePool.tilePos k l))

/-- A point that writes an accumulator block back is the eighth tile of its batch. -/
theorem last_tile_of_flush (t : Fin cfg0.N) (h7 : t.val % 8 = 7) : ∃ b : Fin 8, t = pointOf b 7 := by
  have hN : t.val < 64 := lt_of_lt_of_eq t.isLt N_0
  exact ⟨⟨t.val / 8, by omega⟩, Fin.ext (by show t.val = 8 * (t.val / 8) + 7; omega)⟩

/-- Entry (u, ch, v) of batch b's accumulator block is entry (b, ch, 0) of its array. -/
theorem sum_block_emb (b : Fin 8) (u v : Fin 1) (ch : Fin 64) :
    ((cfg0.win 1).blk (pointOf b 7)).view.emb (ix3 u ch v) = ix3 b ch (0 : Fin 1) := by
  obtain ⟨-, -, -, e0, e1, e2, -⟩ := block_places (pointOf b 7)
  have hb := b.isLt
  funext a; apply Fin.ext
  match a with
  | ⟨0, _⟩ =>
    show win0_1.index (pointOf b 7) (0 : Fin 3) * 1 + 1 * u.val = b.val
    rw [e0]; show (8 * b.val + 7) / 8 * 1 + 1 * u.val = b.val; omega
  | ⟨1, _⟩ =>
    show win0_1.index (pointOf b 7) (1 : Fin 3) * 64 + 1 * ch.val = ch.val
    rw [e1]; omega
  | ⟨2, _⟩ =>
    show win0_1.index (pointOf b 7) (2 : Fin 3) * 1 + 1 * v.val = 0
    rw [e2]; omega
theorem max_block_emb (b : Fin 8) (u v : Fin 1) (ch : Fin 64) :
    ((cfg0.win 2).blk (pointOf b 7)).view.emb (ix3 u ch v) = ix3 b ch (0 : Fin 1) := by
  obtain ⟨-, -, -, -, -, -, e0, e1, e2⟩ := block_places (pointOf b 7)
  have hb := b.isLt
  funext a; apply Fin.ext
  match a with
  | ⟨0, _⟩ =>
    show win0_2.index (pointOf b 7) (0 : Fin 3) * 1 + 1 * u.val = b.val
    rw [e0]; show (8 * b.val + 7) / 8 * 1 + 1 * u.val = b.val; omega
  | ⟨1, _⟩ =>
    show win0_2.index (pointOf b 7) (1 : Fin 3) * 64 + 1 * ch.val = ch.val
    rw [e1]; omega
  | ⟨2, _⟩ =>
    show win0_2.index (pointOf b 7) (2 : Fin 3) * 1 + 1 * v.val = 0
    rw [e2]; omega

/-- What a write-back of the sum block writes is that block of `sumArray`. -/
theorem sums_flushed (c : Dev nD) (t : Fin cfg0.N) (hf : (cfg0.win 1).flush t = true) :
    (poolDat V c).flushed 1 t = ((cfg0.win 1).blk t).view.read (Elt Ideal) (sumArray V c) := by
  obtain ⟨b, rfl⟩ := last_tile_of_flush t ((flush0_1 t).mp hf)
  show (cfg0.win 1).cut (grid0.coords (pointOf b 7)) ((poolDat V c).after 1 (pointOf b 7)) = _
  rw [poolDat_after1]
  funext y
  obtain ⟨u, ch, v, rfl⟩ : ∃ (u : Fin 1) (ch : Fin 64) (v : Fin 1), y = ix3 u ch v := ⟨y 0, y 1, y 2, eq_ix3 y⟩
  rw [View.read_apply, sum_block_emb]
  refine (sumBlock_last V c b ch u v).trans ?_
  unfold sumArray tileSum
  exact Finset.sum_congr rfl fun k _ => Finset.sum_congr rfl fun l _ => tile_apply V c b k ch l

theorem maxes_flushed (c : Dev nD) (t : Fin cfg0.N) (hf : (cfg0.win 2).flush t = true) :
    (poolDat V c).flushed 2 t = ((cfg0.win 2).blk t).view.read (Elt Ideal) (maxArray V c) := by
  obtain ⟨b, rfl⟩ := last_tile_of_flush t ((flush0_2 t).mp hf)
  show (cfg0.win 2).cut (grid0.coords (pointOf b 7)) ((poolDat V c).after 2 (pointOf b 7)) = _
  rw [poolDat_after2]
  funext y
  obtain ⟨u, ch, v, rfl⟩ : ∃ (u : Fin 1) (ch : Fin 64) (v : Fin 1), y = ix3 u ch v := ⟨y 0, y 1, y 2, eq_ix3 y⟩
  rw [View.read_apply, max_block_emb]
  refine (maxBlock_last V c b ch u v).trans ?_
  unfold maxArray tileMax
  exact congrArg Finset.univ.sup (funext fun k => congrArg Finset.univ.sup (funext fun l => tile_apply V c b k ch l))

/-- An index of a pooled array is in point t's block iff each coordinate is in the block's range on its axis. -/
theorem mem_sum_block (t : Fin cfg0.N) (i : S8x64x1.Idx) :
    i ∈ ((cfg0.win 1).blk t).view.set ↔ ∀ a : Fin 3, win0_1.index t a * S1x64x1.size a ≤ (i a).val ∧ (i a).val < win0_1.index t a * S1x64x1.size a + S1x64x1.size a := by
  show i ∈ ((View.whole main_v1_0).slice (win0_1.rect t)).set ↔ _
  rw [View.set_slice_whole, Rect.mem_set_unit]
  exact Iff.rfl
theorem mem_max_block (t : Fin cfg0.N) (i : S8x64x1.Idx) :
    i ∈ ((cfg0.win 2).blk t).view.set ↔ ∀ a : Fin 3, win0_2.index t a * S1x64x1.size a ≤ (i a).val ∧ (i a).val < win0_2.index t a * S1x64x1.size a + S1x64x1.size a := by
  show i ∈ ((View.whole main_v1_1).slice (win0_2.rect t)).set ↔ _
  rw [View.set_slice_whole, Rect.mem_set_unit]
  exact Iff.rfl

/-- Every index (b, ch, 0) of a pooled array is in the block written back after batch b's eighth tile. -/
theorem sums_covered (i : S8x64x1.Idx) : ∃ t : Fin cfg0.N, (cfg0.win 1).flush t = true ∧ i ∈ ((cfg0.win 1).blk t).view.set := by
  have h0 : (i 0).val < 8 := (i 0).isLt
  have h1 : (i 1).val < 64 := (i 1).isLt
  have h2 : (i 2).val < 1 := (i 2).isLt
  refine ⟨pointOf (i 0) 7, (flush0_1 _).mpr (by show (8 * (i 0).val + 7) % 8 = 7; omega), ?_⟩
  obtain ⟨-, -, -, e0, e1, e2, -⟩ := block_places (pointOf (i 0) 7)
  rw [mem_sum_block]
  intro a
  match a with
  | ⟨0, _⟩ => show win0_1.index (pointOf (i 0) 7) (0 : Fin 3) * 1 ≤ (i 0).val ∧ (i 0).val < win0_1.index (pointOf (i 0) 7) (0 : Fin 3) * 1 + 1
              rw [e0]; show (8 * (i 0).val + 7) / 8 * 1 ≤ (i 0).val ∧ (i 0).val < (8 * (i 0).val + 7) / 8 * 1 + 1; omega
  | ⟨1, _⟩ => show win0_1.index (pointOf (i 0) 7) (1 : Fin 3) * 64 ≤ (i 1).val ∧ (i 1).val < win0_1.index (pointOf (i 0) 7) (1 : Fin 3) * 64 + 64
              rw [e1]; omega
  | ⟨2, _⟩ => show win0_1.index (pointOf (i 0) 7) (2 : Fin 3) * 1 ≤ (i 2).val ∧ (i 2).val < win0_1.index (pointOf (i 0) 7) (2 : Fin 3) * 1 + 1
              rw [e2]; omega
theorem maxes_covered (i : S8x64x1.Idx) : ∃ t : Fin cfg0.N, (cfg0.win 2).flush t = true ∧ i ∈ ((cfg0.win 2).blk t).view.set := by
  have h0 : (i 0).val < 8 := (i 0).isLt
  have h1 : (i 1).val < 64 := (i 1).isLt
  have h2 : (i 2).val < 1 := (i 2).isLt
  refine ⟨pointOf (i 0) 7, (flush0_2 _).mpr (by show (8 * (i 0).val + 7) % 8 = 7; omega), ?_⟩
  obtain ⟨-, -, -, -, -, -, e0, e1, e2⟩ := block_places (pointOf (i 0) 7)
  rw [mem_max_block]
  intro a
  match a with
  | ⟨0, _⟩ => show win0_2.index (pointOf (i 0) 7) (0 : Fin 3) * 1 ≤ (i 0).val ∧ (i 0).val < win0_2.index (pointOf (i 0) 7) (0 : Fin 3) * 1 + 1
              rw [e0]; show (8 * (i 0).val + 7) / 8 * 1 ≤ (i 0).val ∧ (i 0).val < (8 * (i 0).val + 7) / 8 * 1 + 1; omega
  | ⟨1, _⟩ => show win0_2.index (pointOf (i 0) 7) (1 : Fin 3) * 64 ≤ (i 1).val ∧ (i 1).val < win0_2.index (pointOf (i 0) 7) (1 : Fin 3) * 64 + 64
              rw [e1]; omega
  | ⟨2, _⟩ => show win0_2.index (pointOf (i 0) 7) (2 : Fin 3) * 1 ≤ (i 2).val ∧ (i 2).val < win0_2.index (pointOf (i 0) 7) (2 : Fin 3) * 1 + 1
              rw [e2]; omega

/-- THE POOLED ARRAYS after the region. -/
theorem sums_final (c : Dev nD) : (poolDat V c).arrAt 1 cfg0.N = sumArray V c :=
  (poolDat V c).arrAt_eq_of_cover 1 (sumArray V c) (sums_flushed V c) (sums_covered)
theorem maxes_final (c : Dev nD) : (poolDat V c).arrAt 2 cfg0.N = maxArray V c :=
  (poolDat V c).arrAt_eq_of_cover 2 (maxArray V c) (maxes_flushed V c) (maxes_covered)

end Arrays

end Cert.ReferenceIdeal.Run

end
-- ==== Proof.RefMiddleOps.lean ====
/-
  The operations of the stretch between the two pooling / scaling regions, each read at one index.

  All of them are layout operations or small dense products on literal shapes: dropping and adding the unit last axis of
  an [8, 64, 1] array, stacking two [8, 64] arrays into [16, 64] (rows 0–7 from the first, rows 8–15 from the second),
  the products [16, 64] · [64, 4] and [16, 4] · [4, 64] as sums over the contracted coordinate, a bias vector laid along
  every row, the two halves of a [16, 64] array, and a scalar laid everywhere.
-/
import proofs.«161511_g2000005911454314_pallasbulk_286_16_alg».proof.Proof.Gen.ReferenceIdeal
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

open scoped BigOperators

namespace Cert.RefMiddle

open Idealize.ShloMosaic Idealize.ShloMosaic.ValueIdx Cert.ReferenceIdeal Cert.ReferenceIdeal.Gen

section Layout
variable {α : Type}

/-- An [8, 64, 1] array seen as [8, 64] reads, at (b, c), the operand at (b, c, 0). -/
theorem squeeze_apply (X : S8x64x1.Idx → α) (h : S8x64x1.ShapeCasts S8x64) (b : Fin 8) (c : Fin 64) :
    shapeCast S8x64 X h (ix2 b c) = X (ix3 b c (0 : Fin 1)) :=
  shapeCast_apply X h _ _ (by
    rw [Shape.rowMajor_val_three, Shape.rowMajor_val_two]
    show (b.val * 64 + c.val) * 1 + 0 = b.val * 64 + c.val
    omega)

/-- An [8, 64] array seen as [8, 64, 1] reads, at (b, c, u), the operand at (b, c). -/
theorem unsqueeze_apply (X : S8x64.Idx → α) (h : S8x64.ShapeCasts S8x64x1) (b : Fin 8) (c : Fin 64) (u : Fin 1) :
    shapeCast S8x64x1 X h (ix3 b c u) = X (ix2 b c) :=
  shapeCast_apply X h _ _ (by
    have hu : u.val = 0 := by omega
    rw [Shape.rowMajor_val_three, Shape.rowMajor_val_two]
    show b.val * 64 + c.val = (b.val * 64 + c.val) * 1 + u.val
    omega)

/-- Two [8, 64] arrays stacked along the rows: a row below 8 is the first array's row. -/
theorem stack_upper (A B : S8x64.Idx → α) (h : Shape.Concatenates [S8x64, S8x64] S16x64 0)
    (r : Fin 16) (c : Fin 64) (b : Fin 8) (hr : r.val = b.val) :
    concatenate S16x64 0 [⟨S8x64, A⟩, ⟨S8x64, B⟩] h (ix2 r c) = A (ix2 b c) :=
  concatenate_pair_apply_left (0 : Fin S16x64.rank) A B h (ix2 r c) rfl (ix2 b c) (fun a => by
    match a with
    | ⟨0, _⟩ => exact hr.symm
    | ⟨1, _⟩ => rfl)

/-- Two [8, 64] arrays stacked along the rows: row 8 + b is the second array's row b. -/
theorem stack_lower (A B : S8x64.Idx → α) (h : Shape.Concatenates [S8x64, S8x64] S16x64 0)
    (r : Fin 16) (c : Fin 64) (b : Fin 8) (hr : r.val = b.val + 8) :
    concatenate S16x64 0 [⟨S8x64, A⟩, ⟨S8x64, B⟩] h (ix2 r c) = B (ix2 b c) :=
  concatenate_pair_apply_right (0 : Fin S16x64.rank) A B h (ix2 r c) rfl rfl (ix2 b c) (fun a ha => by
    match a, ha with
    | ⟨0, _⟩, ha => exact absurd rfl ha
    | ⟨1, _⟩, _ => rfl)
    (by show b.val + 8 = r.val; omega)

/-- The upper half of a [16, 64] array reads, at (b, c), the array at (b, c). -/
theorem upper_half_apply (O : S16x64.Idx → α) (h : S16x64.Slices ![0, 0] S8x64) (b : Fin 8) (c : Fin 64)
    (r : Fin 16) (hr : r.val = b.val) :
    extractStridedSlice S8x64 ![0, 0] O h (ix2 b c) = O (ix2 r c) :=
  slice2_axis0_apply 0 O h b c r (by omega)

/-- The lower half of a [16, 64] array reads, at (b, c), the array at (8 + b, c). -/
theorem lower_half_apply (O : S16x64.Idx → α) (h : S16x64.Slices ![8, 0] S8x64) (b : Fin 8) (c : Fin 64)
    (r : Fin 16) (hr : r.val = b.val + 8) :
    extractStridedSlice S8x64 ![8, 0] O h (ix2 b c) = O (ix2 r c) :=
  slice2_axis0_apply 8 O h b c r (by omega)

/-- A 4-vector laid along every row of a [16, 4] array (through a [1, 4] row) reads, at (r, j), the vector at j. -/
theorem bias4_apply (v : S4.Idx → α) (h1 : S4.BroadcastsInDim S1x4 (![1] : Fin 1 → Fin S1x4.rank))
    (h2 : S1x4.BroadcastsInDim S16x4 (![0, 1] : Fin 2 → Fin S16x4.rank)) (r : Fin 16) (j : Fin 4) :
    broadcastInDim S16x4 ![0, 1] h2 (broadcastInDim S1x4 ![1] h1 v) (ix2 r j) = v (ix1 j) := by
  rw [broadcastInDim_apply ![0, 1] h2 _ (ix2 r j) (ix2 (0 : Fin 1) j) (fun a => by
    match a with
    | ⟨0, _⟩ => rfl
    | ⟨1, _⟩ => rfl)]
  exact broadcastInDim_apply ![1] h1 v (ix2 (0 : Fin 1) j) (ix1 j) (fun a => by
    match a with
    | ⟨0, _⟩ => rfl)

/-- A 64-vector laid along every row of a [16, 64] array (through a [1, 64] row) reads, at (r, c), the vector at c. -/
theorem bias64_apply (v : S64.Idx → α) (h1 : S64.BroadcastsInDim S1x64 (![1] : Fin 1 → Fin S1x64.rank))
    (h2 : S1x64.BroadcastsInDim S16x64 (![0, 1] : Fin 2 → Fin S16x64.rank)) (r : Fin 16) (c : Fin 64) :
    broadcastInDim S16x64 ![0, 1] h2 (broadcastInDim S1x64 ![1] h1 v) (ix2 r c) = v (ix1 c) := by
  rw [broadcastInDim_apply ![0, 1] h2 _ (ix2 r c) (ix2 (0 : Fin 1) c) (fun a => by
    match a with
    | ⟨0, _⟩ => rfl
    | ⟨1, _⟩ => rfl)]
  exact broadcastInDim_apply ![1] h1 v (ix2 (0 : Fin 1) c) (ix1 c) (fun a => by
    match a with
    | ⟨0, _⟩ => rfl)

end Layout

/-- A float word laid everywhere reads, at every index, the extended real the word denotes. -/
theorem splat_apply {T : Shape} (h : S_.BroadcastsInDim T (![] : Fin 0 → Fin T.rank)) (w : BitVec 32) (j : T.Idx) :
    broadcastInDim T ![] h (constant (F := Ideal) S_ .f32 w) j = Ideal.ofBits .f32 w := by
  rw [broadcastInDim_scalar_apply]; rfl

/-! ## The two dense products -/

section Dot1
local notation "D1" => dot_S16x64_S64x4_S16x4_1_0_0_1_n_n

theorem lhs1_0 (i : S16x4.Idx) (q : (D1).contr.Idx) : ((D1).lhsIdx i q 0).val = (i 0).val := by
  unfold DotDims.lhsIdx
  rw [dif_neg (show ¬(0 : Fin S16x64.rank) ∈ (D1).lhsBatch by decide), dif_pos (show (0 : Fin S16x64.rank) ∈ (D1).lhsNonContracting by decide)]
  rfl
theorem lhs1_1 (i : S16x4.Idx) (q : (D1).contr.Idx) : ((D1).lhsIdx i q 1).val = (q ⟨0, by decide⟩).val :=
  (D1).lhsIdx_val_of_single rfl i q
theorem rhs1_0 (i : S16x4.Idx) (q : (D1).contr.Idx) : ((D1).rhsIdx i q 0).val = (q ⟨0, by decide⟩).val :=
  (D1).rhsIdx_val_of_single rfl i q
theorem rhs1_1 (i : S16x4.Idx) (q : (D1).contr.Idx) : ((D1).rhsIdx i q 1).val = (i 1).val := by
  unfold DotDims.rhsIdx
  rw [dif_neg (show ¬(1 : Fin S64x4.rank) ∈ (D1).rhsBatch by decide), dif_pos (show (1 : Fin S64x4.rank) ∈ (D1).rhsNonContracting by decide)]
  rfl

/-- The product [16, 64] · [64, 4] at (r, j) is the sum over the 64 contracted coordinates. -/
theorem dot1_apply (L : FVec Ideal S16x64 .f32) (R : FVec Ideal S64x4 .f32) (r : Fin 16) (j : Fin 4) :
    Host.dotGeneral (F := Ideal) (D1) none L R (ix2 r j) = ∑ c : Fin 64, L (ix2 r c) * R (ix2 c j) := by
  simp only [Host.dotGeneral]
  rw [Ideal.dotGeneral_apply, ← Equiv.sum_comp (contrEquiv1 (D1) 64 rfl rfl).symm]
  refine Finset.sum_congr rfl fun k _ => ?_
  have hk := contrEquiv1_symm_val (D1) 64 rfl rfl k
  have el : (D1).lhsIdx (ix2 r j) ((contrEquiv1 (D1) 64 rfl rfl).symm k) = ix2 r k := funext fun a => Fin.ext (by
    match a with
    | ⟨0, _⟩ => exact lhs1_0 _ _
    | ⟨1, _⟩ => exact (lhs1_1 _ _).trans hk)
  have er : (D1).rhsIdx (ix2 r j) ((contrEquiv1 (D1) 64 rfl rfl).symm k) = ix2 k j := funext fun a => Fin.ext (by
    match a with
    | ⟨0, _⟩ => exact (rhs1_0 _ _).trans hk
    | ⟨1, _⟩ => exact rhs1_1 _ _)
  rw [el, er]

end Dot1

section Dot2
local notation "D2" => dot_S16x4_S4x64_S16x64_1_0_0_1_n_n

theorem lhs2_0 (i : S16x64.Idx) (q : (D2).contr.Idx) : ((D2).lhsIdx i q 0).val = (i 0).val := by
  unfold DotDims.lhsIdx
  rw [dif_neg (show ¬(0 : Fin S16x4.rank) ∈ (D2).lhsBatch by decide), dif_pos (show (0 : Fin S16x4.rank) ∈ (D2).lhsNonContracting by decide)]
  rfl
theorem lhs2_1 (i : S16x64.Idx) (q : (D2).contr.Idx) : ((D2).lhsIdx i q 1).val = (q ⟨0, by decide⟩).val :=
  (D2).lhsIdx_val_of_single rfl i q
theorem rhs2_0 (i : S16x64.Idx) (q : (D2).contr.Idx) : ((D2).rhsIdx i q 0).val = (q ⟨0, by decide⟩).val :=
  (D2).rhsIdx_val_of_single rfl i q
theorem rhs2_1 (i : S16x64.Idx) (q : (D2).contr.Idx) : ((D2).rhsIdx i q 1).val = (i 1).val := by
  unfold DotDims.rhsIdx
  rw [dif_neg (show ¬(1 : Fin S4x64.rank) ∈ (D2).rhsBatch by decide), dif_pos (show (1 : Fin S4x64.rank) ∈ (D2).rhsNonContracting by decide)]
  rfl

/-- The product [16, 4] · [4, 64] at (r, c) is the sum over the 4 contracted coordinates. -/
theorem dot2_apply (L : FVec Ideal S16x4 .f32) (R : FVec Ideal S4x64 .f32) (r : Fin 16) (c : Fin 64) :
    Host.dotGeneral (F := Ideal) (D2) none L R (ix2 r c) = ∑ j : Fin 4, L (ix2 r j) * R (ix2 j c) := by
  simp only [Host.dotGeneral]
  rw [Ideal.dotGeneral_apply, ← Equiv.sum_comp (contrEquiv1 (D2) 4 rfl rfl).symm]
  refine Finset.sum_congr rfl fun k _ => ?_
  have hk := contrEquiv1_symm_val (D2) 4 rfl rfl k
  have el : (D2).lhsIdx (ix2 r c) ((contrEquiv1 (D2) 4 rfl rfl).symm k) = ix2 r k := funext fun a => Fin.ext (by
    match a with
    | ⟨0, _⟩ => exact lhs2_0 _ _
    | ⟨1, _⟩ => exact (lhs2_1 _ _).trans hk)
  have er : (D2).rhsIdx (ix2 r c) ((contrEquiv1 (D2) 4 rfl rfl).symm k) = ix2 k c := funext fun a => Fin.ext (by
    match a with
    | ⟨0, _⟩ => exact (rhs2_0 _ _).trans hk
    | ⟨1, _⟩ => exact rhs2_1 _ _)
  rw [el, er]

end Dot2

end Cert.RefMiddle

end
-- ==== Proof.RefMiddleRead.lean ====
/-
  The stretch between the pooling region and the scaling region, as one function of the pooled sums S, the pooled
  maxima M (both [8, 64, 1]) and the four parameter arrays, read at one index.

  The stretch stacks the eight rows of means S · 2⁻¹⁴ above the eight rows of maxima M, sends all sixteen rows through the
  perceptron at once (rows · w1 + b1, clamped below at 0, then · w2 + b2), adds row b to row 8 + b, and applies
  1 / (1 + exp (−s)). Row r of a product depends on row r of the left operand only, so at (b, c) the result is the
  logistic of the perceptron of the mean row plus the perceptron of the maximum row: the specification's logit.
-/
import proofs.«161511_g2000005911454314_pallasbulk_286_16_alg».proof.Proof.RefMiddleOps
import proofs.«161511_g2000005911454314_pallasbulk_286_16_alg».proof.Proof.GateSpec

noncomputable section

open scoped BigOperators

namespace Cert.RefMiddle

open Idealize.ShloMosaic Idealize.ShloMosaic.ValueIdx Cert.ReferenceIdeal Cert.ReferenceIdeal.Gen

/-- The pooled rows: the eight means above the eight maxima. -/
def pooled (S M : FVec Ideal S8x64x1 .f32) : FVec Ideal S16x64 .f32 :=
  concatenate S16x64 0
    [⟨S8x64, mulf (shapeCast S8x64 S Facts₀.shapeCasts_S8x64x1_S8x64)
        (broadcastInDim S8x64 ![] Facts₀.bcast_S_S8x64 (constant (F := Ideal) S_ .f32 0x38800000#32))⟩,
     ⟨S8x64, shapeCast S8x64 M Facts₀.shapeCasts_S8x64x1_S8x64⟩]
    Facts₀.concatenates_S8x64_S8x64_S16x64_d0

/-- The hidden layer on all sixteen pooled rows: rows times w1, plus b1 on every row, clamped below at zero. -/
def hiddenRows (P : FVec Ideal S16x64 .f32) (w1 : FVec Ideal S64x4 .f32) (b1 : FVec Ideal S4 .f32) : FVec Ideal S16x4 .f32 :=
  maximumf
    (addf (Host.dotGeneral (F := Ideal) dot_S16x64_S64x4_S16x4_1_0_0_1_n_n none P w1)
      (broadcastInDim S16x4 ![0, 1] Facts₀.bcast_S1x4_S16x4_0_1 (broadcastInDim S1x4 ![1] Facts₀.bcast_S4_S1x4_1 b1)))
    (broadcastInDim S16x4 ![] Facts₀.bcast_S_S16x4 (constant (F := Ideal) S_ .f32 0x00000000#32))

/-- The output layer on all sixteen rows: hidden rows times w2, plus b2 on every row. -/
def outRows (H : FVec Ideal S16x4 .f32) (w2 : FVec Ideal S4x64 .f32) (b2 : FVec Ideal S64 .f32) : FVec Ideal S16x64 .f32 :=
  addf (Host.dotGeneral (F := Ideal) dot_S16x4_S4x64_S16x64_1_0_0_1_n_n none H w2)
    (broadcastInDim S16x64 ![0, 1] Facts₀.bcast_S1x64_S16x64_0_1 (broadcastInDim S1x64 ![1] Facts₀.bcast_S64_S1x64_1 b2))

/-- The logit: the upper eight rows plus the lower eight rows. -/
def logitRows (O : FVec Ideal S16x64 .f32) : FVec Ideal S8x64 .f32 :=
  addf (extractStridedSlice S8x64 ![0, 0] O Facts₀.slices_S16x64_S8x64_0_0)
    (extractStridedSlice S8x64 ![8, 0] O Facts₀.slices_S16x64_S8x64_8_0)

/-- The logistic function as the host writes it, 1 / (1 + exp (−s)), laid out as an [8, 64, 1] array. -/
def sigmoidCol (s : FVec Ideal S8x64 .f32) : FVec Ideal S8x64x1 .f32 :=
  shapeCast S8x64x1
    (Host.divf (F := Ideal) (broadcastInDim S8x64 ![] Facts₀.bcast_S_S8x64 (constant (F := Ideal) S_ .f32 0x3F800000#32))
      (addf (broadcastInDim S8x64 ![] Facts₀.bcast_S_S8x64 (constant (F := Ideal) S_ .f32 0x3F800000#32))
        (Host.exp (F := Ideal) (Host.negf (F := Ideal) s))))
    Facts₀.shapeCasts_S8x64_S8x64x1

/-- The whole stretch between the two regions as one function of the pooled sums, the pooled maxima and the parameters. -/
def middle (S M : FVec Ideal S8x64x1 .f32) (w1 : FVec Ideal S64x4 .f32) (b1 : FVec Ideal S4 .f32)
    (w2 : FVec Ideal S4x64 .f32) (b2 : FVec Ideal S64 .f32) : FVec Ideal S8x64x1 .f32 :=
  sigmoidCol (logitRows (outRows (hiddenRows (pooled S M) w1 b1) w2 b2))

/-- Row b of the stacked rows, b below 8, is the mean row: S[b, ·] · 2⁻¹⁴. -/
theorem pooled_upper (S M : FVec Ideal S8x64x1 .f32) (b : Fin 8) (c : Fin 64) (r : Fin 16) (hr : r.val = b.val) :
    pooled S M (ix2 r c) = S (ix3 b c (0 : Fin 1)) * Cert.GateSpec.invCount := by
  unfold pooled
  rw [stack_upper _ _ _ r c b hr, mulf_apply, squeeze_apply, splat_apply]
  rfl

/-- Row 8 + b of the stacked rows is the maximum row M[b, ·]. -/
theorem pooled_lower (S M : FVec Ideal S8x64x1 .f32) (b : Fin 8) (c : Fin 64) (r : Fin 16) (hr : r.val = b.val + 8) :
    pooled S M (ix2 r c) = M (ix3 b c (0 : Fin 1)) := by
  unfold pooled
  rw [stack_lower _ _ _ r c b hr, squeeze_apply]

/-- Row r of the hidden layer is the specification's hidden layer of row r of the operand. -/
theorem hiddenRows_apply (P : FVec Ideal S16x64 .f32) (w1 : FVec Ideal S64x4 .f32) (b1 : FVec Ideal S4 .f32)
    (r : Fin 16) (j : Fin 4) :
    hiddenRows P w1 b1 (ix2 r j) = Cert.GateSpec.hidden w1 b1 (fun c => P (ix2 r c)) j := by
  unfold hiddenRows Cert.GateSpec.hidden
  rw [maximumf_apply, addf_apply, dot1_apply, bias4_apply, splat_apply]

/-- The output layer at (r, c): row r of the operand times column c of w2, plus b2[c]. -/
theorem outRows_apply (H : FVec Ideal S16x4 .f32) (w2 : FVec Ideal S4x64 .f32) (b2 : FVec Ideal S64 .f32)
    (r : Fin 16) (c : Fin 64) :
    outRows H w2 b2 (ix2 r c) = (∑ j : Fin 4, H (ix2 r j) * w2 (ix2 j c)) + b2 (ix1 c) := by
  unfold outRows
  rw [addf_apply, dot2_apply, bias64_apply]

/-- Both layers at (r, c): the specification's perceptron of row r of the operand, plus b2[c]. -/
theorem perceptronRows_apply (P : FVec Ideal S16x64 .f32) (w1 : FVec Ideal S64x4 .f32) (b1 : FVec Ideal S4 .f32)
    (w2 : FVec Ideal S4x64 .f32) (b2 : FVec Ideal S64 .f32) (r : Fin 16) (c : Fin 64) :
    outRows (hiddenRows P w1 b1) w2 b2 (ix2 r c)
      = Cert.GateSpec.project w1 b1 w2 (fun c' => P (ix2 r c')) c + b2 (ix1 c) := by
  rw [outRows_apply]
  unfold Cert.GateSpec.project
  refine congrArg (· + b2 (ix1 c)) (Finset.sum_congr rfl fun j _ => ?_)
  rw [hiddenRows_apply]

/-- The logit at (b, c): row b plus row 8 + b. -/
theorem logitRows_apply (O : FVec Ideal S16x64 .f32) (b : Fin 8) (c : Fin 64) (r0 r1 : Fin 16)
    (h0 : r0.val = b.val) (h1 : r1.val = b.val + 8) :
    logitRows O (ix2 b c) = O (ix2 r0 c) + O (ix2 r1 c) := by
  unfold logitRows
  rw [addf_apply, upper_half_apply O _ b c r0 h0, lower_half_apply O _ b c r1 h1]

/-- 1 / (1 + exp (−s)) with the two ones written as the float word of 1 is the logistic function. -/
theorem sigmoidCol_apply (s : FVec Ideal S8x64 .f32) (b : Fin 8) (c : Fin 64) (u : Fin 1) :
    sigmoidCol s (ix3 b c u) = Ideal.logistic (s (ix2 b c)) := by
  unfold sigmoidCol
  rw [unsqueeze_apply, hostDivf_apply, addf_apply, splat_apply, Ideal.ofBits_one_f32]
  rfl

/-- The stretch at (b, c, 0): the logistic of the perceptron of the mean row plus the perceptron of the maximum row. -/
theorem middle_apply (S M : FVec Ideal S8x64x1 .f32) (w1 : FVec Ideal S64x4 .f32) (b1 : FVec Ideal S4 .f32)
    (w2 : FVec Ideal S4x64 .f32) (b2 : FVec Ideal S64 .f32) (b : Fin 8) (c : Fin 64) :
    middle S M w1 b1 w2 b2 (ix3 b c (0 : Fin 1))
      = Ideal.logistic
          ((Cert.GateSpec.project w1 b1 w2 (fun c' => S (ix3 b c' (0 : Fin 1)) * Cert.GateSpec.invCount) c + b2 (ix1 c))
            + (Cert.GateSpec.project w1 b1 w2 (fun c' => M (ix3 b c' (0 : Fin 1))) c + b2 (ix1 c))) := by
  have e0 : (fun c' => pooled S M (ix2 (⟨b.val, by omega⟩ : Fin 16) c'))
      = fun c' => S (ix3 b c' (0 : Fin 1)) * Cert.GateSpec.invCount :=
    funext fun c' => pooled_upper S M b c' _ rfl
  have e1 : (fun c' => pooled S M (ix2 (⟨b.val + 8, by omega⟩ : Fin 16) c'))
      = fun c' => M (ix3 b c' (0 : Fin 1)) :=
    funext fun c' => pooled_lower S M b c' _ rfl
  unfold middle
  rw [sigmoidCol_apply, logitRows_apply _ b c ⟨b.val, by omega⟩ ⟨b.val + 8, by omega⟩ rfl rfl,
    perceptronRows_apply, perceptronRows_apply, e0, e1]

end Cert.RefMiddle

end
-- ==== Proof.RefMiddle.lean ====
/-
  What the stretch of host operations between the pooling region and the scaling region leaves in the gate buffer.

  Whatever the buffers hold when the stretch starts — the pooled sums S and the pooled maxima M in the two [8, 64, 1]
  result buffers of the pooling region, the four parameter arrays in their argument buffers — the [8, 64, 1] buffer the
  scaling region reads holds, at (b, c, 0), the logistic of the specification's logit computed from the mean row
  S[b, ·, 0] · 2⁻¹⁴ and the maximum row M[b, ·, 0].
-/
import proofs.«161511_g2000005911454314_pallasbulk_286_16_alg».proof.Proof.Gen.ReferenceIdeal.Launch
import proofs.«161511_g2000005911454314_pallasbulk_286_16_alg».proof.Proof.RefMiddleRead
import Idealize.ShloMosaic.Lib.StableHlo.Run

noncomputable section

namespace Cert.RefMiddle

open Idealize.ShloMosaic Idealize.ShloMosaic.ValueIdx Cert.ReferenceIdeal Cert.ReferenceIdeal.Gen

/-- The stretch's last buffer is the function `middle` of the six buffers it reads. -/
theorem after_middle (W : Valuation τ sig (Elt Ideal)) :
    StableHlo.after (hostOps1 (F := Ideal)) W (Proc.devRef .tc main_v26)
      = middle (W (Proc.devRef .tc main_v1_0)) (W (Proc.devRef .tc main_v1_1)) (W (Proc.devRef .tc main_arg1))
          (W (Proc.devRef .tc main_arg2)) (W (Proc.devRef .tc main_arg3)) (W (Proc.devRef .tc main_arg4)) := by
  after_results_simp
  rfl

/-- The gate value at (b, c) from the pooled sums S, the pooled maxima M and the parameters: the logistic of the
perceptron of the mean row S[b, ·, 0] · 2⁻¹⁴ (plus b2) plus the perceptron of the maximum row M[b, ·, 0] (plus b2). -/
def gateOf (S M : S8x64x1.Idx → EReal) (w1 : S64x4.Idx → EReal) (b1 : S4.Idx → EReal) (w2 : S4x64.Idx → EReal)
    (b2 : S64.Idx → EReal) (b : Fin 8) (c : Fin 64) : EReal :=
  Ideal.logistic
    ((Cert.GateSpec.project w1 b1 w2 (fun c' => S (ix3 b c' (0 : Fin 1)) * Cert.GateSpec.invCount) c + b2 (ix1 c))
      + (Cert.GateSpec.project w1 b1 w2 (fun c' => M (ix3 b c' (0 : Fin 1))) c + b2 (ix1 c)))

/-- The gate buffer at (b, c, 0) after the stretch, from any contents W before it. -/
theorem gate_buffer (W : Valuation τ sig (Elt Ideal)) (b : Fin 8) (c : Fin 64) :
    (StableHlo.after (hostOps1 (F := Ideal)) W (Proc.devRef .tc main_v26)) (ix3 b c (0 : Fin 1))
      = gateOf (W (Proc.devRef .tc main_v1_0)) (W (Proc.devRef .tc main_v1_1)) (W (Proc.devRef .tc main_arg1))
          (W (Proc.devRef .tc main_arg2)) (W (Proc.devRef .tc main_arg3)) (W (Proc.devRef .tc main_arg4)) b c := by
  rw [after_middle]
  exact middle_apply _ _ _ _ _ _ b c

/-- The same with the six buffers' contents named: the logistic of the specification's logit. -/
theorem gate_buffer_eq (W : Valuation τ sig (Elt Ideal)) (S M : S8x64x1.Idx → EReal) (w1 : S64x4.Idx → EReal)
    (b1 : S4.Idx → EReal) (w2 : S4x64.Idx → EReal) (b2 : S64.Idx → EReal)
    (hS : W (Proc.devRef .tc main_v1_0) = S) (hM : W (Proc.devRef .tc main_v1_1) = M)
    (hw1 : W (Proc.devRef .tc main_arg1) = w1) (hb1 : W (Proc.devRef .tc main_arg2) = b1)
    (hw2 : W (Proc.devRef .tc main_arg3) = w2) (hb2 : W (Proc.devRef .tc main_arg4) = b2) (b : Fin 8) (c : Fin 64) :
    (StableHlo.after (hostOps1 (F := Ideal)) W (Proc.devRef .tc main_v26)) (ix3 b c (0 : Fin 1))
      = Ideal.logistic
          ((Cert.GateSpec.project w1 b1 w2 (fun c' => S (ix3 b c' (0 : Fin 1)) * Cert.GateSpec.invCount) c + b2 (ix1 c))
            + (Cert.GateSpec.project w1 b1 w2 (fun c' => M (ix3 b c' (0 : Fin 1))) c + b2 (ix1 c))) := by
  rw [gate_buffer, hS, hM, hw1, hb1, hw2, hb2]
  rfl

end Cert.RefMiddle

end
-- ==== Proof.RefEntry.lean ====
/-
  The reference's values between its segments, read back to the argument arrays.

  The first reshape lays x out as [8, 64, 16384] with position s = 1024·d + 32·h + w; the pooling region leaves the sums
  and maxima over all 16384 positions (eight tiles of 2048, regrouped: addition and maximum are commutative and
  associative on the extended reals); the middle stretch turns them into the logistic of the specification's logit.
  No segment writes an argument array.
-/
import proofs.«161511_g2000005911454314_pallasbulk_286_16_alg».proof.Proof.RefRun
import proofs.«161511_g2000005911454314_pallasbulk_286_16_alg».proof.Proof.RefPoolArray
import proofs.«161511_g2000005911454314_pallasbulk_286_16_alg».proof.Proof.RefMiddle
import proofs.«161511_g2000005911454314_pallasbulk_286_16_alg».proof.Proof.GateSpec

set_option maxRecDepth 16384

noncomputable section

namespace Cert.ReferenceIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (Pipeline.UD sig nD τ) ℕ

open Idealize.ShloMosaic.ValueIdx
open scoped BigOperators

variable (m : (ℓ : Loc nD τ sig) → Buf (Elt Ideal) ℓ) (ρ : Dev nD → PrngReg)

/-! ## Buffers no segment writes -/

/-- A buffer that no host stretch writes and that is no window's array of either region ends as launched. -/
theorem kept (c : Dev nD) (b : Ref sig .tc) (h0 : b ∉ hostOps0_W) (h1 : ∀ w, Pipeline.arrRef spec0 w ≠ b) (h2 : b ∉ hostOps1_W)
    (h3 : ∀ w, Pipeline.arrRef spec1 w ≠ b) (h4 : b ∉ hostOps2_W) :
    Mem5 m ρ c (Proc.devRef .tc b) = m ((c : Thread nD τ).loc b) :=
  calc Mem5 m ρ c (Proc.devRef .tc b)
    _ = Mem4 m ρ c (Proc.devRef .tc b) := StableHlo.after_of_writes_sub hostOps2 _ hostOps2_writes h4
    _ = Mem3 m ρ c (Proc.devRef .tc b) := Mem4_of_ne m ρ c b h3
    _ = Mem2 m ρ c (Proc.devRef .tc b) := StableHlo.after_of_writes_sub hostOps1 _ hostOps1_writes h2
    _ = Mem1 m ρ c (Proc.devRef .tc b) := Mem2_of_ne m ρ c b h1
    _ = Mem0 m ρ c (Proc.devRef .tc b) := StableHlo.after_of_writes_sub hostOps0 _ hostOps0_writes h0
    _ = m ((c : Thread nD τ).loc b) := rfl

/-- The same up to the middle stretch's entry. -/
theorem kept_to_middle (c : Dev nD) (b : Ref sig .tc) (h0 : b ∉ hostOps0_W) (h1 : ∀ w, Pipeline.arrRef spec0 w ≠ b) :
    Mem2 m ρ c (Proc.devRef .tc b) = m ((c : Thread nD τ).loc b) :=
  calc Mem2 m ρ c (Proc.devRef .tc b)
    _ = Mem1 m ρ c (Proc.devRef .tc b) := Mem2_of_ne m ρ c b h1
    _ = Mem0 m ρ c (Proc.devRef .tc b) := StableHlo.after_of_writes_sub hostOps0 _ hostOps0_writes h0
    _ = m ((c : Thread nD τ).loc b) := rfl

/-! ## The [8, 64, 16384] view of x -/

/-- The argument x on core c, as a function of its five coordinates. -/
abbrev argX (c : Dev nD) : Cert.GateSpec.X5.Idx → EReal := m ((c : Thread nD τ).loc main_arg0)

/-- What the first reshape leaves: the row-major relayout of x. -/
theorem entry_array (c : Dev nD) :
    Mem1 m ρ c (Proc.devRef .tc main_v0) = shapeCast S8x64x16384 (argX m c) shapeCasts_S8x64x16x32x32_S8x64x16384 := by
  show StableHlo.after hostOps0 (Mem0 m ρ c) (Proc.devRef .tc main_v0) = _
  after_results
  rfl

/-- At (b, ch, s) it holds x at batch b, channel ch, position s. -/
theorem entry_apply (c : Dev nD) (b : Fin 8) (ch : Fin 64) (s : Fin 16384) :
    (shapeCast S8x64x16384 (argX m c) shapeCasts_S8x64x16x32x32_S8x64x16384) (ix3 b ch s) = Cert.GateSpec.xAt (argX m c) b ch s := by
  unfold Cert.GateSpec.xAt
  refine shapeCast_apply (argX m c) _ (ix3 b ch s) (ix5 b ch (Cert.GateSpec.posD s) (Cert.GateSpec.posH s) (Cert.GateSpec.posW s)) ?_
  rw [Shape.rowMajor_val_five, Shape.rowMajor_val_three]
  show (((b.val * 64 + ch.val) * 16 + s.val / 1024) * 32 + s.val / 32 % 32) * 32 + s.val % 32 = (b.val * 64 + ch.val) * 16384 + s.val
  have := s.isLt
  omega

/-- The pooling region reads that array: it passes the middle of the run unchanged. -/
theorem pool_input (c : Dev nD) : pooledInput (At1 m ρ) c = shapeCast S8x64x16384 (argX m c) shapeCasts_S8x64x16x32x32_S8x64x16384 :=
  entry_array m ρ c

/-! ## The pooled arrays are the specification's sums and maxima -/

theorem sums_are_poolSum (c : Dev nD) (b : Fin 8) (ch : Fin 64) :
    sumArray (At1 m ρ) c (ix3 b ch (0 : Fin 1)) = Cert.GateSpec.poolSum (argX m c) b ch := by
  unfold sumArray Cert.GateSpec.poolSum
  rw [pool_input]
  refine ((Cert.TilePool.sum_tiles 8 2048 fun s => (shapeCast S8x64x16384 (argX m c) shapeCasts_S8x64x16x32x32_S8x64x16384) (ix3 b ch s)).symm).trans ?_
  exact Finset.sum_congr rfl fun s _ => entry_apply m c b ch s

theorem maxes_are_poolMax (c : Dev nD) (b : Fin 8) (ch : Fin 64) :
    maxArray (At1 m ρ) c (ix3 b ch (0 : Fin 1)) = Cert.GateSpec.poolMax (argX m c) b ch := by
  unfold maxArray Cert.GateSpec.poolMax
  rw [pool_input]
  refine ((Cert.TilePool.sup_tiles 8 2048 fun s => (shapeCast S8x64x16384 (argX m c) shapeCasts_S8x64x16x32x32_S8x64x16384) (ix3 b ch s)).symm).trans ?_
  exact congrArg Finset.univ.sup (funext fun s => entry_apply m c b ch s)

/-! ## The scale factors -/

/-- The [8, 64, 1] array the middle stretch hands to the scaling region holds, at (b, ch, 0), the logistic of the
    specification's logit. -/
theorem scale_factor (c : Dev nD) (b : Fin 8) (ch : Fin 64) :
    (Mem3 m ρ c (Proc.devRef .tc main_v26)) (ix3 b ch (0 : Fin 1))
      = Ideal.logistic (Cert.GateSpec.logit (argX m c) (m ((c : Thread nD τ).loc main_arg1)) (m ((c : Thread nD τ).loc main_arg2))
          (m ((c : Thread nD τ).loc main_arg3)) (m ((c : Thread nD τ).loc main_arg4)) b ch) := by
  refine (Cert.RefMiddle.gate_buffer_eq (Mem2 m ρ c) (sumArray (At1 m ρ) c) (maxArray (At1 m ρ) c)
    (m ((c : Thread nD τ).loc main_arg1)) (m ((c : Thread nD τ).loc main_arg2)) (m ((c : Thread nD τ).loc main_arg3)) (m ((c : Thread nD τ).loc main_arg4))
    ((Mem2_arr m ρ c 1).trans (sums_final (At1 m ρ) c)) ((Mem2_arr m ρ c 2).trans (maxes_final (At1 m ρ) c))
    (kept_to_middle m ρ c main_arg1 (by decide) (by decide)) (kept_to_middle m ρ c main_arg2 (by decide) (by decide))
    (kept_to_middle m ρ c main_arg3 (by decide) (by decide)) (kept_to_middle m ρ c main_arg4 (by decide) (by decide)) b ch).trans ?_
  unfold Cert.GateSpec.logit
  simp only [sums_are_poolSum, maxes_are_poolMax]

end Cert.ReferenceIdeal.Run

end
-- ==== Proof.RefScaleValue.lean ====
/-
  The scaling region's output array as ONE function of the two arrays it reads.

  Point t = 8·b + s of the 8 × 8 grid multiplies the tile x[b, ·, 2048·s … 2048·s + 2047] (64 × 2048) row by row with the
  64 factors g[b, ·, 0] and writes the product back to the same place of the output. An element of a tile depends only
  on the element of x at the same place and on the factor of its batch and channel, so every block written back is a
  block of the one function  i ↦ x[i] · g[i₀, i₁, 0];  the 64 blocks tile the [8, 64, 16384] output, so it ends
  holding that function.
-/
import proofs.«161511_g2000005911454314_pallasbulk_286_16_alg».proof.Proof.RefScale
import Idealize.ShloMosaic.Lib.Pipeline.Value
import Idealize.ShloMosaic.Lib.ValueIdx
import Idealize.ShloMosaic.Lib.ValueLayout

set_option maxRecDepth 16384

noncomputable section

namespace Cert.ReferenceIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
open Idealize.ShloMosaic.ValueIdx

/-! ## The body's arithmetic at an index -/

theorem hz3 : (![0, 0, 0] : Fin 3 → Nat) = fun _ => 0 := funext fun a => by fin_cases a <;> rfl

/-- A column [64, 1] laid along every lane of a [64, 2048] array reads, at (r, l), the column at (r, 0). -/
theorem column_apply {α : Type} (v : S64x1.Idx → α) (h : S64x1.Broadcasts S64x2048) (r : Fin 64) (l : Fin 2048) :
    broadcastTo S64x2048 v h (ix2 r l) = v (ix2 r (0 : Fin 1)) := by
  refine broadcastTo_apply v h (ix2 r l) (ix2 r (0 : Fin 1)) fun ax => ?_
  match ax with
  | ⟨0, _⟩ => rfl
  | ⟨1, _⟩ => rfl

/-- The product tile at (u, r, l): the tile's element there times the factor of row r. -/
theorem scaled_apply (v0 : Vec Ideal S1x64x2048 .f32) (v2 : Vec Ideal S1x64x1 .f32) (u : Fin 1) (r : Fin 64) (l : Fin 2048) :
    k1_pay1 (F := Ideal) v0 v2 (ix3 u r l) = v0 (ix3 (0 : Fin 1) r l) * v2 (ix3 (0 : Fin 1) r (0 : Fin 1)) := by
  unfold k1_pay1
  rw [shapeCast_ab_1ab_apply, mulf_apply, shapeCast_1ab_ab_apply, column_apply, shapeCast_1ab_ab_apply]

/-! ## The function the output ends holding -/

/-- x scaled per (batch, channel) by g[batch, channel, 0]. -/
def scaleOf (x : S8x64x16384.Idx → EReal) (g : S8x64x1.Idx → EReal) : S8x64x16384.Idx → EReal :=
  fun i => x i * g (ix3 (n0 := 8) (n1 := 64) (n2 := 1) (i 0) (i 1) 0)

/-- The three windows' block indices at point t = 8·b + s: (b, 0, s) for the tile and the output, (b, 0, 0) for the factors. -/
theorem scale_idx_facts : ∀ t : Fin cfg1.N,
    win1_2.index t (0 : Fin 3) = t.val / 8 ∧ win1_2.index t (1 : Fin 3) = 0 ∧ win1_2.index t (2 : Fin 3) = t.val % 8
    ∧ win1_0.index t (0 : Fin 3) = t.val / 8 ∧ win1_0.index t (1 : Fin 3) = 0 ∧ win1_0.index t (2 : Fin 3) = t.val % 8
    ∧ win1_1.index t (0 : Fin 3) = t.val / 8 ∧ win1_1.index t (1 : Fin 3) = 0 ∧ win1_1.index t (2 : Fin 3) = 0 :=
  (by decide +kernel : ∀ t : Fin grid1.N, _)

section Value

variable (V : (c : Dev nD) → (b : Ref sig .tc) → Buf (Elt Ideal) ((c : Thread nD τ).loc b))

/-! ## The blocks read where the output's rectangle says -/

/-- The tile window's block at point t, at (u, r, l), is x at (t / 8, r, 2048·(t mod 8) + l). -/
theorem tile_block_apply (c : Dev nD) (t : Fin cfg1.N) (u : Fin 1) (r : Fin 64) (l : Fin 2048) (k : S8x64x16384.Idx)
    (h0 : (k 0).val = t.val / 8) (h1 : (k 1).val = r.val) (h2 : (k 2).val = 2048 * (t.val % 8) + l.val) :
    (iblk1 V c 0 t : Vec Ideal S1x64x2048 .f32) (ix3 u r l) = (V c main_v0 : S8x64x16384.Idx → EReal) k := by
  obtain ⟨-, -, -, e0, e1, e2, -, -, -⟩ := scale_idx_facts t
  unfold iblk1
  rw [View.read_apply]
  show V c main_v0 _ = V c main_v0 _
  refine congrArg (V c main_v0) ?_
  funext a
  apply Fin.ext
  match a with
  | ⟨0, _⟩ => show win1_0.index t (0 : Fin 3) * 1 + 1 * u.val = (k 0).val; rw [e0, h0]; omega
  | ⟨1, _⟩ => show win1_0.index t (1 : Fin 3) * 64 + 1 * r.val = (k 1).val; rw [e1, h1]; omega
  | ⟨2, _⟩ => show win1_0.index t (2 : Fin 3) * 2048 + 1 * l.val = (k 2).val; rw [e2, h2]; omega

/-- The factor window's block at point t, at (u, r, v), is g at (t / 8, r, 0). -/
theorem factor_block_apply (c : Dev nD) (t : Fin cfg1.N) (u : Fin 1) (r : Fin 64) (v : Fin 1) (k : S8x64x1.Idx)
    (h0 : (k 0).val = t.val / 8) (h1 : (k 1).val = r.val) :
    (iblk1 V c 1 t : Vec Ideal S1x64x1 .f32) (ix3 u r v) = (V c main_v26 : S8x64x1.Idx → EReal) k := by
  obtain ⟨-, -, -, -, -, -, e0, e1, e2⟩ := scale_idx_facts t
  unfold iblk1
  rw [View.read_apply]
  show V c main_v26 _ = V c main_v26 _
  refine congrArg (V c main_v26) ?_
  funext a
  apply Fin.ext
  match a with
  | ⟨0, _⟩ => show win1_1.index t (0 : Fin 3) * 1 + 1 * u.val = (k 0).val; rw [e0, h0]; omega
  | ⟨1, _⟩ => show win1_1.index t (1 : Fin 3) * 64 + 1 * r.val = (k 1).val; rw [e1, h1]; omega
  | ⟨2, _⟩ => show win1_1.index t (2 : Fin 3) * 1 + 1 * v.val = (k 2).val; rw [e2]; have hk2 : (k 2).val < 1 := (k 2).isLt; omega

/-- Any [8, 64, 16384] array read through the output window's block at point t, at (u, r, l), is the array at
(t / 8, r, 2048·(t mod 8) + l). -/
theorem out_block_apply (G : S8x64x16384.Idx → EReal) (t : Fin cfg1.N) (u : Fin 1) (r : Fin 64) (l : Fin 2048)
    (k : S8x64x16384.Idx) (h0 : (k 0).val = t.val / 8) (h1 : (k 1).val = r.val) (h2 : (k 2).val = 2048 * (t.val % 8) + l.val) :
    ((cfg1.win 2).blk t).view.read (Elt Ideal) G (ix3 u r l) = G k := by
  obtain ⟨e0, e1, e2, -, -, -, -, -, -⟩ := scale_idx_facts t
  rw [View.read_apply]
  show G _ = G _
  refine congrArg G ?_
  funext a
  apply Fin.ext
  match a with
  | ⟨0, _⟩ => show win1_2.index t (0 : Fin 3) * 1 + 1 * u.val = (k 0).val; rw [e0, h0]; omega
  | ⟨1, _⟩ => show win1_2.index t (1 : Fin 3) * 64 + 1 * r.val = (k 1).val; rw [e1, h1]; omega
  | ⟨2, _⟩ => show win1_2.index t (2 : Fin 3) * 2048 + 1 * l.val = (k 2).val; rw [e2, h2]; omega

/-! ## What each point writes back, the cover, and the array -/

/-- What point t writes back is block t of `scaleOf` of the two arrays the region reads. -/
theorem scale_flushed (c : Dev nD) (t : Fin cfg1.N) :
    (scaleDat (F := Ideal) V c).flushed 2 t
      = ((cfg1.win 2).blk t).view.read (Elt Ideal) (scaleOf (V c main_v0) (V c main_v26)) := by
  show (cfg1.win 2).cut (grid1.coords t) ((scaleDat (F := Ideal) V c).after 2 t) = _
  rw [scaleDat_after2]
  unfold scaledTile
  rw [View.canon_unit_zero hz3]
  simp only [View.ld_unit_zero (S := S1x64x2048) hz3, View.ld_unit_zero (S := S1x64x1) hz3]
  have hN : cfg1.N = 64 := N_1
  have hk0 : t.val / 8 < 8 := by have := t.isLt; omega
  funext j
  obtain ⟨u, r, l, rfl⟩ : ∃ (u : Fin 1) (r : Fin 64) (l : Fin 2048), j = ix3 u r l := ⟨j 0, j 1, j 2, eq_ix3 j⟩
  have hk2 : 2048 * (t.val % 8) + l.val < 16384 := by have := l.isLt; omega
  refine (scaled_apply (iblk1 V c 0 t) (iblk1 V c 1 t) u r l).trans ?_
  rw [tile_block_apply V c t 0 r l (ix3 (⟨t.val / 8, hk0⟩ : Fin 8) r (⟨2048 * (t.val % 8) + l.val, hk2⟩ : Fin 16384)) rfl rfl rfl,
    factor_block_apply V c t 0 r 0 (ix3 (⟨t.val / 8, hk0⟩ : Fin 8) r (0 : Fin 1)) rfl rfl,
    out_block_apply _ t u r l (ix3 (⟨t.val / 8, hk0⟩ : Fin 8) r (⟨2048 * (t.val % 8) + l.val, hk2⟩ : Fin 16384)) rfl rfl rfl]
  rfl

/-- An index of the output is in point t's block iff each coordinate is in the block's range on its axis. -/
theorem mem_out_blk (t : Fin cfg1.N) (i : S8x64x16384.Idx) :
    i ∈ ((cfg1.win 2).blk t).view.set ↔ ∀ a : Fin 3, win1_2.index t a * S1x64x2048.size a ≤ (i a).val
      ∧ (i a).val < win1_2.index t a * S1x64x2048.size a + S1x64x2048.size a := by
  show i ∈ ((View.whole main_v27).slice (win1_2.rect t)).set ↔ _
  rw [View.set_slice_whole, Rect.mem_set_unit]
  exact Iff.rfl

/-- Every index (b, ch, p) of the output is in the block of point 8·b + p / 2048, which is written back. -/
theorem out_cover (i : S8x64x16384.Idx) :
    ∃ t : Fin cfg1.N, (cfg1.win 2).flush t = true ∧ i ∈ ((cfg1.win 2).blk t).view.set := by
  have hi0 : (i 0).val < 8 := (i 0).isLt
  have hi1 : (i 1).val < 64 := (i 1).isLt
  have hi2 : (i 2).val < 16384 := (i 2).isLt
  have hN : cfg1.N = 64 := N_1
  have ht : 8 * (i 0).val + (i 2).val / 2048 < cfg1.N := by omega
  obtain ⟨e0, e1, e2, -⟩ := scale_idx_facts ⟨8 * (i 0).val + (i 2).val / 2048, ht⟩
  have e0' : win1_2.index ⟨8 * (i 0).val + (i 2).val / 2048, ht⟩ (0 : Fin 3) = (8 * (i 0).val + (i 2).val / 2048) / 8 := e0
  have e2' : win1_2.index ⟨8 * (i 0).val + (i 2).val / 2048, ht⟩ (2 : Fin 3) = (8 * (i 0).val + (i 2).val / 2048) % 8 := e2
  refine ⟨⟨8 * (i 0).val + (i 2).val / 2048, ht⟩, flush1_2 _, ?_⟩
  rw [mem_out_blk]
  intro a
  match a with
  | ⟨0, _⟩ =>
    show win1_2.index _ (0 : Fin 3) * 1 ≤ (i 0).val ∧ (i 0).val < win1_2.index _ (0 : Fin 3) * 1 + 1
    rw [e0']; omega
  | ⟨1, _⟩ =>
    show win1_2.index _ (1 : Fin 3) * 64 ≤ (i 1).val ∧ (i 1).val < win1_2.index _ (1 : Fin 3) * 64 + 64
    rw [e1]; omega
  | ⟨2, _⟩ =>
    show win1_2.index _ (2 : Fin 3) * 2048 ≤ (i 2).val ∧ (i 2).val < win1_2.index _ (2 : Fin 3) * 2048 + 2048
    rw [e2']; omega

/-- The output array after the region: x scaled per (batch, channel) by the factor buffer. -/
theorem scale_final (c : Dev nD) :
    (scaleDat (F := Ideal) V c).arrAt 2 cfg1.N = scaleOf (V c main_v0) (V c main_v26) :=
  (scaleDat (F := Ideal) V c).arrAt_eq_of_cover 2 (scaleOf (V c main_v0) (V c main_v26))
    (fun t _ => scale_flushed V c t) (fun i => out_cover i)

/-- The same with the function written out. -/
theorem scale_final_apply (c : Dev nD) (i : S8x64x16384.Idx) :
    ((scaleDat (F := Ideal) V c).arrAt 2 cfg1.N : S8x64x16384.Idx → EReal) i
      = scaleOf (V c main_v0) (V c main_v26) i := by
  rw [scale_final]

end Value

end Cert.ReferenceIdeal.Run

end
-- ==== Proof.RefGate.lean ====
/-
  The reference's result is the gate of its arguments.

  The scaling region leaves, at (b, ch, s), x[b, ch, s] times the scale factor of (b, ch); the last reshape lays that out
  as [8, 64, 16, 32, 32] again. With the scale factor the logistic of the specification's logit, that is `gate`.
-/
import proofs.«161511_g2000005911454314_pallasbulk_286_16_alg».proof.Proof.RefEntry
import proofs.«161511_g2000005911454314_pallasbulk_286_16_alg».proof.Proof.RefScaleValue

set_option maxRecDepth 16384

noncomputable section

namespace Cert.ReferenceIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (Pipeline.UD sig nD τ) ℕ

open Idealize.ShloMosaic.ValueIdx
open scoped BigOperators

variable (m : (ℓ : Loc nD τ sig) → Buf (Elt Ideal) ℓ) (ρ : Dev nD → PrngReg)

/-- The middle stretch and the pooling region leave the [8, 64, 16384] view of x as it was. -/
theorem middle_keeps_input (c : Dev nD) :
    Mem3 m ρ c (Proc.devRef .tc main_v0) = shapeCast S8x64x16384 (argX m c) shapeCasts_S8x64x16x32x32_S8x64x16384 :=
  calc Mem3 m ρ c (Proc.devRef .tc main_v0)
    _ = Mem2 m ρ c (Proc.devRef .tc main_v0) := StableHlo.after_of_writes_sub hostOps1 _ hostOps1_writes (by decide)
    _ = (poolDat (At1 m ρ) c).arrAt 0 cfg0.N := Mem2_arr m ρ c 0
    _ = (poolDat (At1 m ρ) c).A 0 := (poolDat (At1 m ρ) c).arrAt_in 0 rfl _
    _ = At1 m ρ c main_v0 := poolDat_A (At1 m ρ) c 0
    _ = _ := entry_array m ρ c

/-- What the scaling region leaves in its output array. -/
theorem scaled_output (c : Dev nD) :
    Mem4 m ρ c (Proc.devRef .tc main_v27) = scaleOf (At3 m ρ c main_v0) (At3 m ρ c main_v26) :=
  (Mem4_arr m ρ c 2).trans (scale_final (At3 m ρ) c)

/-- The last reshape. -/
theorem final_array (c : Dev nD) :
    Mem5 m ρ c (Proc.devRef .tc main_v28)
      = shapeCast S8x64x16x32x32 (Mem4 m ρ c (Proc.devRef .tc main_v27)) shapeCasts_S8x64x16384_S8x64x16x32x32 := by
  show StableHlo.after hostOps2 (Mem4 m ρ c) (Proc.devRef .tc main_v28) = _
  after_results
  rfl

/-- The scaled array at (b, ch, s): the entry times the factor of (b, ch). -/
theorem scaleOf_apply (x : S8x64x16384.Idx → EReal) (g : S8x64x1.Idx → EReal) (b : Fin 8) (ch : Fin 64) (s : Fin 16384) :
    scaleOf x g (ix3 b ch s) = x (ix3 b ch s) * g (ix3 b ch (0 : Fin 1)) := rfl

/-- THE RESULT: the gate of the five arguments. -/
theorem result_is_gate (c : Dev nD) :
    Mem5 m ρ c (Proc.devRef .tc main_v28)
      = Cert.GateSpec.gate (argX m c) (m ((c : Thread nD τ).loc main_arg1)) (m ((c : Thread nD τ).loc main_arg2))
          (m ((c : Thread nD τ).loc main_arg3)) (m ((c : Thread nD τ).loc main_arg4)) := by
  rw [final_array]
  funext i
  obtain ⟨b, ch, d, h, w, rfl⟩ : ∃ (b : Fin 8) (ch : Fin 64) (d : Fin 16) (h : Fin 32) (w : Fin 32), i = ix5 b ch d h w :=
    ⟨i 0, i 1, i 2, i 3, i 4, eq_ix5 i⟩
  refine (shapeCast_apply _ _ (ix5 b ch d h w) (ix3 b ch (Cert.GateSpec.flatPos d h w)) (by
    rw [Shape.rowMajor_val_three, Shape.rowMajor_val_five]
    show (b.val * 64 + ch.val) * 16384 + (d.val * 1024 + h.val * 32 + w.val) = (((b.val * 64 + ch.val) * 16 + d.val) * 32 + h.val) * 32 + w.val
    omega)).trans ?_
  rw [scaled_output, scaleOf_apply]
  have e1 : At3 m ρ c main_v0 (ix3 b ch (Cert.GateSpec.flatPos d h w)) = argX m c (ix5 b ch d h w) := by
    rw [show At3 m ρ c main_v0 = Mem3 m ρ c (Proc.devRef .tc main_v0) from rfl, middle_keeps_input, entry_apply, Cert.GateSpec.xAt_flatPos]
  have e2 := scale_factor m ρ c b ch
  rw [e1, show At3 m ρ c main_v26 = Mem3 m ρ c (Proc.devRef .tc main_v26) from rfl, e2]
  rfl

/-- THE REFERENCE'S RUN with the claim's post: it terminates with its result array at the gate of its arguments and
    its five argument arrays as launched. -/
theorem reference_run : θ_run (defs (F := Ideal)) (onTc (τ := τ) (main (F := Ideal))) ⟨m, fun _ => 0, ρ⟩ (fun r => ∀ c : Dev nD,
      r.2.mem ((c.tc : Thread nD τ).loc main_v28)
        = Cert.GateSpec.gate (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v28 (by decide))).trans (result_is_gate m ρ c),
     (h c _ (mem_uc main_arg0 (by decide))).trans (kept m ρ c main_arg0 (by decide) (by decide) (by decide) (by decide) (by decide)),
     (h c _ (mem_uc main_arg1 (by decide))).trans (kept m ρ c main_arg1 (by decide) (by decide) (by decide) (by decide) (by decide)),
     (h c _ (mem_uc main_arg2 (by decide))).trans (kept m ρ c main_arg2 (by decide) (by decide) (by decide) (by decide) (by decide)),
     (h c _ (mem_uc main_arg3 (by decide))).trans (kept m ρ c main_arg3 (by decide) (by decide) (by decide) (by decide) (by decide)),
     (h c _ (mem_uc main_arg4 (by decide))).trans (kept m ρ c main_arg4 (by decide) (by decide) (by decide) (by decide) (by decide))⟩)
    (run_all m ρ)

end Cert.ReferenceIdeal.Run

end
-- ==== Proof.lean ====
/-
  The channel gate: a fused kernel against a two-pass reference, equal on the extended reals.

  Both programs compute, for an input x of shape [8, 64, 16, 32, 32] and a two-layer perceptron (w1, b1, w2, b2),
      out[b, c, ·] = x[b, c, ·] · logistic( P(mean_b)[c] + b2[c] + P(max_b)[c] + b2[c] ),
  where mean_b and max_b are the per-channel mean (the sum over the 16384 positions times 2⁻¹⁴) and maximum of x[b],
  and P(p)[c] = Σ_j max(Σ_c' p[c'] · w1[c', j] + b1[j], 0) · w2[j, c]  (`Cert.GateSpec.gate`, Proof/GateSpec.lean).

  The kernel views x channels-last, reduces each batch's [16384, 64] slab in one step, runs the perceptron on the
  stacked pair (mean; max), adds the two rows and twice the bias, and scales. The reference pools in eight tiles of 2048
  positions per batch in a first pallas region (storing at the first tile, accumulating at the later ones), runs the
  perceptron on the host on a [16, 64] stack with the logistic spelled 1 / (1 + exp(−s)), and scales in a second
  region. The differences are: the grouping of a sum and of a maximum (free: both operations are commutative and
  associative on the extended reals); (A + b) + (B + b) against (A + B) + 2·b (2·b = b + b for every extended real); and
  the logistic against its defining expression. No step needs the inputs finite, so the precondition is never opened.

  * The kernel's run and value: Proof/KernelPayload, KernelHost, KernelLaw, KernelBlocks, KernelGate, over the generated
    frame of the idealized kernel.
  * The reference's run: Proof/RefPoolFirst, RefPoolLater, RefPoolData (the pooling region, two control cases),
    RefScale (the scaling region), RefRun (the five segments of @main composed).
  * The reference's value: Proof/RefPoolPayload, RefPoolArray (the pooled arrays), RefMiddleOps, RefMiddleRead,
    RefMiddle (the host perceptron), RefScaleValue (the scaled array), RefEntry, RefGate (the result is the gate).
  * The ideal pass rewrote nothing, so the idealized kernel is the kernel's own text read on the extended reals.
-/
import proofs.«161511_g2000005911454314_pallasbulk_286_16_alg».proof.Defs
import proofs.«161511_g2000005911454314_pallasbulk_286_16_alg».proof.Proof.Gen.Kernel
import proofs.«161511_g2000005911454314_pallasbulk_286_16_alg».proof.Proof.Gen.Kernel.Frame
import proofs.«161511_g2000005911454314_pallasbulk_286_16_alg».proof.Proof.Gen.KernelIdeal
import proofs.«161511_g2000005911454314_pallasbulk_286_16_alg».proof.Proof.Gen.KernelIdeal.Frame
import proofs.«161511_g2000005911454314_pallasbulk_286_16_alg».proof.Proof.Gen.ReferenceIdeal
import proofs.«161511_g2000005911454314_pallasbulk_286_16_alg».proof.Proof.Gen.Pre_finite_inputs
import proofs.«161511_g2000005911454314_pallasbulk_286_16_alg».proof.Proof.KernelGate
import proofs.«161511_g2000005911454314_pallasbulk_286_16_alg».proof.Proof.RefGate

noncomputable section

namespace Cert.Proof.GateClaims

open Idealize.ShloMosaic Idealize.ShloMosaic.TcCoe Idealize.SL.Sem

/-- The word-level kernel terminates, faults nowhere and leaves its arguments as launched. -/
theorem frame_kernel : Cert.frame_Kernel := fun m ρ _ => Cert.Kernel.Gen.frame m ρ

/-- The same for the kernel read on the extended reals. -/
theorem frame_kernel_ideal : Cert.frame_KernelIdeal := fun m ρ _ => Cert.KernelIdeal.Gen.frame m ρ

/-- The same for the reference: its run, with the result dropped. -/
theorem frame_reference : Cert.frame_ReferenceIdeal := fun m ρ _ =>
  (θ_run Cert.ReferenceIdeal.defs _ _).mono (fun _ h c => (h c).2) (Cert.ReferenceIdeal.Run.reference_run m ρ)

/-- The ideal pass rewrote nothing. -/
theorem preserves : Cert.preserves_Kernel_KernelIdeal := trivial

/-- On the extended reals both programs end at the gate of arguments that agree: one function. -/
theorem algebraic : Cert.algebraic_KernelIdeal_ReferenceIdeal := by
  intro m ρ m' ρ' _ hagree
  refine ⟨_, Cert.KernelIdeal.GateValue.run m ρ, ?_⟩
  refine (θ_run Cert.ReferenceIdeal.defs _ _).mono (fun _ h c => ⟨(h c).1.trans ?_, (h c).2⟩)
    (Cert.ReferenceIdeal.Run.reference_run m' ρ')
  rw [(hagree c).1, (hagree c).2.1, (hagree c).2.2.1, (hagree c).2.2.2.1, (hagree c).2.2.2.2]

end Cert.Proof.GateClaims

namespace Cert.Proof

theorem claim : Cert.Claim :=
  ⟨Cert.Kernel.Gen.facts, Cert.KernelIdeal.Gen.facts, Cert.ReferenceIdeal.Gen.facts, Cert.Pre_finite_inputs.Gen.facts,
    GateClaims.frame_kernel, GateClaims.frame_kernel_ideal, GateClaims.frame_reference, GateClaims.preserves, GateClaims.algebraic⟩

end Cert.Proof

end
